-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S2048x8192 : Shape := ⟨2, ![2048, 8192]⟩
abbrev S16384x4 : Shape := ⟨2, ![16384, 4]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S16384x4 : S_.BroadcastsInDim S16384x4 (![] : Fin 0 → Fin S16384x4.rank)
  reducesTo_S16384x4_S_d0_1 : S16384x4.ReducesTo [0, 1] S_

variable [Facts]

def fn_part1 {F : FTy → Type} [FloatOps F] (main_arg4 : FVec F S16384x4 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S16384x4 .f32 := Host.absf main_arg4
  let main_cst_6 : FVec F S_ .f32 := constant S_ .f32 0x7F800000#32
  let main_v20 : FVec F S16384x4 .f32 := broadcastInDim S16384x4 ![] bcast_S_S16384x4 main_cst_6
  let main_v21 : IVec S16384x4 1 := cmpf .olt main_v19 main_v20
  let main_c_7 : IVec S_ 1 := constantI S_ 1 1#1
  let main_v22 : IVec S_ 1 := (fun x v => Host.reduce IntOp.andi x v reducesTo_S16384x4_S_d0_1 h_S_) main_v21 main_c_7
  let main_v23 : IVec S_ 1 := andi main_v18 main_v22
  main_v23

def fn {F : FTy → Type} [FloatOps F] (main_arg0 : FVec F S2x2048x2048 .f32) (main_arg1 : FVec F S8192x2048 .f32) (main_arg2 : FVec F S8192x2048 .f32) (main_arg3 : FVec F S2048x8192 .f32) (main_arg4 : FVec F S16384x4 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S2x2048x2048 : Shape := ⟨3, ![2, 2048, 2048]⟩
abbrev S8192x2048 : Shape := ⟨2, ![8192, 2048]⟩
abbrev S2048x8192 : Shape := ⟨2, ![2048, 8192]⟩
abbrev S16384x4 : Shape := ⟨2, ![16384, 4]⟩
abbrev S8192x4 : Shape := ⟨2, ![8192, 4]⟩
abbrev S4x8192 : Shape := ⟨2, ![4, 8192]⟩
abbrev S1x512x2048 : Shape := ⟨3, ![1, 512, 2048]⟩
abbrev S512x2048 : Shape := ⟨2, ![512, 2048]⟩
abbrev S2048x512 : Shape := ⟨2, ![2048, 512]⟩
abbrev S8x8192 : Shape := ⟨2, ![8, 8192]⟩
abbrev S8x512 : Shape := ⟨2, ![8, 512]⟩
abbrev S512x512 : Shape := ⟨2, ![512, 512]⟩
abbrev S3x512 : Shape := ⟨2, ![3, 512]⟩
abbrev S515x512 : Shape := ⟨2, ![515, 512]⟩
abbrev S1x512 : Shape := ⟨2, ![1, 512]⟩
abbrev S512 : Shape := ⟨1, ![512]⟩

abbrev nBuf : Space → Nat
  | .hbm => 14
  | .vmem => 15
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S16384x4, .f32⟩
  | .hbm, ⟨5, _⟩ => ⟨S2x2048x2048, .bf16⟩
  | .hbm, ⟨6, _⟩ => ⟨S8192x2048, .bf16⟩
  | .hbm, ⟨7, _⟩ => ⟨S8192x2048, .bf16⟩
  | .hbm, ⟨8, _⟩ => ⟨S2048x8192, .bf16⟩
  | .hbm, ⟨9, _⟩ => ⟨S8192x4, .f32⟩
  | .hbm, ⟨10, _⟩ => ⟨S4x8192, .f32⟩
  | .hbm, ⟨11, _⟩ => ⟨S8192x4, .f32⟩
  | .hbm, ⟨12, _⟩ => ⟨S4x8192, .f32⟩
  | .hbm, ⟨13, _⟩ => ⟨S2x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S4x8192, .f32⟩
  | .local _ .vmem, ⟨9, _⟩ => ⟨S4x8192, .f32⟩
  | .local _ .vmem, ⟨10, _⟩ => ⟨S1x512x2048, .f32⟩
  | .local _ .vmem, ⟨11, _⟩ => ⟨S1x512x2048, .f32⟩
  | .local _ .vmem, ⟨12, _⟩ => ⟨S8x8192, .f32⟩
  | .local _ .vmem, ⟨13, _⟩ => ⟨S8x8192, .f32⟩
  | .local _ .vmem, ⟨14, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  v0
def k0_cond2 (i : grid0.Coords) : BitVec 1 :=
  let arg1 : BitVec 32 := BitVec.ofNat 32 (i 1).val
  let c0_i32_1 : BitVec 32 := 0#32
  let v5 : BitVec 1 := Scalar.cmpi .eq arg1 c0_i32_1
  let v6 : BitVec 32 := Scalar.extui v5
  let c0_i32_2 : BitVec 32 := 0#32
  let v7 : BitVec 1 := Scalar.cmpi .ne v6 c0_i32_2
  v7

def k0_off1 (i : grid0.Coords) : Fin 2 → Nat :=
  let c0_27 : Index := 0#32
  let arg2 : BitVec 32 := BitVec.ofNat 32 (i 2).val
  let c512_i32 : BitVec 32 := 512#32
  let v0 : BitVec 32 := Scalar.muli arg2 c512_i32
  let v1 : BitVec 32 := v0
  let v115 : Index := Scalar.indexCast v1
  ![0, v115.toNat]
def k0_off2 (i : grid0.Coords) : Fin 2 → Nat :=
  let c5 : Index := 5#32
  let arg2 : BitVec 32 := BitVec.ofNat 32 (i 2).val
  let c512_i32 : BitVec 32 := 512#32
  let v0 : BitVec 32 := Scalar.muli arg2 c512_i32
  let v1 : BitVec 32 := v0
  let v18 : Index := Scalar.indexCast v1
  ![5, v18.toNat]
def k0_off3 (i : grid0.Coords) : Fin 2 → Nat :=
  let c0_11 : Index := 0#32
  let arg2 : BitVec 32 := BitVec.ofNat 32 (i 2).val
  let c512_i32 : BitVec 32 := 512#32
  let v0 : BitVec 32 := Scalar.muli arg2 c512_i32
  let v1 : BitVec 32 := v0
  let v24 : Index := Scalar.indexCast v1
  ![0, v24.toNat]
def k0_off4 (i : grid0.Coords) : Fin 2 → Nat :=
  let c1 : Index := 1#32
  let arg2 : BitVec 32 := BitVec.ofNat 32 (i 2).val
  let c512_i32 : BitVec 32 := 512#32
  let v0 : BitVec 32 := Scalar.muli arg2 c512_i32
  let v1 : BitVec 32 := v0
  let v40 : Index := Scalar.indexCast v1
  ![1, v40.toNat]
def k0_off5 (i : grid0.Coords) : Fin 2 → Nat :=
  let c2 : Index := 2#32
  let arg2 : BitVec 32 := BitVec.ofNat 32 (i 2).val
  let c512_i32 : BitVec 32 := 512#32
  let v0 : BitVec 32 := Scalar.muli arg2 c512_i32
  let v1 : BitVec 32 := v0
  let v56 : Index := Scalar.indexCast v1
  ![2, v56.toNat]
def k0_off6 (i : grid0.Coords) : Fin 2 → Nat :=
  let c3 : Index := 3#32
  let arg2 : BitVec 32 := BitVec.ofNat 32 (i 2).val
  let c512_i32 : BitVec 32 := 512#32
  let v0 : BitVec 32 := Scalar.muli arg2 c512_i32
  let v1 : BitVec 32 := v0
  let v72 : Index := Scalar.indexCast v1
  ![3, v72.toNat]
def k0_off7 (i : grid0.Coords) : Fin 2 → Nat :=
  let c0_16 : Index := 0#32
  let arg2 : BitVec 32 := BitVec.ofNat 32 (i 2).val
  let c512_i32 : BitVec 32 := 512#32
  let v0 : BitVec 32 := Scalar.muli arg2 c512_i32
  let v1 : BitVec 32 := v0
  let v89 : Index := Scalar.indexCast v1
  ![0, v89.toNat]
def k0_cond3 (i : grid0.Coords) : BitVec 1 :=
  let arg2 : BitVec 32 := BitVec.ofNat 32 (i 2).val
  let c15_i32 : BitVec 32 := 15#32
  let v111 : BitVec 1 := Scalar.cmpi .eq arg2 c15_i32
  let v112 : BitVec 32 := Scalar.extui v111
  let c0_i32_25 : BitVec 32 := 0#32
  let v113 : BitVec 1 := Scalar.cmpi .ne v112 c0_i32_25
  v113

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S4x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S4x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bitsLt_bf16_f32 : FTy.bits .bf16 < FTy.bits .f32
  slices_S16384x4_S8192x4_0_0 : S16384x4.Slices ![0, 0] S8192x4
  transposes_S8192x4_S4x8192_1_0 : S8192x4.Transposes [1, 0] S4x8192
  slices_S16384x4_S8192x4_8192_0 : S16384x4.Slices ![8192, 0] S8192x4
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  h_S8x512 : 0 < S8x512.numel
  shapeCasts_S8x512_S8x512 : S8x512.ShapeCasts S8x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  transposes_S512x2048_p1_0_S2048x512 : S512x2048.Transposes [1, 0] S2048x512
  h_S3x512 : 0 < S3x512.numel
  concatenates_S3x512_S512x512_S515x512_d0 : Shape.Concatenates [S3x512, S512x512] S515x512 0
  h_S1x512 : 0 < S1x512.numel
  shapeCasts_S1x512_S512 : S1x512.ShapeCasts S512
  slices_S515x512_o0_0_S512x512 : S515x512.Slices ![0, 0] S512x512
  shapeCasts_S512_S1x512 : S512.ShapeCasts S1x512
  broadcasts_S1x512_S512x512 : S1x512.Broadcasts S512x512
  slices_S515x512_o1_0_S512x512 : S515x512.Slices ![1, 0] S512x512
  slices_S515x512_o2_0_S512x512 : S515x512.Slices ![2, 0] S512x512
  slices_S515x512_o3_0_S512x512 : S515x512.Slices ![3, 0] S512x512
  slices_S512x512_o504_0_S8x512 : S512x512.Slices ![504, 0] S8x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  shapeCasts_S512x2048_S1x512x2048 : S512x2048.ShapeCasts S1x512x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  k0_mult1_dvd : ∀ i : grid0.Coords, 512 ∣ (k0_mult1 i).toNat
  k0_off1_inb : ∀ i : grid0.Coords, ∀ (k0_h2 : k0_cond2 i = 1#1), ∀ a, (k0_off1 i) a + S8x512.size a ≤ S8x8192.size a
  k0_off2_inb : ∀ i : grid0.Coords, ∀ a, (k0_off2 i) a + S3x512.size a ≤ S8x8192.size a
  k0_off3_inb : ∀ i : grid0.Coords, ∀ a, (k0_off3 i) a + S1x512.size a ≤ S4x8192.size a
  k0_off4_inb : ∀ i : grid0.Coords, ∀ a, (k0_off4 i) a + S1x512.size a ≤ S4x8192.size a
  k0_off5_inb : ∀ i : grid0.Coords, ∀ a, (k0_off5 i) a + S1x512.size a ≤ S4x8192.size a
  k0_off6_inb : ∀ i : grid0.Coords, ∀ a, (k0_off6 i) a + S1x512.size a ≤ S4x8192.size a
  k0_off7_inb : ∀ i : grid0.Coords, ∀ a, (k0_off7 i) a + S8x512.size a ≤ S8x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S2x2048x2048.size a
  hwx0_0 : ∀ i : grid0.Coords, EltTy.bits .bf16 = 32 ∨ (Rect.block (s := S2x2048x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x8192.size a
  hwx0_3 : ∀ i : grid0.Coords, EltTy.bits .bf16 = 32 ∨ (Rect.block (s := S2048x8192) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x8192.size a ≤ S4x8192.size a
  hwx0_4 : ∀ i : grid0.Coords, EltTy.bits .f32 = 32 ∨ (Rect.block (s := S4x8192) S4x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x8192.size a ≤ S4x8192.size a
  hwx0_5 : ∀ i : grid0.Coords, EltTy.bits .f32 = 32 ∨ (Rect.block (s := S4x8192) S4x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S2x2048x2048.size a
  hwx0_6 : ∀ i : grid0.Coords, EltTy.bits .f32 = 32 ∨ (Rect.block (s := S2x2048x2048) S1x512x2048.size (cc0_transform_6 i) (hinb0_6 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S4x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S2048x8192 : Shape := ⟨2, ![2048, 8192]⟩
abbrev S16384x4 : Shape := ⟨2, ![16384, 4]⟩
abbrev S2x2048x8192 : Shape := ⟨3, ![2, 2048, 8192]⟩
abbrev S8192x4 : Shape := ⟨2, ![8192, 4]⟩
abbrev S_ : Shape := ⟨0, ![]⟩
abbrev S2x2051x8192 : Shape := ⟨3, ![2, 2051, 8192]⟩
abbrev S8192x1 : Shape := ⟨2, ![8192, 1]⟩
abbrev S8192 : Shape := ⟨1, ![8192]⟩
abbrev S1x1x8192 : Shape := ⟨3, ![1, 1, 8192]⟩

abbrev nBuf : Space → Nat
  | .hbm => 82
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S16384x4, .f32⟩
  | .hbm, ⟨5, _⟩ => ⟨S2x2048x8192, .f32⟩
  | .hbm, ⟨6, _⟩ => ⟨S2x2048x8192, .f32⟩
  | .hbm, ⟨7, _⟩ => ⟨S8192x4, .f32⟩
  | .hbm, ⟨8, _⟩ => ⟨S_, .i32⟩
  | .hbm, ⟨9, _⟩ => ⟨S_, .f32⟩
  | .hbm, ⟨10, _⟩ => ⟨S2x2051x8192, .f32⟩
  | .hbm, ⟨11, _⟩ => ⟨S2x2048x8192, .f32⟩
  | .hbm, ⟨12, _⟩ => ⟨S8192x1, .f32⟩
  | .hbm, ⟨13, _⟩ => ⟨S8192, .f32⟩
  | .hbm, ⟨14, _⟩ => ⟨S1x1x8192, .f32⟩
  | .hbm, ⟨15, _⟩ => ⟨S2x2048x8192, .f32⟩
  | .hbm, ⟨16, _⟩ => ⟨S2x2048x8192, .f32⟩
  | .hbm, ⟨17, _⟩ => ⟨S2x2048x8192, .f32⟩
  | .hbm, ⟨18, _⟩ => ⟨S8192x1, .f32⟩
  | .hbm, ⟨19, _⟩ => ⟨S8192, .f32⟩
  | .hbm, ⟨20, _⟩ => ⟨S1x1x8192, .f32⟩
  | .hbm, ⟨21, _⟩ => ⟨S2x2048x8192, .f32⟩
  | .hbm, ⟨22, _⟩ => ⟨S2x2048x8192, .f32⟩
  | .hbm, ⟨23, _⟩ => ⟨S2x2048x8192, .f32⟩
  | .hbm, ⟨24, _⟩ => ⟨S2x2048x8192, .f32⟩
  | .hbm, ⟨25, _⟩ => ⟨S8192x1, .f32⟩
  | .hbm, ⟨26, _⟩ => ⟨S8192, .f32⟩
  | .hbm, ⟨27, _⟩ => ⟨S1x1x8192, .f32⟩
  | .hbm, ⟨28, _⟩ => ⟨S2x2048x8192, .f32⟩
  | .hbm, ⟨29, _⟩ => ⟨S2x2048x8192, .f32⟩
  | .hbm, ⟨30, _⟩ => ⟨S2x2048x8192, .f32⟩
  | .hbm, ⟨31, _⟩ => ⟨S2x2048x8192, .f32⟩
  | .hbm, ⟨32, _⟩ => ⟨S8192x1, .f32⟩
  | .hbm, ⟨33, _⟩ => ⟨S8192, .f32⟩
  | .hbm, ⟨34, _⟩ => ⟨S1x1x8192, .f32⟩
  | .hbm, ⟨35, _⟩ => ⟨S2x2048x8192, .f32⟩
  | .hbm, ⟨36, _⟩ => ⟨S2x2048x8192, .f32⟩
  | .hbm, ⟨37, _⟩ => ⟨S2x2048x8192, .f32⟩
  | .hbm, ⟨38, _⟩ => ⟨S2x2048x8192, .f32⟩
  | .hbm, ⟨39, _⟩ => ⟨S8192x4, .f32⟩
  | .hbm, ⟨40, _⟩ => ⟨S_, .i32⟩
  | .hbm, ⟨41, _⟩ => ⟨S_, .f32⟩
  | .hbm, ⟨42, _⟩ => ⟨S2x2051x8192, .f32⟩
  | .hbm, ⟨43, _⟩ => ⟨S2x2048x8192, .f32⟩
  | .hbm, ⟨44, _⟩ => ⟨S8192x1, .f32⟩
  | .hbm, ⟨45, _⟩ => ⟨S8192, .f32⟩
  | .hbm, ⟨46, _⟩ => ⟨S1x1x8192, .f32⟩
  | .hbm, ⟨47, _⟩ => ⟨S2x2048x8192, .f32⟩
  | .hbm, ⟨48, _⟩ => ⟨S2x2048x8192, .f32⟩
  | .hbm, ⟨49, _⟩ => ⟨S2x2048x8192, .f32⟩
  | .hbm, ⟨50, _⟩ => ⟨S8192x1, .f32⟩
  | .hbm, ⟨51, _⟩ => ⟨S8192, .f32⟩
  | .hbm, ⟨52, _⟩ => ⟨S1x1x8192, .f32⟩
  | .hbm, ⟨53, _⟩ => ⟨S2x2048x8192, .f32⟩
  | .hbm, ⟨54, _⟩ => ⟨S2x2048x8192, .f32⟩
  | .hbm, ⟨55, _⟩ => ⟨S2x2048x8192, .f32⟩
  | .hbm, ⟨56, _⟩ => ⟨S2x2048x8192, .f32⟩
  | .hbm, ⟨57, _⟩ => ⟨S8192x1, .f32⟩
  | .hbm, ⟨58, _⟩ => ⟨S8192, .f32⟩
  | .hbm, ⟨59, _⟩ => ⟨S1x1x8192, .f32⟩
  | .hbm, ⟨60, _⟩ => ⟨S2x2048x8192, .f32⟩
  | .hbm, ⟨61, _⟩ => ⟨S2x2048x8192, .f32⟩
  | .hbm, ⟨62, _⟩ => ⟨S2x2048x8192, .f32⟩
  | .hbm, ⟨63, _⟩ => ⟨S2x2048x8192, .f32⟩
  | .hbm, ⟨64, _⟩ => ⟨S8192x1, .f32⟩
  | .hbm, ⟨65, _⟩ => ⟨S8192, .f32⟩
  | .hbm, ⟨66, _⟩ => ⟨S1x1x8192, .f32⟩
  | .hbm, ⟨67, _⟩ => ⟨S2x2048x8192, .f32⟩
  | .hbm, ⟨68, _⟩ => ⟨S2x2048x8192, .f32⟩
  | .hbm, ⟨69, _⟩ => ⟨S2x2048x8192, .f32⟩
  | .hbm, ⟨70, _⟩ => ⟨S2x2048x8192, .f32⟩
  | .hbm, ⟨71, _⟩ => ⟨S2x2048x8192, .f32⟩
  | .hbm, ⟨72, _⟩ => ⟨S2x2048x8192, .f32⟩
  | .hbm, ⟨73, _⟩ => ⟨S_, .f32⟩
  | .hbm, ⟨74, _⟩ => ⟨S2x2048x8192, .f32⟩
  | .hbm, ⟨75, _⟩ => ⟨S2x2048x8192, .f32⟩
  | .hbm, ⟨76, _⟩ => ⟨S_, .f32⟩
  | .hbm, ⟨77, _⟩ => ⟨S2x2048x8192, .f32⟩
  | .hbm, ⟨78, _⟩ => ⟨S2x2048x8192, .f32⟩
  | .hbm, ⟨79, _⟩ => ⟨S2x2048x8192, .f32⟩
  | .hbm, ⟨80, _⟩ => ⟨S2x2048x8192, .f32⟩
  | .hbm, ⟨81, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_0 : Ref sig .tc := ⟨.hbm, 40, rfl⟩
abbrev main_call1_v0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]

class Facts₀ : Prop where
  slices_S16384x4_S8192x4_0_0 : S16384x4.Slices ![0, 0] S8192x4
  pads_S2x2048x8192_S2x2051x8192_000_300_000 : S2x2048x8192.Pads (![0, 3, 0] : Fin 3 → Nat) ![0, 0, 0] ![0, 0, 0] S2x2051x8192
  h_S_ : 0 < S_.numel
  slices_S2x2051x8192_S2x2048x8192_0_0_0 : S2x2051x8192.Slices ![0, 0, 0] S2x2048x8192
  slices_S8192x4_S8192x1_0_0 : S8192x4.Slices ![0, 0] S8192x1
  shapeCasts_S8192x1_S8192 : S8192x1.ShapeCasts S8192
  bcast_S8192_S1x1x8192_2 : S8192.BroadcastsInDim S1x1x8192 (![2] : Fin 1 → Fin S1x1x8192.rank)
  bcast_S1x1x8192_S2x2048x8192_0_1_2 : S1x1x8192.BroadcastsInDim S2x2048x8192 (![0, 1, 2] : Fin 3 → Fin S2x2048x8192.rank)
  slices_S2x2051x8192_S2x2048x8192_0_1_0 : S2x2051x8192.Slices ![0, 1, 0] S2x2048x8192
  slices_S8192x4_S8192x1_0_1 : S8192x4.Slices ![0, 1] S8192x1
  slices_S2x2051x8192_S2x2048x8192_0_2_0 : S2x2051x8192.Slices ![0, 2, 0] S2x2048x8192
  slices_S8192x4_S8192x1_0_2 : S8192x4.Slices ![0, 2] S8192x1
  slices_S2x2051x8192_S2x2048x8192_0_3_0 : S2x2051x8192.Slices ![0, 3, 0] S2x2048x8192
  slices_S8192x4_S8192x1_0_3 : S8192x4.Slices ![0, 3] S8192x1
  slices_S16384x4_S8192x4_8192_0 : S16384x4.Slices ![8192, 0] S8192x4
  bcast_S_S2x2048x8192 : S_.BroadcastsInDim S2x2048x8192 (![] : Fin 0 → Fin S2x2048x8192.rank)
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.Spec.lean ====
/-
  The gated feed-forward layer with a causal depthwise convolution, as ONE function of the five argument arrays,
  element by element on the extended reals.

  For a batch b, a time step t and a hidden channel f:
    proj x w b t f   = Σ_d x[b,t,d] · w[f,d]                                   (the gate / up projection)
    back … t f k     = proj at time t + k - 3, and 0 while t + k < 3            (the sequence padded by three zero rows in front)
    conv … b t f     = proj b t f + (((back 0 · cw[o+f,0] + back 1 · cw[o+f,1]) + back 2 · cw[o+f,2]) + back 3 · cw[o+f,3])
                                                                                (four taps, residual added; o = 0 for the gate
                                                                                 rows of the tap table, 8192 for the up rows)
    hidden b t f     = conv_up · (conv_gate · logistic conv_gate)               (SwiGLU)
    out[b,t,d]       = Σ_f hidden b t f · wd[d,f]                               (the down projection)
-/
import Idealize.ShloMosaic.PureOps.Ideal
import Idealize.ShloMosaic.Lib.ValueIdx

noncomputable section

namespace Cert.GluSpec

open Idealize.ShloMosaic Idealize.ShloMosaic.ValueIdx

abbrev SX : Shape := ⟨3, ![2, 2048, 2048]⟩
abbrev SW : Shape := ⟨2, ![8192, 2048]⟩
abbrev SD : Shape := ⟨2, ![2048, 8192]⟩
abbrev SC : Shape := ⟨2, ![16384, 4]⟩

variable (x : FVec Ideal SX .f32) (w wg wu : FVec Ideal SW .f32) (wd : FVec Ideal SD .f32) (cw : FVec Ideal SC .f32)

/-- One projection entry: row (b, t) of the input against row f of the weight. -/
def proj (b : Fin 2) (t : Fin 2048) (f : Fin 8192) : EReal :=
  ∑ d : Fin 2048, x (ix3 b t d) * w (ix2 f d)

/-- The projection k - 3 steps away in time (k = 0 … 3), zero before the sequence starts. -/
def back (b : Fin 2) (t : Fin 2048) (f : Fin 8192) (k : Fin 4) : EReal :=
  if h : 3 ≤ t.val + k.val then proj x w b ⟨t.val + k.val - 3, by omega⟩ f else 0

/-- Row o + f of the tap table, tap k. -/
def tap (o : Fin 2) (f : Fin 8192) (k : Fin 4) : EReal :=
  cw (ix2 (⟨o.val * 8192 + f.val, by omega⟩ : Fin 16384) k)

/-- The causal four-tap convolution along time with the residual added. -/
def conv (o : Fin 2) (b : Fin 2) (t : Fin 2048) (f : Fin 8192) : EReal :=
  proj x w b t f
    + (((back x w b t f 0 * tap cw o f 0 + back x w b t f 1 * tap cw o f 1)
        + back x w b t f 2 * tap cw o f 2) + back x w b t f 3 * tap cw o f 3)

/-- The gated hidden activation. -/
def hidden (b : Fin 2) (t : Fin 2048) (f : Fin 8192) : EReal :=
  conv x wu cw 1 b t f * (conv x wg cw 0 b t f * Ideal.logistic (conv x wg cw 0 b t f))

/-- The layer's output entry. -/
def outAt (b : Fin 2) (t : Fin 2048) (d : Fin 2048) : EReal :=
  ∑ f : Fin 8192, hidden x wg wu cw b t f * wd (ix2 d f)

/-- The layer's output array. -/
def out : FVec Ideal SX .f32 := fun i => outAt x wg wu wd cw (i 0) (i 1) (i 2)

theorem out_ix3 (b : Fin 2) (t : Fin 2048) (d : Fin 2048) :
    out x wg wu wd cw (ix3 b t d) = outAt x wg wu wd cw b t d := rfl

end Cert.GluSpec

end
-- ==== Proof.RefA.lean ====
/-
  The reference read at an index, first part: a row of the sequence padded by three zero rows in front, the padding
  value, the constant one, and the gate / up projection as the sum over the model dimension.
-/
import proofs.«121193_j53343493816972_2_alg».proof.Proof.Gen.ReferenceIdeal.Read
import proofs.«121193_j53343493816972_2_alg».proof.Proof.Spec
import Idealize.ShloMosaic.Lib.KernelVsHost

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- Row `t + k` of the array padded by three rows in front of the time axis: the operand's row `t + k - 3` from the
    third row on, the padding value before. -/
theorem pad_read (y : (⟨S2x2048x8192, .f32⟩ : BufTy).Contents (Elt Ideal)) (v : (⟨S_, .f32⟩ : BufTy).Contents (Elt Ideal))
    (j : S2x2051x8192.Idx) (b : Fin 2) (t : Fin 2048) (f : Fin 8192) (k : Fin 4)
    (h0 : (j 0).val = b.val) (h1 : (j 1).val = t.val + k.val) (h2 : (j 2).val = f.val) :
    pad S2x2051x8192 ![0, 3, 0] ![0, 0, 0] ![0, 0, 0] y v pads_S2x2048x8192_S2x2051x8192_000_300_000 h_S_ j
      = if h : 3 ≤ t.val + k.val then y (ix3 b (⟨t.val + k.val - 3, by omega⟩ : Fin 2048) f) else v (Shape.Idx.first h_S_) := by
  by_cases h : 3 ≤ t.val + k.val
  · rw [dif_pos h]
    exact pad_apply_of_inside _ _ _ y v _ _ j (ix3 b (⟨t.val + k.val - 3, by omega⟩ : Fin 2048) f) (fun a => match a with
      | ⟨0, _⟩ => by show (j 0).val = 0 + b.val * (0 + 1); omega
      | ⟨1, _⟩ => by show (j 1).val = 3 + (t.val + k.val - 3) * (0 + 1); omega
      | ⟨2, _⟩ => by show (j 2).val = 0 + f.val * (0 + 1); omega)
  · rw [dif_neg h]
    exact pad_apply_of_not_inside _ _ _ y v _ _ j 1 (fun hh => h (by
      have h3 : 3 ≤ (j 1).val := hh.1
      omega))

/-- The padding value: the integer zero converted is the zero of the extended reals. -/
theorem padval0 (j : S_.Idx) : val_main_call0_v0 (F := Ideal) j = 0 := by
  show ((((0#32 : BitVec 32).toInt : ℤ) : ℝ) : EReal) = 0
  simp

theorem padval1 (j : S_.Idx) : val_main_call1_v0 (F := Ideal) j = 0 := by
  show ((((0#32 : BitVec 32).toInt : ℤ) : ℝ) : EReal) = 0
  simp

/-- The pattern of `1.0` denotes the one of the extended reals. -/
theorem ofBits_one : Ideal.ofBits .f32 0x3F800000#32 = 1 := by
  simp [Ideal.ofBits, Ideal.ieee, -EReal.coe_mul]; norm_num

/-- The gate projection at an index is the specification's sum over the model dimension. -/
theorem v0_proj (x0 : (⟨S2x2048x2048, .f32⟩ : BufTy).Contents (Elt Ideal)) (x1 : (⟨S8192x2048, .f32⟩ : BufTy).Contents (Elt Ideal))
    (b : Fin 2) (t : Fin 2048) (f : Fin 8192) :
    val_main_v0 (F := Ideal) x0 x1 (ix3 b t f) = Cert.GluSpec.proj x0 x1 b t f := by
  rw [val_main_v0_apply]
  unfold Cert.GluSpec.proj
  refine Finset.sum_congr rfl fun k _ => ?_
  have el : lidx_main_v0 (ix3 b t f) k = ix3 b t k := funext fun a => by
    match a with | ⟨0, _⟩ => rfl | ⟨1, _⟩ => rfl | ⟨2, _⟩ => rfl
  have er : ridx_main_v0 (ix3 b t f) k = ix2 f k := funext fun a => by
    match a with | ⟨0, _⟩ => rfl | ⟨1, _⟩ => rfl
  rw [el, er]

/-- The up projection likewise. -/
theorem v1_proj (x0 : (⟨S2x2048x2048, .f32⟩ : BufTy).Contents (Elt Ideal)) (x2 : (⟨S8192x2048, .f32⟩ : BufTy).Contents (Elt Ideal))
    (b : Fin 2) (t : Fin 2048) (f : Fin 8192) :
    val_main_v1 (F := Ideal) x0 x2 (ix3 b t f) = Cert.GluSpec.proj x0 x2 b t f := by
  rw [val_main_v1_apply]
  unfold Cert.GluSpec.proj
  refine Finset.sum_congr rfl fun k _ => ?_
  have el : lidx_main_v1 (ix3 b t f) k = ix3 b t k := funext fun a => by
    match a with | ⟨0, _⟩ => rfl | ⟨1, _⟩ => rfl | ⟨2, _⟩ => rfl
  have er : ridx_main_v1 (ix3 b t f) k = ix2 f k := funext fun a => by
    match a with | ⟨0, _⟩ => rfl | ⟨1, _⟩ => rfl
  rw [el, er]

/-- A row of the padded gate projection is the specification's projection `k - 3` steps away, zero before the start. -/
theorem v3_back (x0 : (⟨S2x2048x2048, .f32⟩ : BufTy).Contents (Elt Ideal)) (x1 : (⟨S8192x2048, .f32⟩ : BufTy).Contents (Elt Ideal))
    (j : S2x2051x8192.Idx) (b : Fin 2) (t : Fin 2048) (f : Fin 8192) (k : Fin 4)
    (h0 : (j 0).val = b.val) (h1 : (j 1).val = t.val + k.val) (h2 : (j 2).val = f.val) :
    val_main_v3 (F := Ideal) x0 x1 j = Cert.GluSpec.back x0 x1 b t f k := by
  unfold val_main_v3 Cert.GluSpec.back
  rw [pad_read _ _ j b t f k h0 h1 h2]
  by_cases h : 3 ≤ t.val + k.val
  · rw [dif_pos h, dif_pos h, v0_proj]
  · rw [dif_neg h, dif_neg h, padval0]

theorem v33_back (x0 : (⟨S2x2048x2048, .f32⟩ : BufTy).Contents (Elt Ideal)) (x2 : (⟨S8192x2048, .f32⟩ : BufTy).Contents (Elt Ideal))
    (j : S2x2051x8192.Idx) (b : Fin 2) (t : Fin 2048) (f : Fin 8192) (k : Fin 4)
    (h0 : (j 0).val = b.val) (h1 : (j 1).val = t.val + k.val) (h2 : (j 2).val = f.val) :
    val_main_v33 (F := Ideal) x0 x2 j = Cert.GluSpec.back x0 x2 b t f k := by
  unfold val_main_v33 Cert.GluSpec.back
  rw [pad_read _ _ j b t f k h0 h1 h2]
  by_cases h : 3 ≤ t.val + k.val
  · rw [dif_pos h, dif_pos h, v1_proj]
  · rw [dif_neg h, dif_neg h, padval1]

end Cert.ReferenceIdeal.RefValue

end
-- ==== Proof.RefB.lean ====
/-
  The reference read at an index, second part: the convolution taps and the two branches after the causal convolution.
-/
import proofs.«121193_j53343493816972_2_alg».proof.Proof.RefA

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The gate rows of the tap table, sliced by column, reshaped and broadcast over batch and time: at an index, the
    specification's tap. -/
theorem tapG0 (x4 : (⟨S16384x4, .f32⟩ : BufTy).Contents (Elt Ideal)) (b : Fin 2) (t : Fin 2048) (f : Fin 8192) :
    val_main_v8 (F := Ideal) x4 (ix3 b t f) = Cert.GluSpec.tap x4 0 f 0 := by
  rw [val_main_v8_apply, val_main_v7_apply, val_main_v6_apply, val_main_v5_apply, val_main_v2_apply]
  unfold Cert.GluSpec.tap
  exact congrArg x4 (funext fun a => Fin.ext (by
    match a with
    | ⟨0, _⟩ => show f.val / 1 = (0 : Fin 2).val * 8192 + f.val; simp
    | ⟨1, _⟩ => rfl))

theorem tapG1 (x4 : (⟨S16384x4, .f32⟩ : BufTy).Contents (Elt Ideal)) (b : Fin 2) (t : Fin 2048) (f : Fin 8192) :
    val_main_v14 (F := Ideal) x4 (ix3 b t f) = Cert.GluSpec.tap x4 0 f 1 := by
  rw [val_main_v14_apply, val_main_v13_apply, val_main_v12_apply, val_main_v11_apply, val_main_v2_apply]
  unfold Cert.GluSpec.tap
  exact congrArg x4 (funext fun a => Fin.ext (by
    match a with
    | ⟨0, _⟩ => show f.val / 1 = (0 : Fin 2).val * 8192 + f.val; simp
    | ⟨1, _⟩ => rfl))

theorem tapG2 (x4 : (⟨S16384x4, .f32⟩ : BufTy).Contents (Elt Ideal)) (b : Fin 2) (t : Fin 2048) (f : Fin 8192) :
    val_main_v21 (F := Ideal) x4 (ix3 b t f) = Cert.GluSpec.tap x4 0 f 2 := by
  rw [val_main_v21_apply, val_main_v20_apply, val_main_v19_apply, val_main_v18_apply, val_main_v2_apply]
  unfold Cert.GluSpec.tap
  exact congrArg x4 (funext fun a => Fin.ext (by
    match a with
    | ⟨0, _⟩ => show f.val / 1 = (0 : Fin 2).val * 8192 + f.val; simp
    | ⟨1, _⟩ => rfl))

theorem tapG3 (x4 : (⟨S16384x4, .f32⟩ : BufTy).Contents (Elt Ideal)) (b : Fin 2) (t : Fin 2048) (f : Fin 8192) :
    val_main_v28 (F := Ideal) x4 (ix3 b t f) = Cert.GluSpec.tap x4 0 f 3 := by
  rw [val_main_v28_apply, val_main_v27_apply, val_main_v26_apply, val_main_v25_apply, val_main_v2_apply]
  unfold Cert.GluSpec.tap
  exact congrArg x4 (funext fun a => Fin.ext (by
    match a with
    | ⟨0, _⟩ => show f.val / 1 = (0 : Fin 2).val * 8192 + f.val; simp
    | ⟨1, _⟩ => rfl))

/-- The up rows likewise: the slice starts at row 8192. -/
theorem tapU0 (x4 : (⟨S16384x4, .f32⟩ : BufTy).Contents (Elt Ideal)) (b : Fin 2) (t : Fin 2048) (f : Fin 8192) :
    val_main_v38 (F := Ideal) x4 (ix3 b t f) = Cert.GluSpec.tap x4 1 f 0 := by
  rw [val_main_v38_apply, val_main_v37_apply, val_main_v36_apply, val_main_v35_apply, val_main_v32_apply]
  unfold Cert.GluSpec.tap
  exact congrArg x4 (funext fun a => Fin.ext (by
    match a with
    | ⟨0, _⟩ => show 8192 + f.val / 1 = (1 : Fin 2).val * 8192 + f.val; simp
    | ⟨1, _⟩ => rfl))

theorem tapU1 (x4 : (⟨S16384x4, .f32⟩ : BufTy).Contents (Elt Ideal)) (b : Fin 2) (t : Fin 2048) (f : Fin 8192) :
    val_main_v44 (F := Ideal) x4 (ix3 b t f) = Cert.GluSpec.tap x4 1 f 1 := by
  rw [val_main_v44_apply, val_main_v43_apply, val_main_v42_apply, val_main_v41_apply, val_main_v32_apply]
  unfold Cert.GluSpec.tap
  exact congrArg x4 (funext fun a => Fin.ext (by
    match a with
    | ⟨0, _⟩ => show 8192 + f.val / 1 = (1 : Fin 2).val * 8192 + f.val; simp
    | ⟨1, _⟩ => rfl))

theorem tapU2 (x4 : (⟨S16384x4, .f32⟩ : BufTy).Contents (Elt Ideal)) (b : Fin 2) (t : Fin 2048) (f : Fin 8192) :
    val_main_v51 (F := Ideal) x4 (ix3 b t f) = Cert.GluSpec.tap x4 1 f 2 := by
  rw [val_main_v51_apply, val_main_v50_apply, val_main_v49_apply, val_main_v48_apply, val_main_v32_apply]
  unfold Cert.GluSpec.tap
  exact congrArg x4 (funext fun a => Fin.ext (by
    match a with
    | ⟨0, _⟩ => show 8192 + f.val / 1 = (1 : Fin 2).val * 8192 + f.val; simp
    | ⟨1, _⟩ => rfl))

theorem tapU3 (x4 : (⟨S16384x4, .f32⟩ : BufTy).Contents (Elt Ideal)) (b : Fin 2) (t : Fin 2048) (f : Fin 8192) :
    val_main_v58 (F := Ideal) x4 (ix3 b t f) = Cert.GluSpec.tap x4 1 f 3 := by
  rw [val_main_v58_apply, val_main_v57_apply, val_main_v56_apply, val_main_v55_apply, val_main_v32_apply]
  unfold Cert.GluSpec.tap
  exact congrArg x4 (funext fun a => Fin.ext (by
    match a with
    | ⟨0, _⟩ => show 8192 + f.val / 1 = (1 : Fin 2).val * 8192 + f.val; simp
    | ⟨1, _⟩ => rfl))

/-- The gate branch after the causal convolution: the projection plus the four taps, in the reference's own nesting. -/
theorem v31_conv (x0 : (⟨S2x2048x2048, .f32⟩ : BufTy).Contents (Elt Ideal)) (x1 : (⟨S8192x2048, .f32⟩ : BufTy).Contents (Elt Ideal))
    (x4 : (⟨S16384x4, .f32⟩ : BufTy).Contents (Elt Ideal)) (b : Fin 2) (t : Fin 2048) (f : Fin 8192) :
    val_main_v31 (F := Ideal) x0 x1 x4 (ix3 b t f) = Cert.GluSpec.conv x0 x1 x4 0 b t f := by
  rw [val_main_v31_apply, val_main_v30_apply, val_main_v29_apply, val_main_v23_apply, val_main_v22_apply, val_main_v16_apply, val_main_v15_apply, val_main_v9_apply,
    val_main_v4_apply, val_main_v10_apply, val_main_v17_apply, val_main_v24_apply,
    tapG0, tapG1, tapG2, tapG3, v0_proj,
    v3_back x0 x1 (idx_main_v4 (ix3 b t f)) b t f 0 rfl rfl rfl,
    v3_back x0 x1 (idx_main_v10 (ix3 b t f)) b t f 1 rfl (Nat.add_comm 1 t.val) rfl,
    v3_back x0 x1 (idx_main_v17 (ix3 b t f)) b t f 2 rfl (Nat.add_comm 2 t.val) rfl,
    v3_back x0 x1 (idx_main_v24 (ix3 b t f)) b t f 3 rfl (Nat.add_comm 3 t.val) rfl]
  simp only [Cert.GluSpec.conv, Ideal.addf_def, Ideal.mulf_def]

/-- The up branch likewise. -/
theorem v61_conv (x0 : (⟨S2x2048x2048, .f32⟩ : BufTy).Contents (Elt Ideal)) (x2 : (⟨S8192x2048, .f32⟩ : BufTy).Contents (Elt Ideal))
    (x4 : (⟨S16384x4, .f32⟩ : BufTy).Contents (Elt Ideal)) (b : Fin 2) (t : Fin 2048) (f : Fin 8192) :
    val_main_v61 (F := Ideal) x0 x2 x4 (ix3 b t f) = Cert.GluSpec.conv x0 x2 x4 1 b t f := by
  rw [val_main_v61_apply, val_main_v60_apply, val_main_v59_apply, val_main_v53_apply, val_main_v52_apply, val_main_v46_apply, val_main_v45_apply, val_main_v39_apply,
    val_main_v34_apply, val_main_v40_apply, val_main_v47_apply, val_main_v54_apply,
    tapU0, tapU1, tapU2, tapU3, v1_proj,
    v33_back x0 x2 (idx_main_v34 (ix3 b t f)) b t f 0 rfl rfl rfl,
    v33_back x0 x2 (idx_main_v40 (ix3 b t f)) b t f 1 rfl (Nat.add_comm 1 t.val) rfl,
    v33_back x0 x2 (idx_main_v47 (ix3 b t f)) b t f 2 rfl (Nat.add_comm 2 t.val) rfl,
    v33_back x0 x2 (idx_main_v54 (ix3 b t f)) b t f 3 rfl (Nat.add_comm 3 t.val) rfl]
  simp only [Cert.GluSpec.conv, Ideal.addf_def, Ideal.mulf_def]

end Cert.ReferenceIdeal.RefValue

end
-- ==== Proof.RefStages.lean ====
/-
  The reference's run read one host operation at a time: what each stage of the reference holds at an index, and the
  result array as the specification's function of the five argument arrays.
-/
import proofs.«121193_j53343493816972_2_alg».proof.Proof.Gen.ReferenceIdeal.Read
import proofs.«121193_j53343493816972_2_alg».proof.Proof.RefB

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The gated hidden activation: the up branch times the gate branch times its logistic, the logistic spelled
    `1 / (1 + exp (-x))` by the reference. -/
theorem v63_hidden (x0 : (⟨S2x2048x2048, .f32⟩ : BufTy).Contents (Elt Ideal)) (x1 x2 : (⟨S8192x2048, .f32⟩ : BufTy).Contents (Elt Ideal))
    (x4 : (⟨S16384x4, .f32⟩ : BufTy).Contents (Elt Ideal)) (b : Fin 2) (t : Fin 2048) (f : Fin 8192) :
    val_main_v63 (F := Ideal) x0 x1 x2 x4 (ix3 b t f) = Cert.GluSpec.hidden x0 x1 x2 x4 b t f := by
  rw [val_main_v63_apply, val_main_v62_apply, val_main_call2_v5_apply, val_main_call2_v4_apply, val_main_call2_cst_0_apply,
    val_main_call2_v3_apply, val_main_call2_v2_apply, val_main_call2_cst_apply, val_main_call2_v1_apply, val_main_call2_v0_apply,
    v61_conv, v31_conv]
  simp only [Cert.GluSpec.hidden, Ideal.logistic, Ideal.mulf_def, Ideal.addf_def, Ideal.hostDivf_def, Ideal.hostUnary_exp_def,
    Ideal.hostNegf_def, Ideal.negf_def, Ideal.ofBits_def, ofBits_one]

/-- The reference's result array is the specification's: the down projection of the hidden activation, entry by entry. -/
theorem ref_eq
    (x0 : (⟨S2x2048x2048, .f32⟩ : BufTy).Contents (Elt Ideal)) (x1 x2 : (⟨S8192x2048, .f32⟩ : BufTy).Contents (Elt Ideal))
    (x3 : (⟨S2048x8192, .f32⟩ : BufTy).Contents (Elt Ideal)) (x4 : (⟨S16384x4, .f32⟩ : BufTy).Contents (Elt Ideal)) :
    Cert.ReferenceIdeal.Read.val_main_v64 (F := Ideal) x0 x1 x2 x3 x4 = Cert.GluSpec.out x0 x1 x2 x3 x4 := by
  funext i
  obtain ⟨b, t, d, rfl⟩ : ∃ (b : Fin 2) (t : Fin 2048) (d : Fin 2048), i = ix3 b t d := ⟨i 0, i 1, i 2, eq_ix3 i⟩
  rw [val_main_v64_apply, Cert.GluSpec.out_ix3]
  unfold Cert.GluSpec.outAt
  refine Finset.sum_congr rfl fun k _ => ?_
  have el : lidx_main_v64 (ix3 b t d) k = ix3 b t k := funext fun a => by
    match a with | ⟨0, _⟩ => rfl | ⟨1, _⟩ => rfl | ⟨2, _⟩ => rfl
  have er : ridx_main_v64 (ix3 b t d) k = ix2 d k := funext fun a => by
    match a with | ⟨0, _⟩ => rfl | ⟨1, _⟩ => rfl
  rw [el, er, v63_hidden]

end Cert.ReferenceIdeal.RefValue

end
-- ==== Proof.KI.Runs.lean ====
/- The body's runs, shared part: the three branch conditions of the kernel body as propositions over the grid
   coordinates with their closed forms over the 128 points, where the output window is idle or live, the staging
   memrefs the pipeline passes at a point, the three scratch operands as whole memrefs, and the region invariant
   spelled as the three scratches owned at some contents. -/
import proofs.«121193_j53343493816972_2_alg».proof.Proof.Gen.KernelIdeal.Launch
import proofs.«121193_j53343493816972_2_alg».proof.Proof.Gen.KernelIdeal.Skeleton
import proofs.«121193_j53343493816972_2_alg».proof.Proof.Gen.KernelIdeal.Points
import proofs.«121193_j53343493816972_2_alg».proof.Proof.Gen.KernelIdeal.Frame
import Idealize.ShloMosaic.Lib.Pipeline.FrameBody
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the first branch (feature block 0: the accumulator is zeroed), from the grid coordinates. -/
abbrev cond0_1 (i : grid0.Coords) : Prop := (Scalar.cmpi .ne (Scalar.extui (Scalar.cmpi .eq (BitVec.ofNat 32 (i 2).val) 0#32)) 0#32) = 1#1
/-- It holds at the points ≡ 0 (mod 16). -/
theorem hcond0_1 : ∀ t : Fin cfg0.N, cond0_1 (grid0.coords t) ↔ t.val % 16 = 0 :=
  (by decide +kernel : ∀ t : Fin grid0.N, cond0_1 (grid0.coords t) ↔ t.val % 16 = 0)

/-- The condition of the second branch (row block 0: the halo columns of the feature block are zeroed). -/
abbrev cond0_2 (i : grid0.Coords) : Prop := k0_cond2 i = 1#1
/-- It holds at the points whose row-block coordinate is 0. -/
theorem hcond0_2 : ∀ t : Fin cfg0.N, cond0_2 (grid0.coords t) ↔ (t.val / 16) % 4 = 0 :=
  (by decide +kernel : ∀ t : Fin grid0.N, cond0_2 (grid0.coords t) ↔ (t.val / 16) % 4 = 0)

/-- The condition of the third branch (feature block 15: the accumulator is stored to the output block). -/
abbrev cond0_3 (i : grid0.Coords) : Prop := k0_cond3 i = 1#1
/-- It holds at the points ≡ 15 (mod 16). -/
theorem hcond0_3 : ∀ t : Fin cfg0.N, cond0_3 (grid0.coords t) ↔ t.val % 16 = 15 :=
  (by decide +kernel : ∀ t : Fin grid0.N, cond0_3 (grid0.coords t) ↔ t.val % 16 = 15)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Where the third branch is not taken the output window is idle: nothing is stored into it. -/
theorem idleAt0_6 : ∀ t : Fin cfg0.N, ¬cond0_3 (grid0.coords t) → cfg0.idle 6 (grid0.coords t) = true := by decide +kernel
/-- Where the third branch is not taken the output block is not written back. -/
theorem noFlush0_6 : ∀ t : Fin cfg0.N, ¬cond0_3 (grid0.coords t) → (cfg0.win 6).flush t = false := by decide +kernel
/-- Where the third branch is taken the output window is live. -/
theorem liveAt0_6 : ∀ t : Fin cfg0.N, cond0_3 (grid0.coords t) → cfg0.idle 6 (grid0.coords t) = false := by decide +kernel

/-! ## The memrefs the body runs on -/

/-- One staging buffer of the output window, through which its contents are stated. -/
abbrev VO0_6 : View sig .tc .vmem S1x512x2048 .f32 := (Memref.whole cc0_stg6_0 : Memref sig .tc .vmem S1x512x2048 .f32).view
abbrev ms0_0 (t : Fin cfg0.N) : Memref sig .tc .vmem S1x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x2048 .f32 := win0_6.stage (cfg0.slots t 6)
abbrev hs0_6 (t : Fin cfg0.N) : (ms0_6 t).IsWhole := hstage0_6 ((cfg0.slots t 6).cast nbuf0_6)
/-- The scratch operands: whole scoped buffers, passed beside the windows; all three are carried between points. -/
abbrev scM0_0 : Memref sig .tc .vmem S8x8192 .f32 := Memref.whole cc0_scratch0
abbrev scM0_1 : Memref sig .tc .vmem S8x8192 .f32 := Memref.whole cc0_scratch1
abbrev scM0_2 : Memref sig .tc .vmem S512x2048 .f32 := Memref.whole cc0_scratch2
abbrev VS0_0 : View sig .tc .vmem S8x8192 .f32 := scM0_0.view
abbrev VS0_1 : View sig .tc .vmem S8x8192 .f32 := scM0_1.view
abbrev VS0_2 : View sig .tc .vmem S512x2048 .f32 := scM0_2.view

/-- The region invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KI.State.lean ====
/-
  What the kernel carries from one grid point to the next, as closed functions of the point.

  The grid is (batch b, row block t, column block f) = (2, 4, 16); point number n = 64 b + 16 t + f. At point n the body forms the
  gate and up projections of the point's 512 rows against column block f (512 channels), convolves them along time with four taps —
  the three rows before the block come from the last rows of the SAME column block one row block earlier (point n - 16), kept in a
  scratch, or are zero in the first row block —, gates them, and adds their product with the point's block of the down projection into
  an accumulator that is reset in column block 0 and written out in column block 15.
    gNew, uNew     the raw projections of the point (512 x 512)
    keepG, keepU   their last eight rows, which the body leaves in the scratch's column block f
    haloInG/U      the three rows the body finds in front of the block: rows 5..7 of what point n - 16 kept, or zeros
    tapG, tapU     tap k of the convolution for the point's 512 channels
    gConv, uConv   the convolved projections
    accAt          the accumulator after point n: the point's product added to zero (f = 0) or to what point n - 1 left
-/
import proofs.«121193_j53343493816972_2_alg».proof.Proof.Gen.KernelIdeal.Frame
import proofs.«121193_j53343493816972_2_alg».proof.Proof.Gen.KernelIdeal.Skeleton
import Idealize.ShloMosaic.Lib.ValueIdx

noncomputable section

namespace Cert.KernelIdeal.Gen

open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ) (c : Dev nD)

/-- The grid has 128 points. -/
theorem N_128 : cfg0.N = 128 := N_0

/-- The point one row block earlier in the same batch and column block. -/
def prevRow (n : Fin cfg0.N) : Fin cfg0.N := ⟨n.val - 16, lt_of_le_of_lt (Nat.sub_le _ _) n.isLt⟩

/-- The gate projection of the point's rows against its column block. -/
def gNew (n : Fin cfg0.N) : FVec F S512x512 .f32 := k0_pay9 (iblk m c 0 n) (iblk m c 1 n)
/-- The up projection of the point's rows against its column block. -/
def uNew (n : Fin cfg0.N) : FVec F S512x512 .f32 := k0_pay10 (iblk m c 0 n) (iblk m c 2 n)
/-- The last eight rows of the gate projection: what the point leaves in the gate scratch's column block. -/
def keepG (n : Fin cfg0.N) : FVec F S8x512 .f32 := k0_pay1 (k0_pay18 (gNew m c n))
/-- The last eight rows of the up projection: what the point leaves in the up scratch's column block. -/
def keepU (n : Fin cfg0.N) : FVec F S8x512 .f32 := k0_pay2 (uNew m c n)

/-- Rows 5, 6, 7 of an eight-row block. -/
def lastThree (v : FVec F S8x512 .f32) : FVec F S3x512 .f32 :=
  fun y => v (ix2 (⟨5 + (y 0).val, by have := idx2_lt0 y; omega⟩ : Fin 8) (⟨(y 1).val, idx2_lt1 y⟩ : Fin 512))

/-- The three gate rows in front of the point's block: zeros in the first row block, else the last rows kept one row block earlier. -/
def haloInG (n : Fin cfg0.N) : FVec F S3x512 .f32 :=
  lastThree (if n.val / 16 % 4 = 0 then k0_pay6 else keepG m c (prevRow n))
/-- The three up rows in front of the point's block. -/
def haloInU (n : Fin cfg0.N) : FVec F S3x512 .f32 :=
  lastThree (if n.val / 16 % 4 = 0 then k0_pay7 else keepU m c (prevRow n))

/-- Column block f of an 8 x 8192 scratch. -/
def colBlock (s : Vec F S8x8192 .f32) (f : ℕ) (hf : f < 16) : FVec F S8x512 .f32 :=
  fun y => s (ix2 (⟨(y 0).val, idx2_lt0 y⟩ : Fin 8) (⟨f * 512 + (y 1).val, by have := idx2_lt1 y; omega⟩ : Fin 8192))

/-- Tap k of the gate's convolution for the point's 512 channels, as a one-row block. -/
def tapG (k : Fin 4) (n : Fin cfg0.N) : FVec F S1x512 .f32 :=
  fun y => (iblk m c 4 n : Vec F S4x8192 .f32) (ix2 k (⟨n.val % 16 * 512 + (y 1).val, by have := idx2_lt1 y; omega⟩ : Fin 8192))
/-- Tap k of the up branch's convolution for the point's 512 channels. -/
def tapU (k : Fin 4) (n : Fin cfg0.N) : FVec F S1x512 .f32 :=
  fun y => (iblk m c 5 n : Vec F S4x8192 .f32) (ix2 k (⟨n.val % 16 * 512 + (y 1).val, by have := idx2_lt1 y; omega⟩ : Fin 8192))

/-- The convolved gate projection of the point. -/
def gConv (n : Fin cfg0.N) : FVec F S512x512 .f32 :=
  k0_pay16 (k0_pay11 (iblk m c 0 n) (iblk m c 1 n) (haloInG m c n))
    (k0_pay13 (iblk m c 0 n) (iblk m c 1 n) (haloInG m c n) (tapG m c 0 n)) (tapG m c 1 n) (tapG m c 2 n) (tapG m c 3 n)
/-- The convolved up projection of the point. -/
def uConv (n : Fin cfg0.N) : FVec F S512x512 .f32 :=
  k0_pay17 (k0_pay10 (iblk m c 0 n) (iblk m c 2 n)) (k0_pay12 (iblk m c 0 n) (iblk m c 2 n) (haloInU m c n))
    (k0_pay14 (iblk m c 0 n) (iblk m c 2 n) (haloInU m c n)) (k0_pay15 (tapU m c 0 n)) (tapU m c 1 n) (tapU m c 2 n) (tapU m c 3 n)

/-- The accumulator after point n: the point's gated product with its block of the down projection, added to zero in column block 0
    and otherwise to what the point before left. -/
def accAt : (n : ℕ) → n < cfg0.N → FVec F S512x2048 .f32
  | 0, h => k0_pay3 (gConv m c ⟨0, h⟩) (uConv m c ⟨0, h⟩) (iblk m c 3 ⟨0, h⟩) k0_pay5
  | n + 1, h => k0_pay3 (gConv m c ⟨n + 1, h⟩) (uConv m c ⟨n + 1, h⟩) (iblk m c 3 ⟨n + 1, h⟩)
      (if (n + 1) % 16 = 0 then k0_pay5 else accAt n (Nat.lt_of_succ_lt h))

/-- The accumulator a point starts from. -/
def accIn (n : Fin cfg0.N) : FVec F S512x2048 .f32 :=
  if n.val % 16 = 0 then k0_pay5 else accAt m c (n.val - 1) (lt_of_le_of_lt (Nat.sub_le _ _) n.isLt)

theorem accAt_eq (n : Fin cfg0.N) :
    accAt m c n.val n.isLt = k0_pay3 (gConv m c n) (uConv m c n) (iblk m c 3 n) (accIn m c n) := by
  obtain ⟨n, hn⟩ := n
  cases n with
  | zero => rfl
  | succ n => rfl

/-- What the output window's buffer holds after a point that stores into it (column block 15). -/
def outAfter (n : Fin cfg0.N) : FVec F S1x512x2048 .f32 := k0_pay4 (accAt m c n.val n.isLt)

/-- What is known of the three scratches after point n: each column block of the two row scratches that one of the last sixteen points
    stored holds that point's last eight rows, and the accumulator holds the running sum. -/
def Carried (n : ℕ) (hn : n < cfg0.N) (s0 s1 : Vec F S8x8192 .f32) (s2 : Vec F S512x2048 .f32) : Prop :=
  (∀ k : Fin cfg0.N, k.val ≤ n → n < k.val + 16 → colBlock s0 (k.val % 16) (Nat.mod_lt _ (by decide)) = keepG m c k)
  ∧ (∀ k : Fin cfg0.N, k.val ≤ n → n < k.val + 16 → colBlock s1 (k.val % 16) (Nat.mod_lt _ (by decide)) = keepU m c k)
  ∧ s2 = accAt m c n hn

end Cert.KernelIdeal.Gen

end
-- ==== Proof.KI.Step.lean ====
/-
  One grid point's arithmetic as functions of what the body loads, and how a store of one 8 x 512 column block
  changes an 8 x 8192 scratch.

  At coordinates i (column block i 2) the body reads, besides its four matrix blocks, rows 5..7 of its column block of each row
  scratch (`rowsIn`), and one row of taps per tap index (`tapOf`); `gConvOf` / `uConvOf` are the convolved projections and `accOf`
  the accumulator it stores, all over the printed payloads. A store of an 8 x 512 block at column offset 512 · (i 2) replaces
  exactly that column block (`colBlock_store_same`) and leaves every other column block as it was (`colBlock_store_other`).
-/
import proofs.«121193_j53343493816972_2_alg».proof.Proof.KI.State
import Idealize.ShloMosaic.Lib.WritesUnit

noncomputable section

namespace Cert.KernelIdeal.Gen

open Idealize.ShloMosaic Idealize.ShloMosaic.TcCoe Idealize.ShloMosaic.ValueIdx
open Idealize.SL Idealize.SL.Sem

variable {F : FTy → Type} [FloatOps F]

/-- The column block of a point is below 16. -/
theorem col_lt (i : grid0.Coords) : (i 2).val < 16 := (i 2).isLt

/-- The grid coordinates of point n: batch n / 64, row block n / 16 % 4, column block n % 16. -/
theorem coords_col : ∀ n : Fin cfg0.N, ((grid0.coords n) 2).val = n.val % 16 :=
  (by decide +kernel : ∀ n : Fin grid0.N, ((grid0.coords n) 2).val = n.val % 16)

/-- Rows 5..7 of column block (i 2) of a row scratch. -/
def rowsIn (i : grid0.Coords) (xs : Vec F S8x8192 .f32) : FVec F S3x512 .f32 :=
  fun y => xs (ix2 (⟨5 + (y 0).val, by have := idx2_lt0 y; omega⟩ : Fin 8)
    (⟨(i 2).val * 512 + (y 1).val, by have := idx2_lt1 y; have := col_lt i; omega⟩ : Fin 8192))

/-- Tap k for the 512 channels of column block (i 2), as a one-row block. -/
def tapOf (i : grid0.Coords) (x : Vec F S4x8192 .f32) (k : Fin 4) : FVec F S1x512 .f32 :=
  fun y => x (ix2 k (⟨(i 2).val * 512 + (y 1).val, by have := idx2_lt1 y; have := col_lt i; omega⟩ : Fin 8192))

/-- The convolved gate projection from the loaded blocks, the three rows in front and the taps. -/
def gConvOf (i : grid0.Coords) (x0 : Vec F S1x512x2048 .bf16) (x1 : Vec F S512x2048 .bf16) (h : FVec F S3x512 .f32)
    (x4 : Vec F S4x8192 .f32) : FVec F S512x512 .f32 :=
  k0_pay16 (k0_pay11 x0 x1 h) (k0_pay13 x0 x1 h (tapOf i x4 0)) (tapOf i x4 1) (tapOf i x4 2) (tapOf i x4 3)

/-- The convolved up projection. -/
def uConvOf (i : grid0.Coords) (x0 : Vec F S1x512x2048 .bf16) (x2 : Vec F S512x2048 .bf16) (h : FVec F S3x512 .f32)
    (x5 : Vec F S4x8192 .f32) : FVec F S512x512 .f32 :=
  k0_pay17 (k0_pay10 x0 x2) (k0_pay12 x0 x2 h) (k0_pay14 x0 x2 h) (k0_pay15 (tapOf i x5 0)) (tapOf i x5 1) (tapOf i x5 2) (tapOf i x5 3)

/-- The accumulator the point stores: the gated product with the down-projection block added to the accumulator it starts from. -/
def accOf (i : grid0.Coords) (x0 : Vec F S1x512x2048 .bf16) (x1 x2 : Vec F S512x2048 .bf16) (x3 : Vec F S2048x512 .bf16)
    (x4 x5 : Vec F S4x8192 .f32) (hg hu : FVec F S3x512 .f32) (acc : Vec F S512x2048 .f32) : FVec F S512x2048 .f32 :=
  k0_pay3 (gConvOf i x0 x1 hg x4) (uConvOf i x0 x2 hu x5) x3 acc

variable (m : (ℓ : Loc nD τ sig) → Buf (Elt F) ℓ) (c : Dev nD)

theorem tapG_eq (k : Fin 4) (n : Fin cfg0.N) : tapG m c k n = tapOf (grid0.coords n) (iblk m c 4 n) k := by
  funext y; unfold tapG tapOf
  exact congrArg _ (congrArg (ix2 k) (Fin.ext (by have h := coords_col n; show n.val % 16 * 512 + (y 1).val = ((grid0.coords n) 2).val * 512 + (y 1).val; rw [h])))

theorem tapU_eq (k : Fin 4) (n : Fin cfg0.N) : tapU m c k n = tapOf (grid0.coords n) (iblk m c 5 n) k := by
  funext y; unfold tapU tapOf
  exact congrArg _ (congrArg (ix2 k) (Fin.ext (by have h := coords_col n; show n.val % 16 * 512 + (y 1).val = ((grid0.coords n) 2).val * 512 + (y 1).val; rw [h])))

theorem gConv_eq (n : Fin cfg0.N) :
    gConv m c n = gConvOf (grid0.coords n) (iblk m c 0 n) (iblk m c 1 n) (haloInG m c n) (iblk m c 4 n) := by
  unfold gConv gConvOf; rw [tapG_eq, tapG_eq, tapG_eq, tapG_eq]

theorem uConv_eq (n : Fin cfg0.N) :
    uConv m c n = uConvOf (grid0.coords n) (iblk m c 0 n) (iblk m c 2 n) (haloInU m c n) (iblk m c 5 n) := by
  unfold uConv uConvOf; rw [tapU_eq, tapU_eq, tapU_eq, tapU_eq]

/-- The accumulator after point n from what the point loads. -/
theorem accAt_step (n : Fin cfg0.N) :
    accAt m c n.val n.isLt = accOf (grid0.coords n) (iblk m c 0 n) (iblk m c 1 n) (iblk m c 2 n) (iblk m c 3 n) (iblk m c 4 n) (iblk m c 5 n)
      (haloInG m c n) (haloInU m c n) (accIn m c n) := by
  rw [accAt_eq, gConv_eq, uConv_eq]; rfl

/-- Rows 5..7 of column block f of a scratch are the last three rows of that column block. -/
theorem rowsIn_eq (i : grid0.Coords) (xs : Vec F S8x8192 .f32) : rowsIn i xs = lastThree (colBlock xs (i 2).val (col_lt i)) := rfl

section Store

variable {sig' : RefSig} {κ : Kind} {sp : Space} (v : View sig' κ sp S8x8192 .f32) (f : v.ty.Contents (Elt F))

/-- A store of an 8 x 512 block at column offset 512 · j puts the block into column block j … -/
theorem colBlock_store_same {off : Fin 2 → ℕ} (inb : ∀ a, off a + S8x512.size a ≤ S8x8192.size a)
    (w : FVec F S8x512 .f32) (L : List (View.Piece (Elt F) S8x8192 .f32)) (j : ℕ) (hj : j < 16) (hoff : off = ![0, 512 * j]) :
    colBlock (v.read (Elt F) (v.writes (Elt F) f ((⟨Rect.unit off S8x512.size inb, w⟩ : View.Piece (Elt F) S8x8192 .f32) :: L))) j hj = w := by
  funext y
  unfold colBlock
  refine (View.read_writes_cons_unit_of_mem v f inb w L _ y hoff ?_).trans rfl
  intro a
  match a with
  | ⟨0, _⟩ => show (y 0).val = 0 + (y 0).val; omega
  | ⟨1, _⟩ => show j * 512 + (y 1).val = 512 * j + (y 1).val; omega

/-- … and leaves every other column block as the earlier stores left it. -/
theorem colBlock_store_other {off : Fin 2 → ℕ} (inb : ∀ a, off a + S8x512.size a ≤ S8x8192.size a)
    (w : FVec F S8x512 .f32) (L : List (View.Piece (Elt F) S8x8192 .f32)) (j j' : ℕ) (hj' : j' < 16) (hne : j' ≠ j) (hoff : off = ![0, 512 * j]) :
    colBlock (v.read (Elt F) (v.writes (Elt F) f ((⟨Rect.unit off S8x512.size inb, w⟩ : View.Piece (Elt F) S8x8192 .f32) :: L))) j' hj'
      = colBlock (v.read (Elt F) (v.writes (Elt F) f L)) j' hj' := by
  funext y
  unfold colBlock
  refine View.read_writes_cons_unit_of_not_mem v f inb w L _ hoff (1 : Fin 2) ?_
  have hy := idx2_lt1 y
  show j' * 512 + (y 1).val < 512 * j ∨ 512 * j + 512 ≤ j' * 512 + (y 1).val
  rcases Nat.lt_or_gt_of_ne hne with h | h <;> omega

end Store

end Cert.KernelIdeal.Gen

end
-- ==== Proof.KI.Carry.lean ====
/-
  How the carried facts pass through one grid point.

  A point stores into ONE column block of each row scratch (its own, n % 16) and into the whole accumulator. The column blocks stored by
  the fifteen points before it are other column blocks, so they survive; its own column block now holds its own last eight rows.
  What the point reads in front of its block is the column block stored sixteen points earlier (same column block, previous row block) —
  still there, because none of the fifteen points in between touched it — or the zeros the point itself stored first (row block 0).
-/
import proofs.«121193_j53343493816972_2_alg».proof.Proof.KI.Step

noncomputable section

namespace Cert.KernelIdeal.Gen

open Idealize.ShloMosaic Idealize.ShloMosaic.TcCoe Idealize.ShloMosaic.ValueIdx
open Idealize.SL Idealize.SL.Sem

variable {F : FTy → Type} [FloatOps F]

theorem colBlock_congr (s : Vec F S8x8192 .f32) {f f' : ℕ} (hf : f < 16) (hf' : f' < 16) (h : f = f') :
    colBlock s f hf = colBlock s f' hf' := by subst h; rfl

/-- The column blocks kept by the last sixteen points, after a store into this point's column block. -/
theorem carried_cols (keep : Fin cfg0.N → FVec F S8x512 .f32) (t : Fin cfg0.N) (xs s' : Vec F S8x8192 .f32)
    (hsame : colBlock s' (t.val % 16) (Nat.mod_lt _ (by decide)) = keep t)
    (hother : ∀ j' (hj' : j' < 16), j' ≠ t.val % 16 → colBlock s' j' hj' = colBlock xs j' hj')
    (hprev : t.val ≠ 0 → ∀ k : Fin cfg0.N, k.val ≤ t.val - 1 → t.val - 1 < k.val + 16 →
      colBlock xs (k.val % 16) (Nat.mod_lt _ (by decide)) = keep k) :
    ∀ k : Fin cfg0.N, k.val ≤ t.val → t.val < k.val + 16 → colBlock s' (k.val % 16) (Nat.mod_lt _ (by decide)) = keep k := by
  intro k hk1 hk2
  by_cases hkt : k = t
  · subst hkt; exact hsame
  · have hne : k.val ≠ t.val := fun h => hkt (Fin.ext h)
    have hlt : k.val < t.val := lt_of_le_of_ne hk1 hne
    rw [hother _ _ (by omega)]
    exact hprev (by omega) k (by omega) (by omega)

variable (m : (ℓ : Loc nD τ sig) → Buf (Elt F) ℓ) (c : Dev nD)

/-- Past the first row block, rows 5..7 of the point's column block are the last three rows kept sixteen points earlier. -/
theorem rowsIn_of_prev (keep : Fin cfg0.N → FVec F S8x512 .f32) (t : Fin cfg0.N) (xs : Vec F S8x8192 .f32) (hnz : ¬ t.val / 16 % 4 = 0)
    (hprev : ∀ k : Fin cfg0.N, k.val ≤ t.val - 1 → t.val - 1 < k.val + 16 →
      colBlock xs (k.val % 16) (Nat.mod_lt _ (by decide)) = keep k) :
    rowsIn (grid0.coords t) xs = lastThree (keep (prevRow t)) := by
  rw [rowsIn_eq]
  have h16 : 16 ≤ t.val := by omega
  have h := hprev (prevRow t) (by show t.val - 16 ≤ t.val - 1; omega) (by show t.val - 1 < t.val - 16 + 16; omega)
  rw [← h]
  exact congrArg lastThree (colBlock_congr xs _ _ (by rw [coords_col t]; show t.val % 16 = (t.val - 16) % 16; omega))

theorem haloInG_first (t : Fin cfg0.N) (hz : t.val / 16 % 4 = 0) : haloInG m c t = lastThree k0_pay6 := by
  unfold haloInG; rw [if_pos hz]
theorem haloInU_first (t : Fin cfg0.N) (hz : t.val / 16 % 4 = 0) : haloInU m c t = lastThree k0_pay7 := by
  unfold haloInU; rw [if_pos hz]
theorem haloInG_later (t : Fin cfg0.N) (hnz : ¬ t.val / 16 % 4 = 0) : haloInG m c t = lastThree (keepG m c (prevRow t)) := by
  unfold haloInG; rw [if_neg hnz]
theorem haloInU_later (t : Fin cfg0.N) (hnz : ¬ t.val / 16 % 4 = 0) : haloInU m c t = lastThree (keepU m c (prevRow t)) := by
  unfold haloInU; rw [if_neg hnz]

theorem accIn_first (t : Fin cfg0.N) (hz : t.val % 16 = 0) : accIn m c t = k0_pay5 := by
  unfold accIn; rw [if_pos hz]
theorem accIn_later (t : Fin cfg0.N) (hnz : ¬ t.val % 16 = 0) :
    accIn m c t = accAt m c (t.val - 1) (lt_of_le_of_lt (Nat.sub_le _ _) t.isLt) := by
  unfold accIn; rw [if_neg hnz]

end Cert.KernelIdeal.Gen

end
-- ==== Proof.KI.Data.lean ====
/-
  The proof data of the one pipeline and its frame run.

  Between two grid points the region's invariant holds the three scratches at SOME contents of which only this is known
  (State.lean, `Carried`): every column block of the two row scratches stored by one of the last sixteen points holds that point's
  last eight projection rows, and the accumulator holds the running sum. That is all a later point reads: the three rows in
  front of its block come from the same column block one row block (sixteen points) earlier, or the column block was zeroed at
  this very point (first row block), and the accumulator is either reset (column block 0) or continued.
  The output window is stored only in column block 15 and written back there; elsewhere it is idle.
-/
import proofs.«121193_j53343493816972_2_alg».proof.Proof.KI.Runs
import proofs.«121193_j53343493816972_2_alg».proof.Proof.KI.Carry

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position n: before the first point the three scratches at anything; afterwards at contents of which
    the carried facts of the point before hold; the generator register at some state throughout. -/
def PhiS (c : Dev nD) : (n : ℕ) → n ≤ cfg0.N → sProp 𝕄
  | 0, _ => Pipeline.ΦA spec0 c
  | n + 1, hn => iprop(iprop(∃ s0 s1 s2, ⌜Carried m c n hn s0 s1 s2⌝ ∗ owns (c : Thread nD τ) scM0_0 fullShare s0
      ∗ owns (c : Thread nD τ) scM0_1 fullShare s1 ∗ owns (c : Thread nD τ) scM0_2 fullShare s2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ s0 s1 s2, ⌜Carried m c n hn s0 s1 s2⌝ ∗ owns (c : Thread nD τ) scM0_0 fullShare s0
      ∗ owns (c : Thread nD τ) scM0_1 fullShare s1 ∗ owns (c : Thread nD τ) scM0_2 fullShare s2) ∗ (∃ r, prngReg c r)) := rfl

theorem PhiS_pos (c : Dev nD) (n : ℕ) (h : n ≤ cfg0.N) (hz : n ≠ 0) :
    PhiS m c n h = iprop(iprop(∃ s0 s1 s2, ⌜Carried m c (n - 1) (by omega) s0 s1 s2⌝ ∗ owns (c : Thread nD τ) scM0_0 fullShare s0
      ∗ owns (c : Thread nD τ) scM0_1 fullShare s1 ∗ owns (c : Thread nD τ) scM0_2 fullShare s2) ∗ (∃ r, prngReg c r)) := by
  cases n with
  | zero => exact absurd rfl hz
  | succ n => rfl

/-- The proof data: the arrays as the region finds them; after the body each input's buffer at its block and the output's at the
    accumulator (where it is stored: column block 15); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAfter m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAfter m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratches back at some contents: what is known of them is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%s0, %s1, %s2, -, HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 128 := N_0; omega)

/-- What the invariant hands a point: the three scratches at contents of which, past the first point, the carried facts hold. -/
theorem Phi_in (c : Dev nD) (t : Fin cfg0.N) :
    (dats m 0 c).Φ t.castSucc ⊢ iprop(iprop(∃ s0 s1 s2, ⌜t.val ≠ 0 → Carried m c (t.val - 1) (lt_of_le_of_lt (Nat.sub_le _ _) t.isLt) s0 s1 s2⌝
      ∗ owns (c : Thread nD τ) scM0_0 fullShare s0 ∗ owns (c : Thread nD τ) scM0_1 fullShare s1 ∗ owns (c : Thread nD τ) scM0_2 fullShare s2) ∗ (∃ r, prngReg c r)) := by
  rw [PhiS_castSucc m c t]
  by_cases hz : t.val = 0
  · rw [PhiS_zero m c _ _ hz, PhiA0_eq]
    iintro ⟨⟨⟨%d0, H0⟩, ⟨%d1, H1⟩, ⟨%d2, H2⟩⟩, Hg⟩
    isplitr [Hg]
    · iexists d0, d1, d2
      isplitr [H0 H1 H2]; · ipureintro; exact fun h => absurd hz h
      isplitl [H0]; · iexact H0
      isplitl [H1]; · iexact H1
      iexact H2
    iexact Hg
  · rw [PhiS_pos m c _ _ hz]
    iintro ⟨⟨%s0, %s1, %s2, %hC, H0, H1, H2⟩, Hg⟩
    isplitr [Hg]
    · iexists s0, s1, s2
      isplitr [H0 H1 H2]; · ipureintro; exact fun _ => hC
      isplitl [H0]; · iexact H0
      isplitl [H1]; · iexact H1
      iexact H2
    iexact Hg

/-- A store through the whole 512 x 2048 rectangle leaves its payload. -/
theorem read_whole_store2 {sig' : RefSig} {κ : Kind} {sp : Space} (v : View sig' κ sp S512x2048 .f32) (f : v.ty.Contents (Elt F))
    (w : FVec F S512x2048 .f32) (L : List (View.Piece (Elt F) S512x2048 .f32)) :
    v.read (Elt F) (v.writes (Elt F) f ((⟨Rect.unit (s := S512x2048) ![0, 0] S512x2048.size inb_S512x2048_S512x2048_0_0, w⟩ : View.Piece (Elt F) S512x2048 .f32) :: L)) = w := by
  funext y
  refine View.read_writes_cons_unit_of_mem v f inb_S512x2048_S512x2048_0_0 w L y y rfl ?_
  intro a
  match a with
  | ⟨0, _⟩ => exact (Nat.zero_add _).symm
  | ⟨1, _⟩ => exact (Nat.zero_add _).symm

/-- A store through the whole 1 x 512 x 2048 rectangle leaves its payload. -/
theorem read_whole_store3 {sig' : RefSig} {κ : Kind} {sp : Space} (v : View sig' κ sp S1x512x2048 .f32) (f : v.ty.Contents (Elt F))
    (w : FVec F S1x512x2048 .f32) (L : List (View.Piece (Elt F) S1x512x2048 .f32)) :
    v.read (Elt F) (v.writes (Elt F) f ((⟨Rect.unit (s := S1x512x2048) ![0, 0, 0] S1x512x2048.size inb_S1x512x2048_S1x512x2048_0_0_0, w⟩ : View.Piece (Elt F) S1x512x2048 .f32) :: L)) = w := by
  funext y
  refine View.read_writes_cons_unit_of_mem v f inb_S1x512x2048_S1x512x2048_0_0_0 w L y y rfl ?_
  intro a
  match a with
  | ⟨0, _⟩ => exact (Nat.zero_add _).symm
  | ⟨1, _⟩ => exact (Nat.zero_add _).symm
  | ⟨2, _⟩ => exact (Nat.zero_add _).symm

/-- The carried facts after a point, from what the point's stores did to the scratches. -/
theorem carried_next (c : Dev nD) (t : Fin cfg0.N) (xs0 xs1 : Vec F S8x8192 .f32) (xs2 : Vec F S512x2048 .f32)
    (hprev : t.val ≠ 0 → Carried m c (t.val - 1) (lt_of_le_of_lt (Nat.sub_le _ _) t.isLt) xs0 xs1 xs2)
    (s0 s1 : Vec F S8x8192 .f32) (s2 : Vec F S512x2048 .f32)
    (h0s : colBlock s0 (t.val % 16) (Nat.mod_lt _ (by decide)) = keepG m c t)
    (h0o : ∀ j' (hj' : j' < 16), j' ≠ t.val % 16 → colBlock s0 j' hj' = colBlock xs0 j' hj')
    (h1s : colBlock s1 (t.val % 16) (Nat.mod_lt _ (by decide)) = keepU m c t)
    (h1o : ∀ j' (hj' : j' < 16), j' ≠ t.val % 16 → colBlock s1 j' hj' = colBlock xs1 j' hj')
    (h2 : s2 = accAt m c t.val t.isLt) : Carried m c t.val t.isLt s0 s1 s2 :=
  ⟨carried_cols (keepG m c) t xs0 s0 h0s h0o (fun hz => (hprev hz).1),
   carried_cols (keepU m c) t xs1 s1 h1s h1o (fun hz => (hprev hz).2.1), h2⟩

end Cert.KernelIdeal.Gen

end
-- ==== Proof.Blocks.lean ====
/- The windows' blocks read at an index, at the extended reals. Each input window's block at a grid point is a rectangle of an
   argument array: the activations' rows `t·512 …` of batch `b`, the weights' rows or columns `f·512 …`, and the two halves of the
   convolution weights transposed (the narrowing conversions before the region are the identity on extended reals). The output
   window's blocks at the points that write it back — the last hidden tile of each batch and row tile — cover the output array, so
   the array ends holding any whole-array function whose blocks those points write. Grid point `n = b·64 + t·16 + f`. -/
import proofs.«121193_j53343493816972_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.BlockValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (c : Dev nD) (n : Fin cfg0.N)

/-- The block indices of the four matrix windows at every grid point: the activations' block follows the batch and row-tile
    coordinates, the weights' blocks the hidden-tile coordinate. -/
theorem idx_facts : ∀ t : Fin cfg0.N,
    win0_0.index t (0 : Fin 3) = t.val / 64 ∧ win0_0.index t (1 : Fin 3) = t.val / 16 % 4 ∧ win0_0.index t (2 : Fin 3) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = 0 ∧ win0_3.index t (1 : Fin 2) = t.val % 16 :=
  (by decide +kernel : ∀ t : Fin grid0.N, _)

/-- The narrowing conversions before the region are the identity on extended reals: each converted array is its argument. -/
theorem V0_eq : (V (F := Ideal) m c main_v0 : S2x2048x2048.Idx → EReal) = (m ((c.tc : Thread nD τ).loc main_arg0) : S2x2048x2048.Idx → EReal) := by
  dsimp only [Gen.V, Gen.hostOps0]
  after_results
  rfl
theorem V1_eq : (V (F := Ideal) m c main_v1 : S8192x2048.Idx → EReal) = (m ((c.tc : Thread nD τ).loc main_arg1) : S8192x2048.Idx → EReal) := by
  dsimp only [Gen.V, Gen.hostOps0]
  after_results
  rfl
theorem V2_eq : (V (F := Ideal) m c main_v2 : S8192x2048.Idx → EReal) = (m ((c.tc : Thread nD τ).loc main_arg2) : S8192x2048.Idx → EReal) := by
  dsimp only [Gen.V, Gen.hostOps0]
  after_results
  rfl
theorem V3_eq : (V (F := Ideal) m c main_v3 : S2048x8192.Idx → EReal) = (m ((c.tc : Thread nD τ).loc main_arg3) : S2048x8192.Idx → EReal) := by
  dsimp only [Gen.V, Gen.hostOps0]
  after_results
  rfl

/-- The activations' block at a point is rows `t·512 …` of batch `b` of the argument. -/
theorem blk0 (r : Fin 512) (d : Fin 2048) :
    iblk (F := Ideal) m c 0 n (ix3 (0 : Fin 1) r d)
      = (m ((c.tc : Thread nD τ).loc main_arg0) : S2x2048x2048.Idx → EReal)
          (ix3 (⟨n.val / 64, by have := n.isLt; have hN : cfg0.N = 128 := N_0; omega⟩ : Fin 2)
            (⟨n.val / 16 % 4 * 512 + r.val, by have := n.isLt; have hN : cfg0.N = 128 := N_0; omega⟩ : Fin 2048) d) := by
  obtain ⟨e0, e1, e2, -⟩ := idx_facts n
  unfold iblk
  rw [View.read_apply]
  show V (F := Ideal) m c main_v0 _ = _
  rw [V0_eq]
  congr 1
  funext a
  apply Fin.ext
  match a with
  | ⟨0, _⟩ => show win0_0.index n 0 * 1 + 1 * 0 = n.val / 64; rw [e0]; omega
  | ⟨1, _⟩ => show win0_0.index n 1 * 512 + 1 * r.val = n.val / 16 % 4 * 512 + r.val; rw [e1]; omega
  | ⟨2, _⟩ => show win0_0.index n 2 * 2048 + 1 * d.val = d.val; rw [e2]; omega

/-- The gate weights' block at a point is rows `f·512 …` of the argument. -/
theorem blk1 (j : Fin 512) (d : Fin 2048) :
    iblk (F := Ideal) m c 1 n (ix2 j d)
      = (m ((c.tc : Thread nD τ).loc main_arg1) : S8192x2048.Idx → EReal) (ix2 (⟨n.val % 16 * 512 + j.val, by have := n.isLt; have hN : cfg0.N = 128 := N_0; omega⟩ : Fin 8192) d) := by
  obtain ⟨-, -, -, e0, e1, -⟩ := idx_facts n
  unfold iblk
  rw [View.read_apply]
  show V (F := Ideal) m c main_v1 _ = _
  rw [V1_eq]
  congr 1
  funext a
  apply Fin.ext
  match a with
  | ⟨0, _⟩ => show win0_1.index n 0 * 512 + 1 * j.val = n.val % 16 * 512 + j.val; rw [e0]; omega
  | ⟨1, _⟩ => show win0_1.index n 1 * 2048 + 1 * d.val = d.val; rw [e1]; omega

/-- The up weights' block at a point is rows `f·512 …` of the argument. -/
theorem blk2 (j : Fin 512) (d : Fin 2048) :
    iblk (F := Ideal) m c 2 n (ix2 j d)
      = (m ((c.tc : Thread nD τ).loc main_arg2) : S8192x2048.Idx → EReal) (ix2 (⟨n.val % 16 * 512 + j.val, by have := n.isLt; have hN : cfg0.N = 128 := N_0; omega⟩ : Fin 8192) d) := by
  obtain ⟨-, -, -, -, -, e0, e1, -⟩ := idx_facts n
  unfold iblk
  rw [View.read_apply]
  show V (F := Ideal) m c main_v2 _ = _
  rw [V2_eq]
  congr 1
  funext a
  apply Fin.ext
  match a with
  | ⟨0, _⟩ => show win0_2.index n 0 * 512 + 1 * j.val = n.val % 16 * 512 + j.val; rw [e0]; omega
  | ⟨1, _⟩ => show win0_2.index n 1 * 2048 + 1 * d.val = d.val; rw [e1]; omega

/-- The down weights' block at a point is columns `f·512 …` of the argument. -/
theorem blk3 (d : Fin 2048) (j : Fin 512) :
    iblk (F := Ideal) m c 3 n (ix2 d j)
      = (m ((c.tc : Thread nD τ).loc main_arg3) : S2048x8192.Idx → EReal) (ix2 d (⟨n.val % 16 * 512 + j.val, by have := n.isLt; have hN : cfg0.N = 128 := N_0; omega⟩ : Fin 8192)) := by
  obtain ⟨-, -, -, -, -, -, -, e0, e1⟩ := idx_facts n
  unfold iblk
  rw [View.read_apply]
  show V (F := Ideal) m c main_v3 _ = _
  rw [V3_eq]
  congr 1
  funext a
  apply Fin.ext
  match a with
  | ⟨0, _⟩ => show win0_3.index n 0 * 2048 + 1 * d.val = d.val; rw [e0]; omega
  | ⟨1, _⟩ => show win0_3.index n 1 * 512 + 1 * j.val = n.val % 16 * 512 + j.val; rw [e1]; omega

/-- The two convolution-weight windows take their whole array at every point. -/
theorem idx_facts_cw : ∀ t : Fin cfg0.N,
    win0_4.index t (0 : Fin 2) = 0 ∧ win0_4.index t (1 : Fin 2) = 0 ∧ win0_5.index t (0 : Fin 2) = 0 ∧ win0_5.index t (1 : Fin 2) = 0 :=
  (by decide +kernel : ∀ t : Fin grid0.N, _)

/-- The gate half of the convolution weights as the region finds it: rows `[0, 8192)` of the argument, transposed. -/
theorem V5_eq : (V (F := Ideal) m c main_v5 : S4x8192.Idx → EReal)
    = transpose S4x8192 [1, 0] (extractStridedSlice S8192x4 ![0, 0] (m ((c.tc : Thread nD τ).loc main_arg4) : S16384x4.Idx → EReal) slices_S16384x4_S8192x4_0_0) transposes_S8192x4_S4x8192_1_0 := by
  dsimp only [Gen.V, Gen.hostOps0]
  after_results
/-- The up half: rows `[8192, 16384)`, transposed. -/
theorem V7_eq : (V (F := Ideal) m c main_v7 : S4x8192.Idx → EReal)
    = transpose S4x8192 [1, 0] (extractStridedSlice S8192x4 ![8192, 0] (m ((c.tc : Thread nD τ).loc main_arg4) : S16384x4.Idx → EReal) slices_S16384x4_S8192x4_8192_0) transposes_S8192x4_S4x8192_1_0 := by
  dsimp only [Gen.V, Gen.hostOps0]
  after_results

/-- Tap `k` of hidden channel `q` in the gate window is the argument's entry `(q, k)`. -/
theorem blk4 (k : Fin 4) (q : Fin 8192) :
    iblk (F := Ideal) m c 4 n (ix2 k q)
      = (m ((c.tc : Thread nD τ).loc main_arg4) : S16384x4.Idx → EReal) (ix2 (⟨q.val, by have := q.isLt; omega⟩ : Fin 16384) k) := by
  obtain ⟨e0, e1, -⟩ := idx_facts_cw n
  unfold iblk
  rw [View.read_apply]
  have hi : ((cfg0.win 4).blk n).view.emb (ix2 k q) = (ix2 k q : S4x8192.Idx) := by
    funext a
    apply Fin.ext
    match a with
    | ⟨0, _⟩ => show win0_4.index n 0 * 4 + 1 * k.val = k.val; rw [e0]; omega
    | ⟨1, _⟩ => show win0_4.index n 1 * 8192 + 1 * q.val = q.val; rw [e1]; omega
  show V (F := Ideal) m c main_v5 _ = _
  rw [hi, V5_eq]
  refine (transpose_apply _ _ _ (ix2 k q) (ix2 q k : S8192x4.Idx) fun b => ?_).trans ?_
  · match b with
    | ⟨0, _⟩ => rfl
    | ⟨1, _⟩ => rfl
  · refine extractStridedSlice_apply _ _ _ (ix2 q k : S8192x4.Idx) _ fun a => ?_
    match a with
    | ⟨0, _⟩ => show q.val = 0 + q.val; omega
    | ⟨1, _⟩ => show k.val = 0 + k.val; omega

/-- Tap `k` of hidden channel `q` in the up window is the argument's entry `(8192 + q, k)`. -/
theorem blk5 (k : Fin 4) (q : Fin 8192) :
    iblk (F := Ideal) m c 5 n (ix2 k q)
      = (m ((c.tc : Thread nD τ).loc main_arg4) : S16384x4.Idx → EReal) (ix2 (⟨8192 + q.val, by have := q.isLt; omega⟩ : Fin 16384) k) := by
  obtain ⟨-, -, e0, e1⟩ := idx_facts_cw n
  unfold iblk
  rw [View.read_apply]
  have hi : ((cfg0.win 5).blk n).view.emb (ix2 k q) = (ix2 k q : S4x8192.Idx) := by
    funext a
    apply Fin.ext
    match a with
    | ⟨0, _⟩ => show win0_5.index n 0 * 4 + 1 * k.val = k.val; rw [e0]; omega
    | ⟨1, _⟩ => show win0_5.index n 1 * 8192 + 1 * q.val = q.val; rw [e1]; omega
  show V (F := Ideal) m c main_v7 _ = _
  rw [hi, V7_eq]
  refine (transpose_apply _ _ _ (ix2 k q) (ix2 q k : S8192x4.Idx) fun b => ?_).trans ?_
  · match b with
    | ⟨0, _⟩ => rfl
    | ⟨1, _⟩ => rfl
  · refine extractStridedSlice_apply _ _ _ (ix2 q k : S8192x4.Idx) _ fun a => ?_
    match a with
    | ⟨0, _⟩ => show 8192 + q.val = 8192 + q.val; rfl
    | ⟨1, _⟩ => show k.val = 0 + k.val; omega

/-- The output window's block index at every grid point: it follows the batch and row-tile coordinates. -/
theorem idx_facts_out : ∀ t : Fin cfg0.N,
    win0_6.index t (0 : Fin 3) = t.val / 64 ∧ win0_6.index t (1 : Fin 3) = t.val / 16 % 4 ∧ win0_6.index t (2 : Fin 3) = 0 :=
  (by decide +kernel : ∀ t : Fin grid0.N, _)

/-- The output window's block at a point, read off any whole-array function `G`: rows `t·512 …` of batch `b`. -/
theorem blk6_read (G : S2x2048x2048.Idx → EReal) (r : Fin 512) (d : Fin 2048) :
    ((cfg0.win 6).blk n).view.read (Elt Ideal) G (ix3 (0 : Fin 1) r d)
      = G (ix3 (⟨n.val / 64, by have := n.isLt; have hN : cfg0.N = 128 := N_0; omega⟩ : Fin 2)
            (⟨n.val / 16 % 4 * 512 + r.val, by have := n.isLt; have hN : cfg0.N = 128 := N_0; omega⟩ : Fin 2048) d) := by
  obtain ⟨e0, e1, e2⟩ := idx_facts_out n
  rw [View.read_apply]
  show G _ = _
  congr 1
  funext a
  apply Fin.ext
  match a with
  | ⟨0, _⟩ => show win0_6.index n 0 * 1 + 1 * 0 = n.val / 64; rw [e0]; omega
  | ⟨1, _⟩ => show win0_6.index n 1 * 512 + 1 * r.val = n.val / 16 % 4 * 512 + r.val; rw [e1]; omega
  | ⟨2, _⟩ => show win0_6.index n 2 * 2048 + 1 * d.val = d.val; rw [e2]; omega

/-- An index of the output array is in point `t`'s block iff each coordinate is in the block's range on its axis. -/
theorem mem_blk6 (t : Fin cfg0.N) (i : S2x2048x2048.Idx) :
    i ∈ ((cfg0.win 6).blk t).view.set ↔ ∀ a : Fin 3, win0_6.index t a * S1x512x2048.size a ≤ (i a).val ∧ (i a).val < win0_6.index t a * S1x512x2048.size a + S1x512x2048.size a := by
  show i ∈ ((View.whole main_v8).slice (win0_6.rect t)).set ↔ _
  rw [View.set_slice_whole, Rect.mem_set_unit]
  exact Iff.rfl

/-- Every index `(b, r, d)` of the output array lies in the block written back at the last hidden tile of its batch and row tile,
    point `b·64 + (r / 512)·16 + 15`. -/
theorem cover6 (i : S2x2048x2048.Idx) :
    ∃ t : Fin cfg0.N, (cfg0.win 6).flush t = true ∧ i ∈ ((cfg0.win 6).blk t).view.set := by
  have hN : cfg0.N = 128 := N_0
  have hi0 : (i 0).val < 2 := (i 0).isLt
  have hi1 : (i 1).val < 2048 := (i 1).isLt
  have hi2 : (i 2).val < 2048 := (i 2).isLt
  obtain ⟨t, ht⟩ : ∃ t : Fin cfg0.N, t.val = (i 0).val * 64 + (i 1).val / 512 * 16 + 15 := ⟨⟨_, by omega⟩, rfl⟩
  obtain ⟨e0, e1, e2⟩ := idx_facts_out t
  refine ⟨t, (flush0_6 t).mpr (by omega), ?_⟩
  rw [mem_blk6]
  intro a
  match a with
  | ⟨0, _⟩ => show win0_6.index t 0 * 1 ≤ (i 0).val ∧ (i 0).val < win0_6.index t 0 * 1 + 1; omega
  | ⟨1, _⟩ => show win0_6.index t 1 * 512 ≤ (i 1).val ∧ (i 1).val < win0_6.index t 1 * 512 + 512; omega
  | ⟨2, _⟩ => show win0_6.index t 2 * 2048 ≤ (i 2).val ∧ (i 2).val < win0_6.index t 2 * 2048 + 2048; omega

/-- THE OUTPUT ARRAY after the run: if every point that writes the output back (the last hidden tile of each batch and row tile)
    writes its block of one whole-array function `G`, the array ends holding `G`. -/
theorem out_final (dat : Pipeline.Dat τ (Elt Ideal) Unit ℕ (UR sig nD τ) ℕ cfg0 c) (G : S2x2048x2048.Idx → EReal)
    (hG : ∀ t : Fin cfg0.N, t.val % 16 = 15 → dat.flushed 6 t = ((cfg0.win 6).blk t).view.read (Elt Ideal) G) :
    dat.arrAt 6 cfg0.N = G :=
  dat.arrAt_eq_of_cover 6 G (fun t hf => hG t ((flush0_6 t).mp hf)) cover6

/-- The same from the written blocks read element by element. -/
theorem out_final_at (dat : Pipeline.Dat τ (Elt Ideal) Unit ℕ (UR sig nD τ) ℕ cfg0 c) (G : S2x2048x2048.Idx → EReal)
    (hG : ∀ t : Fin cfg0.N, t.val % 16 = 15 → ∀ (r : Fin 512) (d : Fin 2048),
      dat.flushed 6 t (ix3 (0 : Fin 1) r d)
        = G (ix3 (⟨t.val / 64, by have := t.isLt; have hN : cfg0.N = 128 := N_0; omega⟩ : Fin 2)
              (⟨t.val / 16 % 4 * 512 + r.val, by have := t.isLt; have hN : cfg0.N = 128 := N_0; omega⟩ : Fin 2048) d)) :
    dat.arrAt 6 cfg0.N = G :=
  out_final c dat G fun t ht => funext fun y => by
    obtain ⟨r, d, rfl⟩ : ∃ (r : Fin 512) (d : Fin 2048), y = ix3 (0 : Fin 1) r d :=
      ⟨⟨(y 1).val, (y 1).isLt⟩, ⟨(y 2).val, (y 2).isLt⟩, funext fun a => by
        match a with
        | ⟨0, _⟩ => exact Fin.ext (by have h : (y 0).val < 1 := (y 0).isLt; show (y 0).val = 0; omega)
        | ⟨1, _⟩ => rfl
        | ⟨2, _⟩ => rfl⟩
    exact (hG t ht r d).trans (blk6_read t G r d).symm

end Cert.KernelIdeal.BlockValue

end
-- ==== Proof.LibTileSum.lean ====
/- Regrouping a sum over n = a · b consecutive positions into a tiles of b, and the running sum over the tiles:
   only associativity and commutativity of + (any additive commutative monoid; used on the extended reals). -/
import Mathlib.Algebra.BigOperators.Fin
import Mathlib.Algebra.BigOperators.Intervals

open scoped BigOperators

namespace Cert.Lib.TileSum

variable {M : Type*} [AddCommMonoid M]

/-- Position c of tile j is below a · b. -/
theorem tile_lt {a b : ℕ} {j c : ℕ} (hj : j < a) (hc : c < b) : j * b + c < a * b :=
  calc j * b + c < j * b + b := Nat.add_lt_add_left hc _
    _ = (j + 1) * b := (Nat.succ_mul j b).symm
    _ ≤ a * b := Nat.mul_le_mul_right b hj

/-- The first a · b positions, tile by tile: position j · b + c is place c of tile j. -/
theorem sum_range_tiles (a b : ℕ) (h : ℕ → M) :
    ∑ i ∈ Finset.range (a * b), h i = ∑ j ∈ Finset.range a, ∑ c : Fin b, h (j * b + c.val) := by
  induction a with
  | zero => simp
  | succ a ih =>
    rw [Nat.succ_mul, Finset.sum_range_add, ih, Finset.sum_range_succ,
      Fin.sum_univ_eq_sum_range (fun x => h (a * b + x)) b]

/-- A sum over Fin (a · b) of a function of the position is the sum over the a tiles of the tile's b places. -/
theorem sum_tiles (a b : ℕ) (h : ℕ → M) :
    ∑ q : Fin (a * b), h q.val = ∑ j ∈ Finset.range a, ∑ c : Fin b, h (j * b + c.val) := by
  rw [Fin.sum_univ_eq_sum_range h (a * b)]; exact sum_range_tiles a b h

/-- The same over Fin n for n = a · b given as an equation (so that a literal n need not be spelt as a product). -/
theorem sum_tiles_of_eq (n a b : ℕ) (hn : n = a * b) (h : ℕ → M) :
    ∑ q : Fin n, h q.val = ∑ j ∈ Finset.range a, ∑ c : Fin b, h (j * b + c.val) := by
  subst hn; exact sum_tiles a b h

/-- The same with both sides indexed by Fin: f at place c of tile j is f at position j · b + c. -/
theorem sum_tiles_fin (n a b : ℕ) (hn : n = a * b) (f : Fin n → M) :
    ∑ q : Fin n, f q = ∑ j : Fin a, ∑ c : Fin b, f ⟨j.val * b + c.val, hn ▸ tile_lt j.isLt c.isLt⟩ := by
  subst hn
  have key := sum_tiles a b (fun i => if hi : i < a * b then f ⟨i, hi⟩ else 0)
  rw [← Fin.sum_univ_eq_sum_range (fun j => ∑ c : Fin b, (fun i => if hi : i < a * b then f ⟨i, hi⟩ else 0) (j * b + c.val)) a] at key
  refine (Finset.sum_congr rfl fun q _ => ?_).trans (key.trans (Finset.sum_congr rfl fun j _ => Finset.sum_congr rfl fun c _ => ?_))
  · rw [dif_pos q.isLt]
  · exact dif_pos (tile_lt j.isLt c.isLt)

/-- A running sum from z over a list of tiles, each tile's own sum started from z too, is z plus the tiles' sums,
    when z is the zero (as the zero word of a float format is, read as an extended real). -/
theorem foldl_tiles_list {ι : Type*} (z : M) (hz : z = 0) (G : ι → M) (L : List ι) :
    L.foldl (fun acc j => acc + (z + G j)) z = z + (L.map G).sum := by
  subst hz
  suffices H : ∀ acc : M, L.foldl (fun acc j => acc + (0 + G j)) acc = acc + (L.map G).sum from H 0
  induction L with
  | nil => intro acc; simp
  | cons j L ih => intro acc; rw [List.foldl_cons, ih, List.map_cons, List.sum_cons, zero_add, add_assoc]

/-- The running sum over the tiles 0 … a − 1 in order. -/
theorem foldl_tiles_range (z : M) (hz : z = 0) (a : ℕ) (G : ℕ → M) :
    (List.range a).foldl (fun acc j => acc + (z + G j)) z = z + ∑ j ∈ Finset.range a, G j := by
  rw [foldl_tiles_list z hz G, ← Fin.sum_univ_eq_sum_range G a, Fin.sum_univ_def,
    ← List.map_coe_finRange_eq_range, List.map_map]
  rfl

/-- The tiled running sum is the whole sum: folding, over the tiles j = 0 … a − 1, acc + (z + Σ_c h (j·b + c))
    from z gives z + Σ_q h q over all n = a · b positions. -/
theorem foldl_tiles (n a b : ℕ) (hn : n = a * b) (z : M) (hz : z = 0) (h : ℕ → M) :
    (List.range a).foldl (fun acc j => acc + (z + ∑ c : Fin b, h (j * b + c.val))) z = z + ∑ q : Fin n, h q.val := by
  rw [foldl_tiles_range z hz a (fun j => ∑ c : Fin b, h (j * b + c.val)), sum_tiles_of_eq n a b hn h]

end Cert.Lib.TileSum
-- ==== Proof.KValueDefs.lean ====
/-
  The kernel's carried values as the specification's sums: notation and the facts taken from the payloads and the blocks.

  For a grid point n (of 128; n = 64 b + 16 t + f) the point's batch is b = n / 64, its row block t = n / 16 % 4 and its
  column block f = n % 16. Row r of the point's 512 rows is time step t · 512 + r, channel j of its 512 channels is hidden
  channel f · 512 + j.
    PayFacts   what each payload of the body is, entry by entry, on the extended reals
    BlkFacts   what each window's block at a point is, entry by entry, as a part of the argument arrays
-/
import proofs.«121193_j53343493816972_2_alg».proof.Proof.KI.State
import proofs.«121193_j53343493816972_2_alg».proof.Proof.Spec
import proofs.«121193_j53343493816972_2_alg».proof.Proof.LibTileSum

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The five argument arrays as launched, read on the extended reals. -/
def A0 : FVec Ideal GluSpec.SX .f32 := m ((c.tc : Thread nD τ).loc main_arg0)
def A1 : FVec Ideal GluSpec.SW .f32 := m ((c.tc : Thread nD τ).loc main_arg1)
def A2 : FVec Ideal GluSpec.SW .f32 := m ((c.tc : Thread nD τ).loc main_arg2)
def A3 : FVec Ideal GluSpec.SD .f32 := m ((c.tc : Thread nD τ).loc main_arg3)
def A4 : FVec Ideal GluSpec.SC .f32 := m ((c.tc : Thread nD τ).loc main_arg4)

/-- The batch of a point. -/
def bOf (n : Fin cfg0.N) : Fin 2 := ⟨n.val / 64, by have := n.isLt; have hN : cfg0.N = 128 := N_128; omega⟩
/-- The time step of row r of a point. -/
def rowOf (n : Fin cfg0.N) (r : Fin 512) : Fin 2048 := ⟨n.val / 16 % 4 * 512 + r.val, by omega⟩
/-- The hidden channel of channel j of a point. -/
def colOf (n : Fin cfg0.N) (j : Fin 512) : Fin 8192 := ⟨n.val % 16 * 512 + j.val, by omega⟩

/-- The payloads of the body, entry by entry. -/
structure PayFacts : Prop where
  proj9 : ∀ (x : FVec Ideal S1x512x2048 .bf16) (w : FVec Ideal S512x2048 .bf16) (r j : Fin 512),
    k0_pay9 (F := Ideal) x w (ix2 r j) = ∑ d : Fin 2048, x (ix3 (0 : Fin 1) r d) * w (ix2 j d)
  proj10 : ∀ (x : FVec Ideal S1x512x2048 .bf16) (w : FVec Ideal S512x2048 .bf16) (r j : Fin 512),
    k0_pay10 (F := Ideal) x w (ix2 r j) = ∑ d : Fin 2048, x (ix3 (0 : Fin 1) r d) * w (ix2 j d)
  keep1 : ∀ (v : FVec Ideal S512x512 .f32) (r : Fin 8) (j : Fin 512),
    k0_pay1 (F := Ideal) (k0_pay18 v) (ix2 r j) = v (ix2 (⟨504 + r.val, by omega⟩ : Fin 512) j)
  keep2 : ∀ (v : FVec Ideal S512x512 .f32) (r : Fin 8) (j : Fin 512),
    k0_pay2 (F := Ideal) v (ix2 r j) = v (ix2 (⟨504 + r.val, by omega⟩ : Fin 512) j)
  ext11 : ∀ (x : FVec Ideal S1x512x2048 .bf16) (w : FVec Ideal S512x2048 .bf16) (h : FVec Ideal S3x512 .f32) (q : Fin 515) (j : Fin 512),
    k0_pay11 (F := Ideal) x w h (ix2 q j)
      = if hq : q.val < 3 then h (ix2 (⟨q.val, hq⟩ : Fin 3) j) else k0_pay9 (F := Ideal) x w (ix2 (⟨q.val - 3, by omega⟩ : Fin 512) j)
  ext12 : ∀ (x : FVec Ideal S1x512x2048 .bf16) (w : FVec Ideal S512x2048 .bf16) (h : FVec Ideal S3x512 .f32) (q : Fin 515) (j : Fin 512),
    k0_pay12 (F := Ideal) x w h (ix2 q j)
      = if hq : q.val < 3 then h (ix2 (⟨q.val, hq⟩ : Fin 3) j) else k0_pay10 (F := Ideal) x w (ix2 (⟨q.val - 3, by omega⟩ : Fin 512) j)
  convG : ∀ (x : FVec Ideal S1x512x2048 .bf16) (w : FVec Ideal S512x2048 .bf16) (h : FVec Ideal S3x512 .f32)
      (c0 c1 c2 c3 : FVec Ideal S1x512 .f32) (r j : Fin 512),
    k0_pay16 (F := Ideal) (k0_pay11 x w h) (k0_pay13 x w h c0) c1 c2 c3 (ix2 r j)
      = (((k0_pay9 (F := Ideal) x w (ix2 r j)
            + k0_pay11 (F := Ideal) x w h (ix2 (⟨r.val + 0, by omega⟩ : Fin 515) j) * c0 (ix2 (0 : Fin 1) j))
          + k0_pay11 (F := Ideal) x w h (ix2 (⟨r.val + 1, by omega⟩ : Fin 515) j) * c1 (ix2 (0 : Fin 1) j))
          + k0_pay11 (F := Ideal) x w h (ix2 (⟨r.val + 2, by omega⟩ : Fin 515) j) * c2 (ix2 (0 : Fin 1) j))
          + k0_pay11 (F := Ideal) x w h (ix2 (⟨r.val + 3, by omega⟩ : Fin 515) j) * c3 (ix2 (0 : Fin 1) j)
  convU : ∀ (x : FVec Ideal S1x512x2048 .bf16) (w : FVec Ideal S512x2048 .bf16) (h : FVec Ideal S3x512 .f32)
      (c0 c1 c2 c3 : FVec Ideal S1x512 .f32) (r j : Fin 512),
    k0_pay17 (F := Ideal) (k0_pay10 x w) (k0_pay12 x w h) (k0_pay14 x w h) (k0_pay15 c0) c1 c2 c3 (ix2 r j)
      = (((k0_pay10 (F := Ideal) x w (ix2 r j)
            + k0_pay12 (F := Ideal) x w h (ix2 (⟨r.val + 0, by omega⟩ : Fin 515) j) * c0 (ix2 (0 : Fin 1) j))
          + k0_pay12 (F := Ideal) x w h (ix2 (⟨r.val + 1, by omega⟩ : Fin 515) j) * c1 (ix2 (0 : Fin 1) j))
          + k0_pay12 (F := Ideal) x w h (ix2 (⟨r.val + 2, by omega⟩ : Fin 515) j) * c2 (ix2 (0 : Fin 1) j))
          + k0_pay12 (F := Ideal) x w h (ix2 (⟨r.val + 3, by omega⟩ : Fin 515) j) * c3 (ix2 (0 : Fin 1) j)
  accStep : ∀ (g u : FVec Ideal S512x512 .f32) (wd : FVec Ideal S2048x512 .bf16) (acc : FVec Ideal S512x2048 .f32)
      (r : Fin 512) (d : Fin 2048),
    k0_pay3 (F := Ideal) g u wd acc (ix2 r d)
      = acc (ix2 r d) + ∑ j : Fin 512, (u (ix2 r j) * (g (ix2 r j) * Ideal.logistic (g (ix2 r j)))) * wd (ix2 d j)
  out4 : ∀ (v : FVec Ideal S512x2048 .f32) (r : Fin 512) (d : Fin 2048),
    k0_pay4 (F := Ideal) v (ix3 (0 : Fin 1) r d) = v (ix2 r d)
  zero5 : ∀ i, k0_pay5 (F := Ideal) i = 0
  zero6 : ∀ i, k0_pay6 (F := Ideal) i = 0
  zero7 : ∀ i, k0_pay7 (F := Ideal) i = 0

/-- The windows' blocks at a point, entry by entry, as parts of the argument arrays. -/
structure BlkFacts : Prop where
  blk0 : ∀ (n : Fin cfg0.N) (r : Fin 512) (d : Fin 2048),
    iblk (F := Ideal) m c 0 n (ix3 (0 : Fin 1) r d) = A0 m c (ix3 (bOf n) (rowOf n r) d)
  blk1 : ∀ (n : Fin cfg0.N) (j : Fin 512) (d : Fin 2048),
    iblk (F := Ideal) m c 1 n (ix2 j d) = A1 m c (ix2 (colOf n j) d)
  blk2 : ∀ (n : Fin cfg0.N) (j : Fin 512) (d : Fin 2048),
    iblk (F := Ideal) m c 2 n (ix2 j d) = A2 m c (ix2 (colOf n j) d)
  blk3 : ∀ (n : Fin cfg0.N) (d : Fin 2048) (j : Fin 512),
    iblk (F := Ideal) m c 3 n (ix2 d j) = A3 m c (ix2 d (colOf n j))
  blk4 : ∀ (n : Fin cfg0.N) (k : Fin 4) (q : Fin 8192),
    iblk (F := Ideal) m c 4 n (ix2 k q) = A4 m c (ix2 (⟨q.val, by omega⟩ : Fin 16384) k)
  blk5 : ∀ (n : Fin cfg0.N) (k : Fin 4) (q : Fin 8192),
    iblk (F := Ideal) m c 5 n (ix2 k q) = A4 m c (ix2 (⟨8192 + q.val, by omega⟩ : Fin 16384) k)

end Cert.KernelIdeal.KernelValue

end
-- ==== Proof.KernelFinal.lean ====
/-
  The kernel's run with its result array named. After the run, on every core, the result array is the layer's output as
  one function of the five argument arrays, and the arguments are as launched. The result array is what the write-backs
  left: the points that write back are the last column block of each batch and row block (point numbers ≡ 15 mod 16),
  each writes the accumulator it ends with, block (batch, row block) of the array, and these blocks cover the array. So
  once every such point's accumulator at (r, d) is the layer's output at (batch, row block · 512 + r, d), the array is
  the layer's output.
-/
import proofs.«121193_j53343493816972_2_alg».proof.Proof.KI.Data
import proofs.«121193_j53343493816972_2_alg».proof.Proof.Blocks
import proofs.«121193_j53343493816972_2_alg».proof.Proof.Spec
import proofs.«121193_j53343493816972_2_alg».proof.Proof.KValueDefs

set_option maxRecDepth 16384

noncomputable section

namespace Cert.KernelIdeal.KernelValue

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- After the frame run the result array is what the write-backs left of it. -/
theorem post_out (r : PUnit × MemSt nD τ sig (Elt Ideal)) (h : Pipeline.FramePost cfgs (Gen.dats m) 0 (Gen.V m) r) (c : Dev nD) :
    r.2.mem ((c.tc : Thread nD τ).loc main_v8) = (Gen.dats m 0 c).arrAt 6 cfg0.N :=
  (h c).1 6

/-- What a point writes back, entry by entry: the output block it ends with (the window is never cut). -/
theorem flushed_out_at (c : Dev nD) (t : Fin cfg0.N) (r : Fin 512) (d : Fin 2048) :
    (Gen.dats m 0 c).flushed 6 t (ix3 (0 : Fin 1) r d) = Gen.outAfter m c t (ix3 (0 : Fin 1) r d) := by
  show (cfg0.win 6).cut (grid0.coords t) ((Gen.dats m 0 c).after 6 t) (ix3 (0 : Fin 1) r d) = _
  rw [Gen.after0_6]
  rfl

/-- The result array after the run is the layer's output, once every writing point's block is. -/
theorem out_final_spec (c : Dev nD)
    (hval : ∀ n : Fin cfg0.N, n.val % 16 = 15 → ∀ (r : Fin 512) (d : Fin 2048),
      Gen.outAfter m c n (ix3 (0 : Fin 1) r d)
        = GluSpec.outAt (A0 m c) (A1 m c) (A2 m c) (A3 m c) (A4 m c) (bOf n) (rowOf n r) d) :
    (Gen.dats m 0 c).arrAt 6 cfg0.N = GluSpec.out (A0 m c) (A1 m c) (A2 m c) (A3 m c) (A4 m c) :=
  BlockValue.out_final_at c (Gen.dats m 0 c) (GluSpec.out (A0 m c) (A1 m c) (A2 m c) (A3 m c) (A4 m c))
    fun t ht r d => (flushed_out_at m c t r d).trans (hval t ht r d)

/-- THE KERNEL'S RUN: the result array is the layer's output of the arguments, which end as launched. -/
theorem kernel_run
    (hrun : θ_run defs (onTc (τ := τ) (main (F := Ideal))) (s₀ m ρ) (Pipeline.FramePost cfgs (Gen.dats m) 0 (Gen.V m)))
    (hval : ∀ (c : Dev nD) (n : Fin cfg0.N), n.val % 16 = 15 → ∀ (r : Fin 512) (d : Fin 2048),
      Gen.outAfter m c n (ix3 (0 : Fin 1) r d)
        = GluSpec.outAt (A0 m c) (A1 m c) (A2 m c) (A3 m c) (A4 m c) (bOf n) (rowOf n r) d) :
    θ_run defs (onTc (τ := τ) (main (F := Ideal))) ⟨m, fun _ => 0, ρ⟩ (fun r => ∀ c : Dev nD,
      r.2.mem ((c.tc : Thread nD τ).loc main_v8) = GluSpec.out (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(post_out m r h c).trans (out_final_spec m c (hval c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) hrun

end Cert.KernelIdeal.KernelValue

end
-- ==== Proof.K.Runs.lean ====
/- The body's runs, shared part: the three branch conditions of the kernel body as propositions over the grid
   coordinates with their closed forms over the 128 points, where the output window is idle or live, the staging
   memrefs the pipeline passes at a point, the three scratch operands as whole memrefs, and the region invariant
   spelled as the three scratches owned at some contents. -/
import proofs.«121193_j53343493816972_2_alg».proof.Proof.Gen.Kernel.Launch
import proofs.«121193_j53343493816972_2_alg».proof.Proof.Gen.Kernel.Skeleton
import proofs.«121193_j53343493816972_2_alg».proof.Proof.Gen.Kernel.Points
import proofs.«121193_j53343493816972_2_alg».proof.Proof.Gen.Kernel.Frame
import Idealize.ShloMosaic.Lib.Pipeline.FrameBody
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the first branch (feature block 0: the accumulator is zeroed), from the grid coordinates. -/
abbrev cond0_1 (i : grid0.Coords) : Prop := (Scalar.cmpi .ne (Scalar.extui (Scalar.cmpi .eq (BitVec.ofNat 32 (i 2).val) 0#32)) 0#32) = 1#1
/-- It holds at the points ≡ 0 (mod 16). -/
theorem hcond0_1 : ∀ t : Fin cfg0.N, cond0_1 (grid0.coords t) ↔ t.val % 16 = 0 :=
  (by decide +kernel : ∀ t : Fin grid0.N, cond0_1 (grid0.coords t) ↔ t.val % 16 = 0)

/-- The condition of the second branch (row block 0: the halo columns of the feature block are zeroed). -/
abbrev cond0_2 (i : grid0.Coords) : Prop := k0_cond2 i = 1#1
/-- It holds at the points whose row-block coordinate is 0. -/
theorem hcond0_2 : ∀ t : Fin cfg0.N, cond0_2 (grid0.coords t) ↔ (t.val / 16) % 4 = 0 :=
  (by decide +kernel : ∀ t : Fin grid0.N, cond0_2 (grid0.coords t) ↔ (t.val / 16) % 4 = 0)

/-- The condition of the third branch (feature block 15: the accumulator is stored to the output block). -/
abbrev cond0_3 (i : grid0.Coords) : Prop := k0_cond3 i = 1#1
/-- It holds at the points ≡ 15 (mod 16). -/
theorem hcond0_3 : ∀ t : Fin cfg0.N, cond0_3 (grid0.coords t) ↔ t.val % 16 = 15 :=
  (by decide +kernel : ∀ t : Fin grid0.N, cond0_3 (grid0.coords t) ↔ t.val % 16 = 15)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Where the third branch is not taken the output window is idle: nothing is stored into it. -/
theorem idleAt0_6 : ∀ t : Fin cfg0.N, ¬cond0_3 (grid0.coords t) → cfg0.idle 6 (grid0.coords t) = true := by decide +kernel
/-- Where the third branch is not taken the output block is not written back. -/
theorem noFlush0_6 : ∀ t : Fin cfg0.N, ¬cond0_3 (grid0.coords t) → (cfg0.win 6).flush t = false := by decide +kernel
/-- Where the third branch is taken the output window is live. -/
theorem liveAt0_6 : ∀ t : Fin cfg0.N, cond0_3 (grid0.coords t) → cfg0.idle 6 (grid0.coords t) = false := by decide +kernel

/-! ## The memrefs the body runs on -/

/-- One staging buffer of the output window, through which its contents are stated. -/
abbrev VO0_6 : View sig .tc .vmem S1x512x2048 .f32 := (Memref.whole cc0_stg6_0 : Memref sig .tc .vmem S1x512x2048 .f32).view
abbrev ms0_0 (t : Fin cfg0.N) : Memref sig .tc .vmem S1x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x2048 .f32 := win0_6.stage (cfg0.slots t 6)
abbrev hs0_6 (t : Fin cfg0.N) : (ms0_6 t).IsWhole := hstage0_6 ((cfg0.slots t 6).cast nbuf0_6)
/-- The scratch operands: whole scoped buffers, passed beside the windows; all three are carried between points. -/
abbrev scM0_0 : Memref sig .tc .vmem S8x8192 .f32 := Memref.whole cc0_scratch0
abbrev scM0_1 : Memref sig .tc .vmem S8x8192 .f32 := Memref.whole cc0_scratch1
abbrev scM0_2 : Memref sig .tc .vmem S512x2048 .f32 := Memref.whole cc0_scratch2
abbrev VS0_0 : View sig .tc .vmem S8x8192 .f32 := scM0_0.view
abbrev VS0_1 : View sig .tc .vmem S8x8192 .f32 := scM0_1.view
abbrev VS0_2 : View sig .tc .vmem S512x2048 .f32 := scM0_2.view

/-- The region invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.K.State.lean ====
/-
  What the kernel carries from one grid point to the next, as closed functions of the point.

  The grid is (batch b, row block t, column block f) = (2, 4, 16); point number n = 64 b + 16 t + f. At point n the body forms the
  gate and up projections of the point's 512 rows against column block f (512 channels), convolves them along time with four taps —
  the three rows before the block come from the last rows of the SAME column block one row block earlier (point n - 16), kept in a
  scratch, or are zero in the first row block —, gates them, and adds their product with the point's block of the down projection into
  an accumulator that is reset in column block 0 and written out in column block 15.
    gNew, uNew     the raw projections of the point (512 x 512)
    keepG, keepU   their last eight rows, which the body leaves in the scratch's column block f
    haloInG/U      the three rows the body finds in front of the block: rows 5..7 of what point n - 16 kept, or zeros
    tapG, tapU     tap k of the convolution for the point's 512 channels
    gConv, uConv   the convolved projections
    accAt          the accumulator after point n: the point's product added to zero (f = 0) or to what point n - 1 left
-/
import proofs.«121193_j53343493816972_2_alg».proof.Proof.Gen.Kernel.Frame
import proofs.«121193_j53343493816972_2_alg».proof.Proof.Gen.Kernel.Skeleton
import Idealize.ShloMosaic.Lib.ValueIdx

noncomputable section

namespace Cert.Kernel.Gen

open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ) (c : Dev nD)

/-- The grid has 128 points. -/
theorem N_128 : cfg0.N = 128 := N_0

/-- The point one row block earlier in the same batch and column block. -/
def prevRow (n : Fin cfg0.N) : Fin cfg0.N := ⟨n.val - 16, lt_of_le_of_lt (Nat.sub_le _ _) n.isLt⟩

/-- The gate projection of the point's rows against its column block. -/
def gNew (n : Fin cfg0.N) : FVec F S512x512 .f32 := k0_pay9 (iblk m c 0 n) (iblk m c 1 n)
/-- The up projection of the point's rows against its column block. -/
def uNew (n : Fin cfg0.N) : FVec F S512x512 .f32 := k0_pay10 (iblk m c 0 n) (iblk m c 2 n)
/-- The last eight rows of the gate projection: what the point leaves in the gate scratch's column block. -/
def keepG (n : Fin cfg0.N) : FVec F S8x512 .f32 := k0_pay1 (k0_pay18 (gNew m c n))
/-- The last eight rows of the up projection: what the point leaves in the up scratch's column block. -/
def keepU (n : Fin cfg0.N) : FVec F S8x512 .f32 := k0_pay2 (uNew m c n)

/-- Rows 5, 6, 7 of an eight-row block. -/
def lastThree (v : FVec F S8x512 .f32) : FVec F S3x512 .f32 :=
  fun y => v (ix2 (⟨5 + (y 0).val, by have := idx2_lt0 y; omega⟩ : Fin 8) (⟨(y 1).val, idx2_lt1 y⟩ : Fin 512))

/-- The three gate rows in front of the point's block: zeros in the first row block, else the last rows kept one row block earlier. -/
def haloInG (n : Fin cfg0.N) : FVec F S3x512 .f32 :=
  lastThree (if n.val / 16 % 4 = 0 then k0_pay6 else keepG m c (prevRow n))
/-- The three up rows in front of the point's block. -/
def haloInU (n : Fin cfg0.N) : FVec F S3x512 .f32 :=
  lastThree (if n.val / 16 % 4 = 0 then k0_pay7 else keepU m c (prevRow n))

/-- Column block f of an 8 x 8192 scratch. -/
def colBlock (s : Vec F S8x8192 .f32) (f : ℕ) (hf : f < 16) : FVec F S8x512 .f32 :=
  fun y => s (ix2 (⟨(y 0).val, idx2_lt0 y⟩ : Fin 8) (⟨f * 512 + (y 1).val, by have := idx2_lt1 y; omega⟩ : Fin 8192))

/-- Tap k of the gate's convolution for the point's 512 channels, as a one-row block. -/
def tapG (k : Fin 4) (n : Fin cfg0.N) : FVec F S1x512 .f32 :=
  fun y => (iblk m c 4 n : Vec F S4x8192 .f32) (ix2 k (⟨n.val % 16 * 512 + (y 1).val, by have := idx2_lt1 y; omega⟩ : Fin 8192))
/-- Tap k of the up branch's convolution for the point's 512 channels. -/
def tapU (k : Fin 4) (n : Fin cfg0.N) : FVec F S1x512 .f32 :=
  fun y => (iblk m c 5 n : Vec F S4x8192 .f32) (ix2 k (⟨n.val % 16 * 512 + (y 1).val, by have := idx2_lt1 y; omega⟩ : Fin 8192))

/-- The convolved gate projection of the point. -/
def gConv (n : Fin cfg0.N) : FVec F S512x512 .f32 :=
  k0_pay16 (k0_pay11 (iblk m c 0 n) (iblk m c 1 n) (haloInG m c n))
    (k0_pay13 (iblk m c 0 n) (iblk m c 1 n) (haloInG m c n) (tapG m c 0 n)) (tapG m c 1 n) (tapG m c 2 n) (tapG m c 3 n)
/-- The convolved up projection of the point. -/
def uConv (n : Fin cfg0.N) : FVec F S512x512 .f32 :=
  k0_pay17 (k0_pay10 (iblk m c 0 n) (iblk m c 2 n)) (k0_pay12 (iblk m c 0 n) (iblk m c 2 n) (haloInU m c n))
    (k0_pay14 (iblk m c 0 n) (iblk m c 2 n) (haloInU m c n)) (k0_pay15 (tapU m c 0 n)) (tapU m c 1 n) (tapU m c 2 n) (tapU m c 3 n)

/-- The accumulator after point n: the point's gated product with its block of the down projection, added to zero in column block 0
    and otherwise to what the point before left. -/
def accAt : (n : ℕ) → n < cfg0.N → FVec F S512x2048 .f32
  | 0, h => k0_pay3 (gConv m c ⟨0, h⟩) (uConv m c ⟨0, h⟩) (iblk m c 3 ⟨0, h⟩) k0_pay5
  | n + 1, h => k0_pay3 (gConv m c ⟨n + 1, h⟩) (uConv m c ⟨n + 1, h⟩) (iblk m c 3 ⟨n + 1, h⟩)
      (if (n + 1) % 16 = 0 then k0_pay5 else accAt n (Nat.lt_of_succ_lt h))

/-- The accumulator a point starts from. -/
def accIn (n : Fin cfg0.N) : FVec F S512x2048 .f32 :=
  if n.val % 16 = 0 then k0_pay5 else accAt m c (n.val - 1) (lt_of_le_of_lt (Nat.sub_le _ _) n.isLt)

theorem accAt_eq (n : Fin cfg0.N) :
    accAt m c n.val n.isLt = k0_pay3 (gConv m c n) (uConv m c n) (iblk m c 3 n) (accIn m c n) := by
  obtain ⟨n, hn⟩ := n
  cases n with
  | zero => rfl
  | succ n => rfl

/-- What the output window's buffer holds after a point that stores into it (column block 15). -/
def outAfter (n : Fin cfg0.N) : FVec F S1x512x2048 .f32 := k0_pay4 (accAt m c n.val n.isLt)

/-- What is known of the three scratches after point n: each column block of the two row scratches that one of the last sixteen points
    stored holds that point's last eight rows, and the accumulator holds the running sum. -/
def Carried (n : ℕ) (hn : n < cfg0.N) (s0 s1 : Vec F S8x8192 .f32) (s2 : Vec F S512x2048 .f32) : Prop :=
  (∀ k : Fin cfg0.N, k.val ≤ n → n < k.val + 16 → colBlock s0 (k.val % 16) (Nat.mod_lt _ (by decide)) = keepG m c k)
  ∧ (∀ k : Fin cfg0.N, k.val ≤ n → n < k.val + 16 → colBlock s1 (k.val % 16) (Nat.mod_lt _ (by decide)) = keepU m c k)
  ∧ s2 = accAt m c n hn

end Cert.Kernel.Gen

end
-- ==== Proof.K.Step.lean ====
/-
  One grid point's arithmetic as functions of what the body loads, and how a store of one 8 x 512 column block
  changes an 8 x 8192 scratch.

  At coordinates i (column block i 2) the body reads, besides its four matrix blocks, rows 5..7 of its column block of each row
  scratch (`rowsIn`), and one row of taps per tap index (`tapOf`); `gConvOf` / `uConvOf` are the convolved projections and `accOf`
  the accumulator it stores, all over the printed payloads. A store of an 8 x 512 block at column offset 512 · (i 2) replaces
  exactly that column block (`colBlock_store_same`) and leaves every other column block as it was (`colBlock_store_other`).
-/
import proofs.«121193_j53343493816972_2_alg».proof.Proof.K.State
import Idealize.ShloMosaic.Lib.WritesUnit

noncomputable section

namespace Cert.Kernel.Gen

open Idealize.ShloMosaic Idealize.ShloMosaic.TcCoe Idealize.ShloMosaic.ValueIdx
open Idealize.SL Idealize.SL.Sem

variable {F : FTy → Type} [FloatOps F]

/-- The column block of a point is below 16. -/
theorem col_lt (i : grid0.Coords) : (i 2).val < 16 := (i 2).isLt

/-- The grid coordinates of point n: batch n / 64, row block n / 16 % 4, column block n % 16. -/
theorem coords_col : ∀ n : Fin cfg0.N, ((grid0.coords n) 2).val = n.val % 16 :=
  (by decide +kernel : ∀ n : Fin grid0.N, ((grid0.coords n) 2).val = n.val % 16)

/-- Rows 5..7 of column block (i 2) of a row scratch. -/
def rowsIn (i : grid0.Coords) (xs : Vec F S8x8192 .f32) : FVec F S3x512 .f32 :=
  fun y => xs (ix2 (⟨5 + (y 0).val, by have := idx2_lt0 y; omega⟩ : Fin 8)
    (⟨(i 2).val * 512 + (y 1).val, by have := idx2_lt1 y; have := col_lt i; omega⟩ : Fin 8192))

/-- Tap k for the 512 channels of column block (i 2), as a one-row block. -/
def tapOf (i : grid0.Coords) (x : Vec F S4x8192 .f32) (k : Fin 4) : FVec F S1x512 .f32 :=
  fun y => x (ix2 k (⟨(i 2).val * 512 + (y 1).val, by have := idx2_lt1 y; have := col_lt i; omega⟩ : Fin 8192))

/-- The convolved gate projection from the loaded blocks, the three rows in front and the taps. -/
def gConvOf (i : grid0.Coords) (x0 : Vec F S1x512x2048 .bf16) (x1 : Vec F S512x2048 .bf16) (h : FVec F S3x512 .f32)
    (x4 : Vec F S4x8192 .f32) : FVec F S512x512 .f32 :=
  k0_pay16 (k0_pay11 x0 x1 h) (k0_pay13 x0 x1 h (tapOf i x4 0)) (tapOf i x4 1) (tapOf i x4 2) (tapOf i x4 3)

/-- The convolved up projection. -/
def uConvOf (i : grid0.Coords) (x0 : Vec F S1x512x2048 .bf16) (x2 : Vec F S512x2048 .bf16) (h : FVec F S3x512 .f32)
    (x5 : Vec F S4x8192 .f32) : FVec F S512x512 .f32 :=
  k0_pay17 (k0_pay10 x0 x2) (k0_pay12 x0 x2 h) (k0_pay14 x0 x2 h) (k0_pay15 (tapOf i x5 0)) (tapOf i x5 1) (tapOf i x5 2) (tapOf i x5 3)

/-- The accumulator the point stores: the gated product with the down-projection block added to the accumulator it starts from. -/
def accOf (i : grid0.Coords) (x0 : Vec F S1x512x2048 .bf16) (x1 x2 : Vec F S512x2048 .bf16) (x3 : Vec F S2048x512 .bf16)
    (x4 x5 : Vec F S4x8192 .f32) (hg hu : FVec F S3x512 .f32) (acc : Vec F S512x2048 .f32) : FVec F S512x2048 .f32 :=
  k0_pay3 (gConvOf i x0 x1 hg x4) (uConvOf i x0 x2 hu x5) x3 acc

variable (m : (ℓ : Loc nD τ sig) → Buf (Elt F) ℓ) (c : Dev nD)

theorem tapG_eq (k : Fin 4) (n : Fin cfg0.N) : tapG m c k n = tapOf (grid0.coords n) (iblk m c 4 n) k := by
  funext y; unfold tapG tapOf
  exact congrArg _ (congrArg (ix2 k) (Fin.ext (by have h := coords_col n; show n.val % 16 * 512 + (y 1).val = ((grid0.coords n) 2).val * 512 + (y 1).val; rw [h])))

theorem tapU_eq (k : Fin 4) (n : Fin cfg0.N) : tapU m c k n = tapOf (grid0.coords n) (iblk m c 5 n) k := by
  funext y; unfold tapU tapOf
  exact congrArg _ (congrArg (ix2 k) (Fin.ext (by have h := coords_col n; show n.val % 16 * 512 + (y 1).val = ((grid0.coords n) 2).val * 512 + (y 1).val; rw [h])))

theorem gConv_eq (n : Fin cfg0.N) :
    gConv m c n = gConvOf (grid0.coords n) (iblk m c 0 n) (iblk m c 1 n) (haloInG m c n) (iblk m c 4 n) := by
  unfold gConv gConvOf; rw [tapG_eq, tapG_eq, tapG_eq, tapG_eq]

theorem uConv_eq (n : Fin cfg0.N) :
    uConv m c n = uConvOf (grid0.coords n) (iblk m c 0 n) (iblk m c 2 n) (haloInU m c n) (iblk m c 5 n) := by
  unfold uConv uConvOf; rw [tapU_eq, tapU_eq, tapU_eq, tapU_eq]

/-- The accumulator after point n from what the point loads. -/
theorem accAt_step (n : Fin cfg0.N) :
    accAt m c n.val n.isLt = accOf (grid0.coords n) (iblk m c 0 n) (iblk m c 1 n) (iblk m c 2 n) (iblk m c 3 n) (iblk m c 4 n) (iblk m c 5 n)
      (haloInG m c n) (haloInU m c n) (accIn m c n) := by
  rw [accAt_eq, gConv_eq, uConv_eq]; rfl

/-- Rows 5..7 of column block f of a scratch are the last three rows of that column block. -/
theorem rowsIn_eq (i : grid0.Coords) (xs : Vec F S8x8192 .f32) : rowsIn i xs = lastThree (colBlock xs (i 2).val (col_lt i)) := rfl

section Store

variable {sig' : RefSig} {κ : Kind} {sp : Space} (v : View sig' κ sp S8x8192 .f32) (f : v.ty.Contents (Elt F))

/-- A store of an 8 x 512 block at column offset 512 · j puts the block into column block j … -/
theorem colBlock_store_same {off : Fin 2 → ℕ} (inb : ∀ a, off a + S8x512.size a ≤ S8x8192.size a)
    (w : FVec F S8x512 .f32) (L : List (View.Piece (Elt F) S8x8192 .f32)) (j : ℕ) (hj : j < 16) (hoff : off = ![0, 512 * j]) :
    colBlock (v.read (Elt F) (v.writes (Elt F) f ((⟨Rect.unit off S8x512.size inb, w⟩ : View.Piece (Elt F) S8x8192 .f32) :: L))) j hj = w := by
  funext y
  unfold colBlock
  refine (View.read_writes_cons_unit_of_mem v f inb w L _ y hoff ?_).trans rfl
  intro a
  match a with
  | ⟨0, _⟩ => show (y 0).val = 0 + (y 0).val; omega
  | ⟨1, _⟩ => show j * 512 + (y 1).val = 512 * j + (y 1).val; omega

/-- … and leaves every other column block as the earlier stores left it. -/
theorem colBlock_store_other {off : Fin 2 → ℕ} (inb : ∀ a, off a + S8x512.size a ≤ S8x8192.size a)
    (w : FVec F S8x512 .f32) (L : List (View.Piece (Elt F) S8x8192 .f32)) (j j' : ℕ) (hj' : j' < 16) (hne : j' ≠ j) (hoff : off = ![0, 512 * j]) :
    colBlock (v.read (Elt F) (v.writes (Elt F) f ((⟨Rect.unit off S8x512.size inb, w⟩ : View.Piece (Elt F) S8x8192 .f32) :: L))) j' hj'
      = colBlock (v.read (Elt F) (v.writes (Elt F) f L)) j' hj' := by
  funext y
  unfold colBlock
  refine View.read_writes_cons_unit_of_not_mem v f inb w L _ hoff (1 : Fin 2) ?_
  have hy := idx2_lt1 y
  show j' * 512 + (y 1).val < 512 * j ∨ 512 * j + 512 ≤ j' * 512 + (y 1).val
  rcases Nat.lt_or_gt_of_ne hne with h | h <;> omega

end Store

end Cert.Kernel.Gen

end
-- ==== Proof.K.Carry.lean ====
/-
  How the carried facts pass through one grid point.

  A point stores into ONE column block of each row scratch (its own, n % 16) and into the whole accumulator. The column blocks stored by
  the fifteen points before it are other column blocks, so they survive; its own column block now holds its own last eight rows.
  What the point reads in front of its block is the column block stored sixteen points earlier (same column block, previous row block) —
  still there, because none of the fifteen points in between touched it — or the zeros the point itself stored first (row block 0).
-/
import proofs.«121193_j53343493816972_2_alg».proof.Proof.K.Step

noncomputable section

namespace Cert.Kernel.Gen

open Idealize.ShloMosaic Idealize.ShloMosaic.TcCoe Idealize.ShloMosaic.ValueIdx
open Idealize.SL Idealize.SL.Sem

variable {F : FTy → Type} [FloatOps F]

theorem colBlock_congr (s : Vec F S8x8192 .f32) {f f' : ℕ} (hf : f < 16) (hf' : f' < 16) (h : f = f') :
    colBlock s f hf = colBlock s f' hf' := by subst h; rfl

/-- The column blocks kept by the last sixteen points, after a store into this point's column block. -/
theorem carried_cols (keep : Fin cfg0.N → FVec F S8x512 .f32) (t : Fin cfg0.N) (xs s' : Vec F S8x8192 .f32)
    (hsame : colBlock s' (t.val % 16) (Nat.mod_lt _ (by decide)) = keep t)
    (hother : ∀ j' (hj' : j' < 16), j' ≠ t.val % 16 → colBlock s' j' hj' = colBlock xs j' hj')
    (hprev : t.val ≠ 0 → ∀ k : Fin cfg0.N, k.val ≤ t.val - 1 → t.val - 1 < k.val + 16 →
      colBlock xs (k.val % 16) (Nat.mod_lt _ (by decide)) = keep k) :
    ∀ k : Fin cfg0.N, k.val ≤ t.val → t.val < k.val + 16 → colBlock s' (k.val % 16) (Nat.mod_lt _ (by decide)) = keep k := by
  intro k hk1 hk2
  by_cases hkt : k = t
  · subst hkt; exact hsame
  · have hne : k.val ≠ t.val := fun h => hkt (Fin.ext h)
    have hlt : k.val < t.val := lt_of_le_of_ne hk1 hne
    rw [hother _ _ (by omega)]
    exact hprev (by omega) k (by omega) (by omega)

variable (m : (ℓ : Loc nD τ sig) → Buf (Elt F) ℓ) (c : Dev nD)

/-- Past the first row block, rows 5..7 of the point's column block are the last three rows kept sixteen points earlier. -/
theorem rowsIn_of_prev (keep : Fin cfg0.N → FVec F S8x512 .f32) (t : Fin cfg0.N) (xs : Vec F S8x8192 .f32) (hnz : ¬ t.val / 16 % 4 = 0)
    (hprev : ∀ k : Fin cfg0.N, k.val ≤ t.val - 1 → t.val - 1 < k.val + 16 →
      colBlock xs (k.val % 16) (Nat.mod_lt _ (by decide)) = keep k) :
    rowsIn (grid0.coords t) xs = lastThree (keep (prevRow t)) := by
  rw [rowsIn_eq]
  have h16 : 16 ≤ t.val := by omega
  have h := hprev (prevRow t) (by show t.val - 16 ≤ t.val - 1; omega) (by show t.val - 1 < t.val - 16 + 16; omega)
  rw [← h]
  exact congrArg lastThree (colBlock_congr xs _ _ (by rw [coords_col t]; show t.val % 16 = (t.val - 16) % 16; omega))

theorem haloInG_first (t : Fin cfg0.N) (hz : t.val / 16 % 4 = 0) : haloInG m c t = lastThree k0_pay6 := by
  unfold haloInG; rw [if_pos hz]
theorem haloInU_first (t : Fin cfg0.N) (hz : t.val / 16 % 4 = 0) : haloInU m c t = lastThree k0_pay7 := by
  unfold haloInU; rw [if_pos hz]
theorem haloInG_later (t : Fin cfg0.N) (hnz : ¬ t.val / 16 % 4 = 0) : haloInG m c t = lastThree (keepG m c (prevRow t)) := by
  unfold haloInG; rw [if_neg hnz]
theorem haloInU_later (t : Fin cfg0.N) (hnz : ¬ t.val / 16 % 4 = 0) : haloInU m c t = lastThree (keepU m c (prevRow t)) := by
  unfold haloInU; rw [if_neg hnz]

theorem accIn_first (t : Fin cfg0.N) (hz : t.val % 16 = 0) : accIn m c t = k0_pay5 := by
  unfold accIn; rw [if_pos hz]
theorem accIn_later (t : Fin cfg0.N) (hnz : ¬ t.val % 16 = 0) :
    accIn m c t = accAt m c (t.val - 1) (lt_of_le_of_lt (Nat.sub_le _ _) t.isLt) := by
  unfold accIn; rw [if_neg hnz]

end Cert.Kernel.Gen

end
-- ==== Proof.K.Data.lean ====
/-
  The proof data of the one pipeline and its frame run.

  Between two grid points the region's invariant holds the three scratches at SOME contents of which only this is known
  (State.lean, `Carried`): every column block of the two row scratches stored by one of the last sixteen points holds that point's
  last eight projection rows, and the accumulator holds the running sum. That is all a later point reads: the three rows in
  front of its block come from the same column block one row block (sixteen points) earlier, or the column block was zeroed at
  this very point (first row block), and the accumulator is either reset (column block 0) or continued.
  The output window is stored only in column block 15 and written back there; elsewhere it is idle.
-/
import proofs.«121193_j53343493816972_2_alg».proof.Proof.K.Runs
import proofs.«121193_j53343493816972_2_alg».proof.Proof.K.Carry

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position n: before the first point the three scratches at anything; afterwards at contents of which
    the carried facts of the point before hold; the generator register at some state throughout. -/
def PhiS (c : Dev nD) : (n : ℕ) → n ≤ cfg0.N → sProp 𝕄
  | 0, _ => Pipeline.ΦA spec0 c
  | n + 1, hn => iprop(iprop(∃ s0 s1 s2, ⌜Carried m c n hn s0 s1 s2⌝ ∗ owns (c : Thread nD τ) scM0_0 fullShare s0
      ∗ owns (c : Thread nD τ) scM0_1 fullShare s1 ∗ owns (c : Thread nD τ) scM0_2 fullShare s2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ s0 s1 s2, ⌜Carried m c n hn s0 s1 s2⌝ ∗ owns (c : Thread nD τ) scM0_0 fullShare s0
      ∗ owns (c : Thread nD τ) scM0_1 fullShare s1 ∗ owns (c : Thread nD τ) scM0_2 fullShare s2) ∗ (∃ r, prngReg c r)) := rfl

theorem PhiS_pos (c : Dev nD) (n : ℕ) (h : n ≤ cfg0.N) (hz : n ≠ 0) :
    PhiS m c n h = iprop(iprop(∃ s0 s1 s2, ⌜Carried m c (n - 1) (by omega) s0 s1 s2⌝ ∗ owns (c : Thread nD τ) scM0_0 fullShare s0
      ∗ owns (c : Thread nD τ) scM0_1 fullShare s1 ∗ owns (c : Thread nD τ) scM0_2 fullShare s2) ∗ (∃ r, prngReg c r)) := by
  cases n with
  | zero => exact absurd rfl hz
  | succ n => rfl

/-- The proof data: the arrays as the region finds them; after the body each input's buffer at its block and the output's at the
    accumulator (where it is stored: column block 15); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAfter m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAfter m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratches back at some contents: what is known of them is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%s0, %s1, %s2, -, HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 128 := N_0; omega)

/-- What the invariant hands a point: the three scratches at contents of which, past the first point, the carried facts hold. -/
theorem Phi_in (c : Dev nD) (t : Fin cfg0.N) :
    (dats m 0 c).Φ t.castSucc ⊢ iprop(iprop(∃ s0 s1 s2, ⌜t.val ≠ 0 → Carried m c (t.val - 1) (lt_of_le_of_lt (Nat.sub_le _ _) t.isLt) s0 s1 s2⌝
      ∗ owns (c : Thread nD τ) scM0_0 fullShare s0 ∗ owns (c : Thread nD τ) scM0_1 fullShare s1 ∗ owns (c : Thread nD τ) scM0_2 fullShare s2) ∗ (∃ r, prngReg c r)) := by
  rw [PhiS_castSucc m c t]
  by_cases hz : t.val = 0
  · rw [PhiS_zero m c _ _ hz, PhiA0_eq]
    iintro ⟨⟨⟨%d0, H0⟩, ⟨%d1, H1⟩, ⟨%d2, H2⟩⟩, Hg⟩
    isplitr [Hg]
    · iexists d0, d1, d2
      isplitr [H0 H1 H2]; · ipureintro; exact fun h => absurd hz h
      isplitl [H0]; · iexact H0
      isplitl [H1]; · iexact H1
      iexact H2
    iexact Hg
  · rw [PhiS_pos m c _ _ hz]
    iintro ⟨⟨%s0, %s1, %s2, %hC, H0, H1, H2⟩, Hg⟩
    isplitr [Hg]
    · iexists s0, s1, s2
      isplitr [H0 H1 H2]; · ipureintro; exact fun _ => hC
      isplitl [H0]; · iexact H0
      isplitl [H1]; · iexact H1
      iexact H2
    iexact Hg

/-- A store through the whole 512 x 2048 rectangle leaves its payload. -/
theorem read_whole_store2 {sig' : RefSig} {κ : Kind} {sp : Space} (v : View sig' κ sp S512x2048 .f32) (f : v.ty.Contents (Elt F))
    (w : FVec F S512x2048 .f32) (L : List (View.Piece (Elt F) S512x2048 .f32)) :
    v.read (Elt F) (v.writes (Elt F) f ((⟨Rect.unit (s := S512x2048) ![0, 0] S512x2048.size inb_S512x2048_S512x2048_0_0, w⟩ : View.Piece (Elt F) S512x2048 .f32) :: L)) = w := by
  funext y
  refine View.read_writes_cons_unit_of_mem v f inb_S512x2048_S512x2048_0_0 w L y y rfl ?_
  intro a
  match a with
  | ⟨0, _⟩ => exact (Nat.zero_add _).symm
  | ⟨1, _⟩ => exact (Nat.zero_add _).symm

/-- A store through the whole 1 x 512 x 2048 rectangle leaves its payload. -/
theorem read_whole_store3 {sig' : RefSig} {κ : Kind} {sp : Space} (v : View sig' κ sp S1x512x2048 .f32) (f : v.ty.Contents (Elt F))
    (w : FVec F S1x512x2048 .f32) (L : List (View.Piece (Elt F) S1x512x2048 .f32)) :
    v.read (Elt F) (v.writes (Elt F) f ((⟨Rect.unit (s := S1x512x2048) ![0, 0, 0] S1x512x2048.size inb_S1x512x2048_S1x512x2048_0_0_0, w⟩ : View.Piece (Elt F) S1x512x2048 .f32) :: L)) = w := by
  funext y
  refine View.read_writes_cons_unit_of_mem v f inb_S1x512x2048_S1x512x2048_0_0_0 w L y y rfl ?_
  intro a
  match a with
  | ⟨0, _⟩ => exact (Nat.zero_add _).symm
  | ⟨1, _⟩ => exact (Nat.zero_add _).symm
  | ⟨2, _⟩ => exact (Nat.zero_add _).symm

/-- The carried facts after a point, from what the point's stores did to the scratches. -/
theorem carried_next (c : Dev nD) (t : Fin cfg0.N) (xs0 xs1 : Vec F S8x8192 .f32) (xs2 : Vec F S512x2048 .f32)
    (hprev : t.val ≠ 0 → Carried m c (t.val - 1) (lt_of_le_of_lt (Nat.sub_le _ _) t.isLt) xs0 xs1 xs2)
    (s0 s1 : Vec F S8x8192 .f32) (s2 : Vec F S512x2048 .f32)
    (h0s : colBlock s0 (t.val % 16) (Nat.mod_lt _ (by decide)) = keepG m c t)
    (h0o : ∀ j' (hj' : j' < 16), j' ≠ t.val % 16 → colBlock s0 j' hj' = colBlock xs0 j' hj')
    (h1s : colBlock s1 (t.val % 16) (Nat.mod_lt _ (by decide)) = keepU m c t)
    (h1o : ∀ j' (hj' : j' < 16), j' ≠ t.val % 16 → colBlock s1 j' hj' = colBlock xs1 j' hj')
    (h2 : s2 = accAt m c t.val t.isLt) : Carried m c t.val t.isLt s0 s1 s2 :=
  ⟨carried_cols (keepG m c) t xs0 s0 h0s h0o (fun hz => (hprev hz).1),
   carried_cols (keepU m c) t xs1 s1 h1s h1o (fun hz => (hprev hz).2.1), h2⟩

end Cert.Kernel.Gen

end
-- ==== Proof.K.After.lean ====
/-
  The scratches after a point, read back: the carried facts of the point from the carried facts of the point before.

  A row scratch after the point holds its incoming contents with the point's last eight rows stored over column block n % 16 — after,
  in the first row block, zeros stored over the same column block. Either way its column block n % 16 is the point's last eight rows and
  every other column block is what came in. The accumulator is stored whole.
-/
import proofs.«121193_j53343493816972_2_alg».proof.Proof.K.Data

set_option maxRecDepth 16384

noncomputable section

namespace Cert.Kernel.Gen

open Idealize.ShloMosaic Idealize.ShloMosaic.TcCoe Idealize.ShloMosaic.ValueIdx
open Idealize.SL Idealize.SL.Sem

variable {F : FTy → Type} [FloatOps F]

section Rows

variable (M : Memref sig .tc .vmem S8x8192 .f32) (hM : M.IsWhole)

/-- The point's own column block after its store. -/
theorem rows_same (i : grid0.Coords) (xs : Vec F S8x8192 .f32) (w : FVec F S8x512 .f32) (L : List (View.Piece (Elt F) S8x8192 .f32))
    (j : ℕ) (hj : j < 16) (hij : (i 2).val = j) :
    colBlock (M.view.read (Elt F) (M.view.writes (Elt F) (hM.unread xs)
      ((⟨Rect.unit (s := S8x8192) (k0_off7 i) S8x512.size (k0_off7_inb i), w⟩ : View.Piece (Elt F) S8x8192 .f32) :: L))) j hj = w :=
  colBlock_store_same M.view (hM.unread xs) (k0_off7_inb i) w L j hj (by rw [k0_off7_eq i, hij])

/-- Another column block after the point's store alone: what came in. -/
theorem rows_other_nil (i : grid0.Coords) (xs : Vec F S8x8192 .f32) (w : FVec F S8x512 .f32)
    (j j' : ℕ) (hj' : j' < 16) (hne : j' ≠ j) (hij : (i 2).val = j) :
    colBlock (M.view.read (Elt F) (M.view.writes (Elt F) (hM.unread xs)
      [(⟨Rect.unit (s := S8x8192) (k0_off7 i) S8x512.size (k0_off7_inb i), w⟩ : View.Piece (Elt F) S8x8192 .f32)])) j' hj' = colBlock xs j' hj' := by
  rw [colBlock_store_other M.view (hM.unread xs) (k0_off7_inb i) w [] j j' hj' hne (by rw [k0_off7_eq i, hij]), View.writes_nil, hM.read_unread]

/-- Another column block after the zero store and the point's store: what came in. -/
theorem rows_other_zero (i : grid0.Coords) (h2 : k0_cond2 i = 1#1) (xs : Vec F S8x8192 .f32) (w z : FVec F S8x512 .f32)
    (j j' : ℕ) (hj' : j' < 16) (hne : j' ≠ j) (hij : (i 2).val = j) :
    colBlock (M.view.read (Elt F) (M.view.writes (Elt F) (hM.unread xs)
      [(⟨Rect.unit (s := S8x8192) (k0_off7 i) S8x512.size (k0_off7_inb i), w⟩ : View.Piece (Elt F) S8x8192 .f32),
       (⟨Rect.unit (s := S8x8192) (k0_off1 i) S8x512.size (k0_off1_inb i h2), z⟩ : View.Piece (Elt F) S8x8192 .f32)])) j' hj' = colBlock xs j' hj' := by
  rw [colBlock_store_other M.view (hM.unread xs) (k0_off7_inb i) w _ j j' hj' hne (by rw [k0_off7_eq i, hij]),
    colBlock_store_other M.view (hM.unread xs) (k0_off1_inb i h2) z [] j j' hj' hne (by rw [k0_off1_eq i, hij]), View.writes_nil, hM.read_unread]

end Rows

variable (m : (ℓ : Loc nD τ sig) → Buf (Elt F) ℓ)

/-- The accumulator the point stores, past the first row block and column block 0, is the running sum. -/
theorem acc_mid (c : Dev nD) (t : Fin cfg0.N) (h1 : ¬ t.val % 16 = 0) (h2 : ¬ t.val / 16 % 4 = 0) (xs0 xs1 : Vec F S8x8192 .f32) (xs2 : Vec F S512x2048 .f32)
    (hprev : t.val ≠ 0 → Carried m c (t.val - 1) (lt_of_le_of_lt (Nat.sub_le _ _) t.isLt) xs0 xs1 xs2) :
    accOf (grid0.coords t) (iblk m c 0 t) (iblk m c 1 t) (iblk m c 2 t) (iblk m c 3 t) (iblk m c 4 t) (iblk m c 5 t)
      (rowsIn (grid0.coords t) xs0) (rowsIn (grid0.coords t) xs1) xs2 = accAt m c t.val t.isLt := by
  have hz : t.val ≠ 0 := by omega
  obtain ⟨hg, hu, ha⟩ := hprev hz
  rw [accAt_step, haloInG_later m c t h2, haloInU_later m c t h2, accIn_later m c t h1,
    rowsIn_of_prev (keepG m c) t xs0 h2 hg, rowsIn_of_prev (keepU m c) t xs1 h2 hu, ha]

/-- In column block 0 past the first row block: the accumulator restarts from zero. -/
theorem acc_col0 (c : Dev nD) (t : Fin cfg0.N) (h1 : t.val % 16 = 0) (h2 : ¬ t.val / 16 % 4 = 0) (xs0 xs1 : Vec F S8x8192 .f32) (xs2 : Vec F S512x2048 .f32)
    (hprev : t.val ≠ 0 → Carried m c (t.val - 1) (lt_of_le_of_lt (Nat.sub_le _ _) t.isLt) xs0 xs1 xs2) :
    accOf (grid0.coords t) (iblk m c 0 t) (iblk m c 1 t) (iblk m c 2 t) (iblk m c 3 t) (iblk m c 4 t) (iblk m c 5 t)
      (rowsIn (grid0.coords t) xs0) (rowsIn (grid0.coords t) xs1) k0_pay5 = accAt m c t.val t.isLt := by
  have hz : t.val ≠ 0 := by omega
  obtain ⟨hg, hu, ha⟩ := hprev hz
  rw [accAt_step, haloInG_later m c t h2, haloInU_later m c t h2, accIn_first m c t h1,
    rowsIn_of_prev (keepG m c) t xs0 h2 hg, rowsIn_of_prev (keepU m c) t xs1 h2 hu]

/-- In the first row block past column block 0: zeros in front, the accumulator continued. -/
theorem acc_row0 (c : Dev nD) (t : Fin cfg0.N) (h1 : ¬ t.val % 16 = 0) (h2 : t.val / 16 % 4 = 0) (xs0 xs1 : Vec F S8x8192 .f32) (xs2 : Vec F S512x2048 .f32)
    (hprev : t.val ≠ 0 → Carried m c (t.val - 1) (lt_of_le_of_lt (Nat.sub_le _ _) t.isLt) xs0 xs1 xs2) :
    accOf (grid0.coords t) (iblk m c 0 t) (iblk m c 1 t) (iblk m c 2 t) (iblk m c 3 t) (iblk m c 4 t) (iblk m c 5 t)
      (lastThree k0_pay6) (lastThree k0_pay7) xs2 = accAt m c t.val t.isLt := by
  have hz : t.val ≠ 0 := by omega
  obtain ⟨hg, hu, ha⟩ := hprev hz
  rw [accAt_step, haloInG_first m c t h2, haloInU_first m c t h2, accIn_later m c t h1, ha]

/-- In the first row block and column block 0: zeros in front, the accumulator from zero. -/
theorem acc_row0_col0 (c : Dev nD) (t : Fin cfg0.N) (h1 : t.val % 16 = 0) (h2 : t.val / 16 % 4 = 0) :
    accOf (grid0.coords t) (iblk m c 0 t) (iblk m c 1 t) (iblk m c 2 t) (iblk m c 3 t) (iblk m c 4 t) (iblk m c 5 t)
      (lastThree k0_pay6) (lastThree k0_pay7) k0_pay5 = accAt m c t.val t.isLt := by
  rw [accAt_step, haloInG_first m c t h2, haloInU_first m c t h2, accIn_first m c t h1]

end Cert.Kernel.Gen

end
-- ==== Proof.K.RunA.lean ====
/- The kernel body's run in case A: first branch taken, second taken, third not taken. -/
import proofs.«121193_j53343493816972_2_alg».proof.Proof.K.Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), in case A, with the proof that on
    whole memrefs — the inputs at their contents, the output block at contents handed back untouched, the three scratches at ARBITRARY
    incoming contents `xs0 xs1 xs2` — the body runs to the continuation holding the inputs as they were and each scratch at
    its incoming contents with the run's pieces written over them. -/
noncomputable def kernelRun0_A (c : Dev nD) (i : grid0.Coords) (arg3 : Memref sig .tc .vmem S1x512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S4x8192 .f32) (harg7 : arg7.IsWhole) (arg8 : Memref sig .tc .vmem S4x8192 .f32) (harg8 : arg8.IsWhole) (arg9 : Memref sig .tc .vmem S1x512x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S512x2048 .f32) (harg12 : arg12.IsWhole)
    (hc1 : cond0_1 i) (hc2 : cond0_2 i) (hc3 : ¬cond0_3 i)
    (x0 : Vec F S1x512x2048 .bf16) (x1 x2 : Vec F S512x2048 .bf16) (x3 : Vec F S2048x512 .bf16) (x4 x5 : Vec F S4x8192 .f32)
    (xs0 xs1 : Vec F S8x8192 .f32) (xs2 : Vec F S512x2048 .f32) :
    Σ' (LS0 : List (View.Piece (Elt F) S8x8192 .f32)) (LS1 : List (View.Piece (Elt F) S8x8192 .f32)), { LS2 : List (View.Piece (Elt F) S512x2048 .f32) //
      ∀ (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg10.eq_unread hfs0; obtain rfl := harg11.eq_unread hfs1; obtain rfl := harg12.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexact HS0
    isplitl [HS1]; · iexact HS1
    iexact HS2

end Cert.Kernel.Gen

end
-- ==== Proof.K.PiecesLib.lean ====
/- What the body's loads read, as the one-step functions: a tap row, the three rows in front of the block, the rows read back from the
   zero block just stored; and the names of the four rectangles the body stores through. -/
import proofs.«121193_j53343493816972_2_alg».proof.Proof.K.Step
import proofs.«121193_j53343493816972_2_alg».proof.Proof.Gen.Kernel
import Idealize.ShloMosaic.Lib.WholeRead
import Idealize.ShloMosaic.Lib.Pipeline.Value
import Idealize.ShloMosaic.Lib.Exec

noncomputable section

namespace Cert.Kernel.Gen

open Idealize.ShloMosaic Idealize.ShloMosaic.TcCoe Idealize.ShloMosaic.ValueIdx
open Idealize.SL Idealize.SL.Sem

variable {F : FTy → Type} [FloatOps F]

/-- The column block the point stores into each row scratch (the store of the last eight rows). -/
abbrev R7 (i : grid0.Coords) : Rect S8x8192 := Rect.unit (s := S8x8192) (k0_off7 i) S8x512.size (k0_off7_inb i)
/-- The same column block as the store of zeros in the first row block spells it. -/
abbrev R1 (i : grid0.Coords) (h2 : k0_cond2 i = 1#1) : Rect S8x8192 := Rect.unit (s := S8x8192) (k0_off1 i) S8x512.size (k0_off1_inb i h2)
/-- The whole accumulator. -/
abbrev RW2 : Rect S512x2048 := Rect.unit (s := S512x2048) ![0, 0] S512x2048.size inb_S512x2048_S512x2048_0_0
/-- The whole output block. -/
abbrev RW6 : Rect S1x512x2048 := Rect.unit (s := S1x512x2048) ![0, 0, 0] S1x512x2048.size inb_S1x512x2048_S1x512x2048_0_0_0

theorem hz2 : (![0, 0] : Fin 2 → ℕ) = fun _ => 0 := funext fun a => by fin_cases a <;> rfl
theorem hz3 : (![0, 0, 0] : Fin 3 → ℕ) = fun _ => 0 := funext fun a => by fin_cases a <;> rfl

/-- The three rows loaded in front of the block are rows 5..7 of the point's column block. -/
theorem ld_rows (i : grid0.Coords) (xs : Vec F S8x8192 .f32) :
    View.ld xs (Rect.unit (s := S8x8192) (k0_off2 i) S3x512.size (k0_off2_inb i)) = rowsIn i xs := by
  funext y
  unfold rowsIn
  refine congrArg xs (funext fun a => Fin.ext ?_)
  have e0 : k0_off2 i 0 = 5 := congrFun (k0_off2_eq i) 0
  have e1 : k0_off2 i 1 = 512 * (i 2).val := congrFun (k0_off2_eq i) 1
  match a with
  | ⟨0, _⟩ => show k0_off2 i 0 + 1 * (y 0).val = 5 + (y 0).val; omega
  | ⟨1, _⟩ => show k0_off2 i 1 + 1 * (y 1).val = (i 2).val * 512 + (y 1).val; omega

/-- The load of tap row 0 at the point's column block. -/
theorem ld_tap3 (i : grid0.Coords) (x : Vec F S4x8192 .f32) :
    View.ld x (Rect.unit (s := S4x8192) (k0_off3 i) S1x512.size (k0_off3_inb i)) = tapOf i x 0 := by
  funext y
  unfold tapOf
  refine congrArg x (funext fun a => Fin.ext ?_)
  have e0 : k0_off3 i 0 = 0 := congrFun (k0_off3_eq i) 0
  have e1 : k0_off3 i 1 = 512 * (i 2).val := congrFun (k0_off3_eq i) 1
  have h0 : (y 0).val < 1 := (y 0).isLt
  match a with
  | ⟨0, _⟩ => show k0_off3 i 0 + 1 * (y 0).val = 0; omega
  | ⟨1, _⟩ => show k0_off3 i 1 + 1 * (y 1).val = (i 2).val * 512 + (y 1).val; omega

/-- The load of tap row 1 at the point's column block. -/
theorem ld_tap4 (i : grid0.Coords) (x : Vec F S4x8192 .f32) :
    View.ld x (Rect.unit (s := S4x8192) (k0_off4 i) S1x512.size (k0_off4_inb i)) = tapOf i x 1 := by
  funext y
  unfold tapOf
  refine congrArg x (funext fun a => Fin.ext ?_)
  have e0 : k0_off4 i 0 = 1 := congrFun (k0_off4_eq i) 0
  have e1 : k0_off4 i 1 = 512 * (i 2).val := congrFun (k0_off4_eq i) 1
  have h0 : (y 0).val < 1 := (y 0).isLt
  match a with
  | ⟨0, _⟩ => show k0_off4 i 0 + 1 * (y 0).val = 1; omega
  | ⟨1, _⟩ => show k0_off4 i 1 + 1 * (y 1).val = (i 2).val * 512 + (y 1).val; omega

/-- The load of tap row 2 at the point's column block. -/
theorem ld_tap5 (i : grid0.Coords) (x : Vec F S4x8192 .f32) :
    View.ld x (Rect.unit (s := S4x8192) (k0_off5 i) S1x512.size (k0_off5_inb i)) = tapOf i x 2 := by
  funext y
  unfold tapOf
  refine congrArg x (funext fun a => Fin.ext ?_)
  have e0 : k0_off5 i 0 = 2 := congrFun (k0_off5_eq i) 0
  have e1 : k0_off5 i 1 = 512 * (i 2).val := congrFun (k0_off5_eq i) 1
  have h0 : (y 0).val < 1 := (y 0).isLt
  match a with
  | ⟨0, _⟩ => show k0_off5 i 0 + 1 * (y 0).val = 2; omega
  | ⟨1, _⟩ => show k0_off5 i 1 + 1 * (y 1).val = (i 2).val * 512 + (y 1).val; omega

/-- The load of tap row 3 at the point's column block. -/
theorem ld_tap6 (i : grid0.Coords) (x : Vec F S4x8192 .f32) :
    View.ld x (Rect.unit (s := S4x8192) (k0_off6 i) S1x512.size (k0_off6_inb i)) = tapOf i x 3 := by
  funext y
  unfold tapOf
  refine congrArg x (funext fun a => Fin.ext ?_)
  have e0 : k0_off6 i 0 = 3 := congrFun (k0_off6_eq i) 0
  have e1 : k0_off6 i 1 = 512 * (i 2).val := congrFun (k0_off6_eq i) 1
  have h0 : (y 0).val < 1 := (y 0).isLt
  match a with
  | ⟨0, _⟩ => show k0_off6 i 0 + 1 * (y 0).val = 3; omega
  | ⟨1, _⟩ => show k0_off6 i 1 + 1 * (y 1).val = (i 2).val * 512 + (y 1).val; omega

/-- After the store of a block `w` into the point's column block, rows 5..7 of that column block read the last three rows of `w`,
    whatever the buffer held. -/
theorem read_rows_after_store {κ : Kind} {sp : Space} (v : View sig κ sp S8x8192 .f32) (f : v.ty.Contents (Elt F)) (i : grid0.Coords)
    (h2 : k0_cond2 i = 1#1) (w : FVec F S8x512 .f32) (x : S3x512.Idx) :
    v.read (Elt F) (v.writes (Elt F) f [(⟨Rect.unit (s := S8x8192) (k0_off1 i) S8x512.size (k0_off1_inb i h2), w⟩ : View.Piece (Elt F) S8x8192 .f32)])
      ((Rect.unit (s := S8x8192) (k0_off2 i) S3x512.size (k0_off2_inb i)).toLoadRect.idx x) = lastThree w x := by
  have e0 : k0_off2 i 0 = 5 := congrFun (k0_off2_eq i) 0
  have e1 : k0_off2 i 1 = 512 * (i 2).val := congrFun (k0_off2_eq i) 1
  refine View.read_writes_cons_unit_of_mem v f (k0_off1_inb i h2) w [] _
    (ix2 (⟨5 + (x 0).val, by have := idx2_lt0 x; omega⟩ : Fin 8) (⟨(x 1).val, idx2_lt1 x⟩ : Fin 512)) (k0_off1_eq i) ?_
  intro a
  match a with
  | ⟨0, _⟩ => show k0_off2 i 0 + 1 * (x 0).val = 0 + (5 + (x 0).val); omega
  | ⟨1, _⟩ => show k0_off2 i 1 + 1 * (x 1).val = 512 * (i 2).val + (x 1).val; omega

/-- The three rows loaded after the store of a block `w` into the same column block are the last three rows of `w`. -/
theorem readCov_rows {κ : Kind} {sp : Space} (v : View sig κ sp S8x8192 .f32) (i : grid0.Coords) (h2 : k0_cond2 i = 1#1) (w : FVec F S8x512 .f32) :
    v.readCov [(⟨Rect.unit (s := S8x8192) (k0_off1 i) S8x512.size (k0_off1_inb i h2), w⟩ : View.Piece (Elt F) S8x8192 .f32)]
      (Rect.unit (s := S8x8192) (k0_off2 i) S3x512.size (k0_off2_inb i)).toLoadRect = lastThree w :=
  funext fun x => read_rows_after_store v v.junk i h2 w x

end Cert.Kernel.Gen

end
-- ==== Proof.K.PiecesA.lean ====
/- The runs' piece lists as explicit lists over the one-step functions: per control case, what the body's stores leave in the two row
   scratches, the accumulator and (where it is stored) the output block, each payload a function of the loaded blocks, the three rows
   found in front of the block (rows 5..7 of the incoming column block, or of the zero block just stored) and the incoming accumulator. -/
import proofs.«121193_j53343493816972_2_alg».proof.Proof.K.RunA
import proofs.«121193_j53343493816972_2_alg».proof.Proof.K.PiecesLib

set_option maxRecDepth 16384

noncomputable section

namespace Cert.Kernel.Gen

open Idealize.ShloMosaic Idealize.ShloMosaic.TcCoe Idealize.ShloMosaic.ValueIdx Idealize.ShloMosaic.Tactic
open Idealize.SL Idealize.SL.Sem

variable {F : FTy → Type} [FloatOps F]

variable (c : Dev nD) (i : grid0.Coords)
  (arg3 : Memref sig .tc .vmem S1x512x2048 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S2048x512 .bf16) (harg6 : arg6.IsWhole)
  (arg7 : Memref sig .tc .vmem S4x8192 .f32) (harg7 : arg7.IsWhole)
  (arg8 : Memref sig .tc .vmem S4x8192 .f32) (harg8 : arg8.IsWhole)
  (arg9 : Memref sig .tc .vmem S1x512x2048 .f32) (harg9 : arg9.IsWhole)
  (arg10 : Memref sig .tc .vmem S8x8192 .f32) (harg10 : arg10.IsWhole)
  (arg11 : Memref sig .tc .vmem S8x8192 .f32) (harg11 : arg11.IsWhole)
  (arg12 : Memref sig .tc .vmem S512x2048 .f32) (harg12 : arg12.IsWhole)
  (x0 : Vec F S1x512x2048 .bf16) (x1 x2 : Vec F S512x2048 .bf16) (x3 : Vec F S2048x512 .bf16) (x4 x5 : Vec F S4x8192 .f32)
  (xs0 xs1 : Vec F S8x8192 .f32) (xs2 : Vec F S512x2048 .f32)

/-! ## Case A -/

theorem pieces_A_0 (hc1 : cond0_1 i) (hc2 : cond0_2 i) (hc3 : ¬cond0_3 i) :
    (kernelRun0_A c i arg3 harg3 arg4 harg4 arg5 harg5 arg6 harg6 arg7 harg7 arg8 harg8 arg9 harg9 arg10 harg10 arg11 harg11 arg12 harg12 hc1 hc2 hc3 x0 x1 x2 x3 x4 x5 xs0 xs1 xs2).1 = ([⟨R7 i, k0_pay1 (k0_pay18 (k0_pay9 x0 x1))⟩, ⟨R1 i hc2, k0_pay6⟩] : List (View.Piece (Elt F) S8x8192 .f32)) := by
  unfold kernelRun0_A
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_A_1 (hc1 : cond0_1 i) (hc2 : cond0_2 i) (hc3 : ¬cond0_3 i) :
    (kernelRun0_A c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.1 = ([⟨R7 i, k0_pay2 (k0_pay10 x0 x2)⟩, ⟨R1 i hc2, k0_pay7⟩] : List (View.Piece (Elt F) S8x8192 .f32)) := by
  unfold kernelRun0_A
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_A_2 (hc1 : cond0_1 i) (hc2 : cond0_2 i) (hc3 : ¬cond0_3 i) :
    (kernelRun0_A c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.1 = ([⟨RW2, accOf i x0 x1 x2 x3 x4 x5 (lastThree k0_pay6) (lastThree k0_pay7) k0_pay5⟩, ⟨RW2, k0_pay5⟩] : List (View.Piece (Elt F) S512x2048 .f32)) := by
  unfold kernelRun0_A
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

end Cert.Kernel.Gen

end
-- ==== Proof.K.RunB.lean ====
/- The kernel body's run in case B: first branch not taken, second taken, third not taken. -/
import proofs.«121193_j53343493816972_2_alg».proof.Proof.K.Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), in case B, with the proof that on
    whole memrefs — the inputs at their contents, the output block at contents handed back untouched, the three scratches at ARBITRARY
    incoming contents `xs0 xs1 xs2` — the body runs to the continuation holding the inputs as they were and each scratch at
    its incoming contents with the run's pieces written over them. -/
noncomputable def kernelRun0_B (c : Dev nD) (i : grid0.Coords) (arg3 : Memref sig .tc .vmem S1x512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S4x8192 .f32) (harg7 : arg7.IsWhole) (arg8 : Memref sig .tc .vmem S4x8192 .f32) (harg8 : arg8.IsWhole) (arg9 : Memref sig .tc .vmem S1x512x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S512x2048 .f32) (harg12 : arg12.IsWhole)
    (hc1 : ¬cond0_1 i) (hc2 : cond0_2 i) (hc3 : ¬cond0_3 i)
    (x0 : Vec F S1x512x2048 .bf16) (x1 x2 : Vec F S512x2048 .bf16) (x3 : Vec F S2048x512 .bf16) (x4 x5 : Vec F S4x8192 .f32)
    (xs0 xs1 : Vec F S8x8192 .f32) (xs2 : Vec F S512x2048 .f32) :
    Σ' (LS0 : List (View.Piece (Elt F) S8x8192 .f32)) (LS1 : List (View.Piece (Elt F) S8x8192 .f32)), { LS2 : List (View.Piece (Elt F) S512x2048 .f32) //
      ∀ (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg10.eq_unread hfs0; obtain rfl := harg11.eq_unread hfs1; obtain rfl := harg12.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexact HS0
    isplitl [HS1]; · iexact HS1
    iexact HS2

end Cert.Kernel.Gen

end
-- ==== Proof.K.PiecesB.lean ====
/- The runs' piece lists as explicit lists over the one-step functions: per control case, what the body's stores leave in the two row
   scratches, the accumulator and (where it is stored) the output block, each payload a function of the loaded blocks, the three rows
   found in front of the block (rows 5..7 of the incoming column block, or of the zero block just stored) and the incoming accumulator. -/
import proofs.«121193_j53343493816972_2_alg».proof.Proof.K.RunB
import proofs.«121193_j53343493816972_2_alg».proof.Proof.K.PiecesLib

set_option maxRecDepth 16384

noncomputable section

namespace Cert.Kernel.Gen

open Idealize.ShloMosaic Idealize.ShloMosaic.TcCoe Idealize.ShloMosaic.ValueIdx Idealize.ShloMosaic.Tactic
open Idealize.SL Idealize.SL.Sem

variable {F : FTy → Type} [FloatOps F]

variable (c : Dev nD) (i : grid0.Coords)
  (arg3 : Memref sig .tc .vmem S1x512x2048 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S2048x512 .bf16) (harg6 : arg6.IsWhole)
  (arg7 : Memref sig .tc .vmem S4x8192 .f32) (harg7 : arg7.IsWhole)
  (arg8 : Memref sig .tc .vmem S4x8192 .f32) (harg8 : arg8.IsWhole)
  (arg9 : Memref sig .tc .vmem S1x512x2048 .f32) (harg9 : arg9.IsWhole)
  (arg10 : Memref sig .tc .vmem S8x8192 .f32) (harg10 : arg10.IsWhole)
  (arg11 : Memref sig .tc .vmem S8x8192 .f32) (harg11 : arg11.IsWhole)
  (arg12 : Memref sig .tc .vmem S512x2048 .f32) (harg12 : arg12.IsWhole)
  (x0 : Vec F S1x512x2048 .bf16) (x1 x2 : Vec F S512x2048 .bf16) (x3 : Vec F S2048x512 .bf16) (x4 x5 : Vec F S4x8192 .f32)
  (xs0 xs1 : Vec F S8x8192 .f32) (xs2 : Vec F S512x2048 .f32)

/-! ## Case B -/

theorem pieces_B_0 (hc1 : ¬cond0_1 i) (hc2 : cond0_2 i) (hc3 : ¬cond0_3 i) :
    (kernelRun0_B c i arg3 harg3 arg4 harg4 arg5 harg5 arg6 harg6 arg7 harg7 arg8 harg8 arg9 harg9 arg10 harg10 arg11 harg11 arg12 harg12 hc1 hc2 hc3 x0 x1 x2 x3 x4 x5 xs0 xs1 xs2).1 = ([⟨R7 i, k0_pay1 (k0_pay18 (k0_pay9 x0 x1))⟩, ⟨R1 i hc2, k0_pay6⟩] : List (View.Piece (Elt F) S8x8192 .f32)) := by
  unfold kernelRun0_B
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_B_1 (hc1 : ¬cond0_1 i) (hc2 : cond0_2 i) (hc3 : ¬cond0_3 i) :
    (kernelRun0_B c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.1 = ([⟨R7 i, k0_pay2 (k0_pay10 x0 x2)⟩, ⟨R1 i hc2, k0_pay7⟩] : List (View.Piece (Elt F) S8x8192 .f32)) := by
  unfold kernelRun0_B
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_B_2 (hc1 : ¬cond0_1 i) (hc2 : cond0_2 i) (hc3 : ¬cond0_3 i) :
    (kernelRun0_B c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.1 = ([⟨RW2, accOf i x0 x1 x2 x3 x4 x5 (lastThree k0_pay6) (lastThree k0_pay7) xs2⟩] : List (View.Piece (Elt F) S512x2048 .f32)) := by
  unfold kernelRun0_B
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

end Cert.Kernel.Gen

end
-- ==== Proof.K.RunC.lean ====
/- The kernel body's run in case C: first branch not taken, second taken, third taken. -/
import proofs.«121193_j53343493816972_2_alg».proof.Proof.K.Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers and the output block, as pieces (last first), in case C, with the proof that on
    whole memrefs — the inputs at their contents, the output block at anything, the three scratches at ARBITRARY
    incoming contents `xs0 xs1 xs2` — the body runs to the continuation holding the inputs as they were and each scratch at
    its incoming contents with the run's pieces written over them. -/
noncomputable def kernelRun0_C (c : Dev nD) (i : grid0.Coords) (arg3 : Memref sig .tc .vmem S1x512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S4x8192 .f32) (harg7 : arg7.IsWhole) (arg8 : Memref sig .tc .vmem S4x8192 .f32) (harg8 : arg8.IsWhole) (arg9 : Memref sig .tc .vmem S1x512x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S512x2048 .f32) (harg12 : arg12.IsWhole)
    (hc1 : ¬cond0_1 i) (hc2 : cond0_2 i) (hc3 : cond0_3 i)
    (x0 : Vec F S1x512x2048 .bf16) (x1 x2 : Vec F S512x2048 .bf16) (x3 : Vec F S2048x512 .bf16) (x4 x5 : Vec F S4x8192 .f32)
    (xs0 xs1 : Vec F S8x8192 .f32) (xs2 : Vec F S512x2048 .f32) :
    Σ' (L6 : List (View.Piece (Elt F) S1x512x2048 .f32)) (LS0 : List (View.Piece (Elt F) S8x8192 .f32)) (LS1 : List (View.Piece (Elt F) S8x8192 .f32)), { LS2 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0; obtain rfl := harg11.eq_unread hfs1; obtain rfl := harg12.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexact HS0
    isplitl [HS1]; · iexact HS1
    iexact HS2

end Cert.Kernel.Gen

end
-- ==== Proof.K.PiecesC.lean ====
/- The runs' piece lists as explicit lists over the one-step functions: per control case, what the body's stores leave in the two row
   scratches, the accumulator and (where it is stored) the output block, each payload a function of the loaded blocks, the three rows
   found in front of the block (rows 5..7 of the incoming column block, or of the zero block just stored) and the incoming accumulator. -/
import proofs.«121193_j53343493816972_2_alg».proof.Proof.K.RunC
import proofs.«121193_j53343493816972_2_alg».proof.Proof.K.PiecesLib

set_option maxRecDepth 16384

noncomputable section

namespace Cert.Kernel.Gen

open Idealize.ShloMosaic Idealize.ShloMosaic.TcCoe Idealize.ShloMosaic.ValueIdx Idealize.ShloMosaic.Tactic
open Idealize.SL Idealize.SL.Sem

variable {F : FTy → Type} [FloatOps F]

variable (c : Dev nD) (i : grid0.Coords)
  (arg3 : Memref sig .tc .vmem S1x512x2048 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S2048x512 .bf16) (harg6 : arg6.IsWhole)
  (arg7 : Memref sig .tc .vmem S4x8192 .f32) (harg7 : arg7.IsWhole)
  (arg8 : Memref sig .tc .vmem S4x8192 .f32) (harg8 : arg8.IsWhole)
  (arg9 : Memref sig .tc .vmem S1x512x2048 .f32) (harg9 : arg9.IsWhole)
  (arg10 : Memref sig .tc .vmem S8x8192 .f32) (harg10 : arg10.IsWhole)
  (arg11 : Memref sig .tc .vmem S8x8192 .f32) (harg11 : arg11.IsWhole)
  (arg12 : Memref sig .tc .vmem S512x2048 .f32) (harg12 : arg12.IsWhole)
  (x0 : Vec F S1x512x2048 .bf16) (x1 x2 : Vec F S512x2048 .bf16) (x3 : Vec F S2048x512 .bf16) (x4 x5 : Vec F S4x8192 .f32)
  (xs0 xs1 : Vec F S8x8192 .f32) (xs2 : Vec F S512x2048 .f32)

/-! ## Case C -/

theorem pieces_C_0 (hc1 : ¬cond0_1 i) (hc2 : cond0_2 i) (hc3 : cond0_3 i) :
    (kernelRun0_C c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.1 = ([⟨R7 i, k0_pay1 (k0_pay18 (k0_pay9 x0 x1))⟩, ⟨R1 i hc2, k0_pay6⟩] : List (View.Piece (Elt F) S8x8192 .f32)) := by
  unfold kernelRun0_C
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_C_1 (hc1 : ¬cond0_1 i) (hc2 : cond0_2 i) (hc3 : cond0_3 i) :
    (kernelRun0_C c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.1 = ([⟨R7 i, k0_pay2 (k0_pay10 x0 x2)⟩, ⟨R1 i hc2, k0_pay7⟩] : List (View.Piece (Elt F) S8x8192 .f32)) := by
  unfold kernelRun0_C
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_C_2 (hc1 : ¬cond0_1 i) (hc2 : cond0_2 i) (hc3 : cond0_3 i) :
    (kernelRun0_C c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.2.1 = ([⟨RW2, accOf i x0 x1 x2 x3 x4 x5 (lastThree k0_pay6) (lastThree k0_pay7) xs2⟩] : List (View.Piece (Elt F) S512x2048 .f32)) := by
  unfold kernelRun0_C
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_C_6 (hc1 : ¬cond0_1 i) (hc2 : cond0_2 i) (hc3 : cond0_3 i) :
    (kernelRun0_C c i arg3 harg3 arg4 harg4 arg5 harg5 arg6 harg6 arg7 harg7 arg8 harg8 arg9 harg9 arg10 harg10 arg11 harg11 arg12 harg12 hc1 hc2 hc3 x0 x1 x2 x3 x4 x5 xs0 xs1 xs2).1 = ([⟨RW6, k0_pay4 (accOf i x0 x1 x2 x3 x4 x5 (lastThree k0_pay6) (lastThree k0_pay7) xs2)⟩] : List (View.Piece (Elt F) S1x512x2048 .f32)) := by
  unfold kernelRun0_C
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

end Cert.Kernel.Gen

end
-- ==== Proof.K.RunD.lean ====
/- The kernel body's run in case D: first branch taken, second not taken, third not taken. -/
import proofs.«121193_j53343493816972_2_alg».proof.Proof.K.Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), in case D, with the proof that on
    whole memrefs — the inputs at their contents, the output block at contents handed back untouched, the three scratches at ARBITRARY
    incoming contents `xs0 xs1 xs2` — the body runs to the continuation holding the inputs as they were and each scratch at
    its incoming contents with the run's pieces written over them. -/
noncomputable def kernelRun0_D (c : Dev nD) (i : grid0.Coords) (arg3 : Memref sig .tc .vmem S1x512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S4x8192 .f32) (harg7 : arg7.IsWhole) (arg8 : Memref sig .tc .vmem S4x8192 .f32) (harg8 : arg8.IsWhole) (arg9 : Memref sig .tc .vmem S1x512x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S512x2048 .f32) (harg12 : arg12.IsWhole)
    (hc1 : cond0_1 i) (hc2 : ¬cond0_2 i) (hc3 : ¬cond0_3 i)
    (x0 : Vec F S1x512x2048 .bf16) (x1 x2 : Vec F S512x2048 .bf16) (x3 : Vec F S2048x512 .bf16) (x4 x5 : Vec F S4x8192 .f32)
    (xs0 xs1 : Vec F S8x8192 .f32) (xs2 : Vec F S512x2048 .f32) :
    Σ' (LS0 : List (View.Piece (Elt F) S8x8192 .f32)) (LS1 : List (View.Piece (Elt F) S8x8192 .f32)), { LS2 : List (View.Piece (Elt F) S512x2048 .f32) //
      ∀ (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg10.eq_unread hfs0; obtain rfl := harg11.eq_unread hfs1; obtain rfl := harg12.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexact HS0
    isplitl [HS1]; · iexact HS1
    iexact HS2

end Cert.Kernel.Gen

end
-- ==== Proof.K.PiecesD.lean ====
/- The runs' piece lists as explicit lists over the one-step functions: per control case, what the body's stores leave in the two row
   scratches, the accumulator and (where it is stored) the output block, each payload a function of the loaded blocks, the three rows
   found in front of the block (rows 5..7 of the incoming column block, or of the zero block just stored) and the incoming accumulator. -/
import proofs.«121193_j53343493816972_2_alg».proof.Proof.K.RunD
import proofs.«121193_j53343493816972_2_alg».proof.Proof.K.PiecesLib

set_option maxRecDepth 16384

noncomputable section

namespace Cert.Kernel.Gen

open Idealize.ShloMosaic Idealize.ShloMosaic.TcCoe Idealize.ShloMosaic.ValueIdx Idealize.ShloMosaic.Tactic
open Idealize.SL Idealize.SL.Sem

variable {F : FTy → Type} [FloatOps F]

variable (c : Dev nD) (i : grid0.Coords)
  (arg3 : Memref sig .tc .vmem S1x512x2048 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S2048x512 .bf16) (harg6 : arg6.IsWhole)
  (arg7 : Memref sig .tc .vmem S4x8192 .f32) (harg7 : arg7.IsWhole)
  (arg8 : Memref sig .tc .vmem S4x8192 .f32) (harg8 : arg8.IsWhole)
  (arg9 : Memref sig .tc .vmem S1x512x2048 .f32) (harg9 : arg9.IsWhole)
  (arg10 : Memref sig .tc .vmem S8x8192 .f32) (harg10 : arg10.IsWhole)
  (arg11 : Memref sig .tc .vmem S8x8192 .f32) (harg11 : arg11.IsWhole)
  (arg12 : Memref sig .tc .vmem S512x2048 .f32) (harg12 : arg12.IsWhole)
  (x0 : Vec F S1x512x2048 .bf16) (x1 x2 : Vec F S512x2048 .bf16) (x3 : Vec F S2048x512 .bf16) (x4 x5 : Vec F S4x8192 .f32)
  (xs0 xs1 : Vec F S8x8192 .f32) (xs2 : Vec F S512x2048 .f32)

/-! ## Case D -/

theorem pieces_D_0 (hc1 : cond0_1 i) (hc2 : ¬cond0_2 i) (hc3 : ¬cond0_3 i) :
    (kernelRun0_D c i arg3 harg3 arg4 harg4 arg5 harg5 arg6 harg6 arg7 harg7 arg8 harg8 arg9 harg9 arg10 harg10 arg11 harg11 arg12 harg12 hc1 hc2 hc3 x0 x1 x2 x3 x4 x5 xs0 xs1 xs2).1 = ([⟨R7 i, k0_pay1 (k0_pay18 (k0_pay9 x0 x1))⟩] : List (View.Piece (Elt F) S8x8192 .f32)) := by
  unfold kernelRun0_D
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_D_1 (hc1 : cond0_1 i) (hc2 : ¬cond0_2 i) (hc3 : ¬cond0_3 i) :
    (kernelRun0_D c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.1 = ([⟨R7 i, k0_pay2 (k0_pay10 x0 x2)⟩] : List (View.Piece (Elt F) S8x8192 .f32)) := by
  unfold kernelRun0_D
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_D_2 (hc1 : cond0_1 i) (hc2 : ¬cond0_2 i) (hc3 : ¬cond0_3 i) :
    (kernelRun0_D c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.1 = ([⟨RW2, accOf i x0 x1 x2 x3 x4 x5 (rowsIn i xs0) (rowsIn i xs1) k0_pay5⟩, ⟨RW2, k0_pay5⟩] : List (View.Piece (Elt F) S512x2048 .f32)) := by
  unfold kernelRun0_D
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

end Cert.Kernel.Gen

end
-- ==== Proof.K.RunE.lean ====
/- The kernel body's run in case E: first branch not taken, second not taken, third not taken. -/
import proofs.«121193_j53343493816972_2_alg».proof.Proof.K.Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), in case E, with the proof that on
    whole memrefs — the inputs at their contents, the output block at contents handed back untouched, the three scratches at ARBITRARY
    incoming contents `xs0 xs1 xs2` — the body runs to the continuation holding the inputs as they were and each scratch at
    its incoming contents with the run's pieces written over them. -/
noncomputable def kernelRun0_E (c : Dev nD) (i : grid0.Coords) (arg3 : Memref sig .tc .vmem S1x512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S4x8192 .f32) (harg7 : arg7.IsWhole) (arg8 : Memref sig .tc .vmem S4x8192 .f32) (harg8 : arg8.IsWhole) (arg9 : Memref sig .tc .vmem S1x512x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S512x2048 .f32) (harg12 : arg12.IsWhole)
    (hc1 : ¬cond0_1 i) (hc2 : ¬cond0_2 i) (hc3 : ¬cond0_3 i)
    (x0 : Vec F S1x512x2048 .bf16) (x1 x2 : Vec F S512x2048 .bf16) (x3 : Vec F S2048x512 .bf16) (x4 x5 : Vec F S4x8192 .f32)
    (xs0 xs1 : Vec F S8x8192 .f32) (xs2 : Vec F S512x2048 .f32) :
    Σ' (LS0 : List (View.Piece (Elt F) S8x8192 .f32)) (LS1 : List (View.Piece (Elt F) S8x8192 .f32)), { LS2 : List (View.Piece (Elt F) S512x2048 .f32) //
      ∀ (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg10.eq_unread hfs0; obtain rfl := harg11.eq_unread hfs1; obtain rfl := harg12.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexact HS0
    isplitl [HS1]; · iexact HS1
    iexact HS2

end Cert.Kernel.Gen

end
-- ==== Proof.K.PiecesE.lean ====
/- The runs' piece lists as explicit lists over the one-step functions: per control case, what the body's stores leave in the two row
   scratches, the accumulator and (where it is stored) the output block, each payload a function of the loaded blocks, the three rows
   found in front of the block (rows 5..7 of the incoming column block, or of the zero block just stored) and the incoming accumulator. -/
import proofs.«121193_j53343493816972_2_alg».proof.Proof.K.RunE
import proofs.«121193_j53343493816972_2_alg».proof.Proof.K.PiecesLib

set_option maxRecDepth 16384

noncomputable section

namespace Cert.Kernel.Gen

open Idealize.ShloMosaic Idealize.ShloMosaic.TcCoe Idealize.ShloMosaic.ValueIdx Idealize.ShloMosaic.Tactic
open Idealize.SL Idealize.SL.Sem

variable {F : FTy → Type} [FloatOps F]

variable (c : Dev nD) (i : grid0.Coords)
  (arg3 : Memref sig .tc .vmem S1x512x2048 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S2048x512 .bf16) (harg6 : arg6.IsWhole)
  (arg7 : Memref sig .tc .vmem S4x8192 .f32) (harg7 : arg7.IsWhole)
  (arg8 : Memref sig .tc .vmem S4x8192 .f32) (harg8 : arg8.IsWhole)
  (arg9 : Memref sig .tc .vmem S1x512x2048 .f32) (harg9 : arg9.IsWhole)
  (arg10 : Memref sig .tc .vmem S8x8192 .f32) (harg10 : arg10.IsWhole)
  (arg11 : Memref sig .tc .vmem S8x8192 .f32) (harg11 : arg11.IsWhole)
  (arg12 : Memref sig .tc .vmem S512x2048 .f32) (harg12 : arg12.IsWhole)
  (x0 : Vec F S1x512x2048 .bf16) (x1 x2 : Vec F S512x2048 .bf16) (x3 : Vec F S2048x512 .bf16) (x4 x5 : Vec F S4x8192 .f32)
  (xs0 xs1 : Vec F S8x8192 .f32) (xs2 : Vec F S512x2048 .f32)

/-! ## Case E -/

theorem pieces_E_0 (hc1 : ¬cond0_1 i) (hc2 : ¬cond0_2 i) (hc3 : ¬cond0_3 i) :
    (kernelRun0_E c i arg3 harg3 arg4 harg4 arg5 harg5 arg6 harg6 arg7 harg7 arg8 harg8 arg9 harg9 arg10 harg10 arg11 harg11 arg12 harg12 hc1 hc2 hc3 x0 x1 x2 x3 x4 x5 xs0 xs1 xs2).1 = ([⟨R7 i, k0_pay1 (k0_pay18 (k0_pay9 x0 x1))⟩] : List (View.Piece (Elt F) S8x8192 .f32)) := by
  unfold kernelRun0_E
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_E_1 (hc1 : ¬cond0_1 i) (hc2 : ¬cond0_2 i) (hc3 : ¬cond0_3 i) :
    (kernelRun0_E c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.1 = ([⟨R7 i, k0_pay2 (k0_pay10 x0 x2)⟩] : List (View.Piece (Elt F) S8x8192 .f32)) := by
  unfold kernelRun0_E
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_E_2 (hc1 : ¬cond0_1 i) (hc2 : ¬cond0_2 i) (hc3 : ¬cond0_3 i) :
    (kernelRun0_E c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.1 = ([⟨RW2, accOf i x0 x1 x2 x3 x4 x5 (rowsIn i xs0) (rowsIn i xs1) xs2⟩] : List (View.Piece (Elt F) S512x2048 .f32)) := by
  unfold kernelRun0_E
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

end Cert.Kernel.Gen

end
-- ==== Proof.K.RunF.lean ====
/- The kernel body's run in case F: first branch not taken, second not taken, third taken. -/
import proofs.«121193_j53343493816972_2_alg».proof.Proof.K.Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers and the output block, as pieces (last first), in case F, with the proof that on
    whole memrefs — the inputs at their contents, the output block at anything, the three scratches at ARBITRARY
    incoming contents `xs0 xs1 xs2` — the body runs to the continuation holding the inputs as they were and each scratch at
    its incoming contents with the run's pieces written over them. -/
noncomputable def kernelRun0_F (c : Dev nD) (i : grid0.Coords) (arg3 : Memref sig .tc .vmem S1x512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S4x8192 .f32) (harg7 : arg7.IsWhole) (arg8 : Memref sig .tc .vmem S4x8192 .f32) (harg8 : arg8.IsWhole) (arg9 : Memref sig .tc .vmem S1x512x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S512x2048 .f32) (harg12 : arg12.IsWhole)
    (hc1 : ¬cond0_1 i) (hc2 : ¬cond0_2 i) (hc3 : cond0_3 i)
    (x0 : Vec F S1x512x2048 .bf16) (x1 x2 : Vec F S512x2048 .bf16) (x3 : Vec F S2048x512 .bf16) (x4 x5 : Vec F S4x8192 .f32)
    (xs0 xs1 : Vec F S8x8192 .f32) (xs2 : Vec F S512x2048 .f32) :
    Σ' (L6 : List (View.Piece (Elt F) S1x512x2048 .f32)) (LS0 : List (View.Piece (Elt F) S8x8192 .f32)) (LS1 : List (View.Piece (Elt F) S8x8192 .f32)), { LS2 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0; obtain rfl := harg11.eq_unread hfs1; obtain rfl := harg12.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexact HS0
    isplitl [HS1]; · iexact HS1
    iexact HS2

end Cert.Kernel.Gen

end
-- ==== Proof.K.PiecesF.lean ====
/- The runs' piece lists as explicit lists over the one-step functions: per control case, what the body's stores leave in the two row
   scratches, the accumulator and (where it is stored) the output block, each payload a function of the loaded blocks, the three rows
   found in front of the block (rows 5..7 of the incoming column block, or of the zero block just stored) and the incoming accumulator. -/
import proofs.«121193_j53343493816972_2_alg».proof.Proof.K.RunF
import proofs.«121193_j53343493816972_2_alg».proof.Proof.K.PiecesLib

set_option maxRecDepth 16384

noncomputable section

namespace Cert.Kernel.Gen

open Idealize.ShloMosaic Idealize.ShloMosaic.TcCoe Idealize.ShloMosaic.ValueIdx Idealize.ShloMosaic.Tactic
open Idealize.SL Idealize.SL.Sem

variable {F : FTy → Type} [FloatOps F]

variable (c : Dev nD) (i : grid0.Coords)
  (arg3 : Memref sig .tc .vmem S1x512x2048 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S2048x512 .bf16) (harg6 : arg6.IsWhole)
  (arg7 : Memref sig .tc .vmem S4x8192 .f32) (harg7 : arg7.IsWhole)
  (arg8 : Memref sig .tc .vmem S4x8192 .f32) (harg8 : arg8.IsWhole)
  (arg9 : Memref sig .tc .vmem S1x512x2048 .f32) (harg9 : arg9.IsWhole)
  (arg10 : Memref sig .tc .vmem S8x8192 .f32) (harg10 : arg10.IsWhole)
  (arg11 : Memref sig .tc .vmem S8x8192 .f32) (harg11 : arg11.IsWhole)
  (arg12 : Memref sig .tc .vmem S512x2048 .f32) (harg12 : arg12.IsWhole)
  (x0 : Vec F S1x512x2048 .bf16) (x1 x2 : Vec F S512x2048 .bf16) (x3 : Vec F S2048x512 .bf16) (x4 x5 : Vec F S4x8192 .f32)
  (xs0 xs1 : Vec F S8x8192 .f32) (xs2 : Vec F S512x2048 .f32)

/-! ## Case F -/

theorem pieces_F_0 (hc1 : ¬cond0_1 i) (hc2 : ¬cond0_2 i) (hc3 : cond0_3 i) :
    (kernelRun0_F c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.1 = ([⟨R7 i, k0_pay1 (k0_pay18 (k0_pay9 x0 x1))⟩] : List (View.Piece (Elt F) S8x8192 .f32)) := by
  unfold kernelRun0_F
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_F_1 (hc1 : ¬cond0_1 i) (hc2 : ¬cond0_2 i) (hc3 : cond0_3 i) :
    (kernelRun0_F c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.1 = ([⟨R7 i, k0_pay2 (k0_pay10 x0 x2)⟩] : List (View.Piece (Elt F) S8x8192 .f32)) := by
  unfold kernelRun0_F
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_F_2 (hc1 : ¬cond0_1 i) (hc2 : ¬cond0_2 i) (hc3 : cond0_3 i) :
    (kernelRun0_F c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.2.1 = ([⟨RW2, accOf i x0 x1 x2 x3 x4 x5 (rowsIn i xs0) (rowsIn i xs1) xs2⟩] : List (View.Piece (Elt F) S512x2048 .f32)) := by
  unfold kernelRun0_F
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_F_6 (hc1 : ¬cond0_1 i) (hc2 : ¬cond0_2 i) (hc3 : cond0_3 i) :
    (kernelRun0_F c i arg3 harg3 arg4 harg4 arg5 harg5 arg6 harg6 arg7 harg7 arg8 harg8 arg9 harg9 arg10 harg10 arg11 harg11 arg12 harg12 hc1 hc2 hc3 x0 x1 x2 x3 x4 x5 xs0 xs1 xs2).1 = ([⟨RW6, k0_pay4 (accOf i x0 x1 x2 x3 x4 x5 (rowsIn i xs0) (rowsIn i xs1) xs2)⟩] : List (View.Piece (Elt F) S1x512x2048 .f32)) := by
  unfold kernelRun0_F
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

end Cert.Kernel.Gen

end
-- ==== Proof.K.Body.lean ====
/-
  The body obligation and the frame run.

  At every grid point the body is run in the control case its column block and row block select (column block 0: the accumulator
  is reset; row block 0: the column block of the row scratches is zeroed first; column block 15: the accumulator is stored to the
  output block). The invariant (Data.lean) hands the body the scratches with the carried facts of the point before; the case's run
  (RunA … RunF) leaves them with explicit pieces written (PiecesA … PiecesF), of which the carried facts of this point hold (After.lean).
-/
import proofs.«121193_j53343493816972_2_alg».proof.Proof.K.After
import proofs.«121193_j53343493816972_2_alg».proof.Proof.K.PiecesA
import proofs.«121193_j53343493816972_2_alg».proof.Proof.K.PiecesB
import proofs.«121193_j53343493816972_2_alg».proof.Proof.K.PiecesC
import proofs.«121193_j53343493816972_2_alg».proof.Proof.K.PiecesD
import proofs.«121193_j53343493816972_2_alg».proof.Proof.K.PiecesE
import proofs.«121193_j53343493816972_2_alg».proof.Proof.K.PiecesF

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t: the invariant, what the core owes, and every window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point. The point's column block and row block say which of the six control cases it is in; the invariant hands the body
    the three scratches at contents of which the carried facts of the point before hold (nothing, at the first point); that case's run
    applies; the scratches it leaves satisfy the carried facts of this point (After.lean); the output window is handed back untouched where
    the body does not store into it, and holds the accumulator where it does. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h1 : t.val % 16 = 0 <;> by_cases h2 : t.val / 16 % 4 = 0 <;> by_cases h3 : t.val % 16 = 15
  · exfalso; omega
  · -- column block 0, row block 0
    have hc1 : cond0_1 (grid0.coords t) := (hcond0_1 t).mpr h1
    have hc2 : cond0_2 (grid0.coords t) := (hcond0_2 t).mpr h2
    have hc3 : ¬cond0_3 (grid0.coords t) := fun h => h3 ((hcond0_3 t).mp h)
    rw [Dat.leavesExact_idle (dats m 0 c) 6 t (idleAt0_6 t hc3) (noFlush0_6 t hc3)]
    iintro ⟨HPhi, Ho, ⟨%d0, H0⟩, ⟨%d1, H1⟩, ⟨%d2, H2⟩, ⟨%d3, H3⟩, ⟨%d4, H4⟩, ⟨%d5, H5⟩, ⟨%d6, H6⟩⟩
    icases (Phi_in m c t) $$ HPhi with ⟨⟨%xs0, %xs1, %xs2, %hprev, HS0, HS1, HS2⟩, Hg⟩
    have hC : Carried m c t.val t.isLt
        (scM0_0.view.read (Elt F) (scM0_0.view.writes (Elt F) ((Memref.isWhole_whole _ : scM0_0.IsWhole).unread xs0) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).1))
        (scM0_1.view.read (Elt F) (scM0_1.view.writes (Elt F) ((Memref.isWhole_whole _ : scM0_1.IsWhole).unread xs1) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.1))
        (scM0_2.view.read (Elt F) (scM0_2.view.writes (Elt F) ((Memref.isWhole_whole _ : scM0_2.IsWhole).unread xs2) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.1)) := by
      refine carried_next m c t xs0 xs1 xs2 hprev _ _ _ ?_ ?_ ?_ ?_ ?_
      · rw [pieces_A_0]; exact rows_same scM0_0 (Memref.isWhole_whole _) (grid0.coords t) xs0 _ _ (t.val % 16) _ (coords_col t)
      · intro j' hj' hne; rw [pieces_A_0]; exact rows_other_zero scM0_0 (Memref.isWhole_whole _) (grid0.coords t) hc2 _ _ _ (t.val % 16) j' hj' hne (coords_col t)
      · rw [pieces_A_1]; exact rows_same scM0_1 (Memref.isWhole_whole _) (grid0.coords t) xs1 _ _ (t.val % 16) _ (coords_col t)
      · intro j' hj' hne; rw [pieces_A_1]; exact rows_other_zero scM0_1 (Memref.isWhole_whole _) (grid0.coords t) hc2 _ _ _ (t.val % 16) j' hj' hne (coords_col t)
      · rw [pieces_A_2]; exact (read_whole_store2 _ _ _ _).trans (acc_row0_col0 m c t h1 h2)
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2 ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · iexists _, _, _
        isplitr [HS0 HS1 HS2]; · ipureintro; exact hC
        isplitl [HS0]; · iapply (owns_intro (c : Thread nD τ) scM0_0 fullShare _); iexact HS0
        isplitl [HS1]; · iapply (owns_intro (c : Thread nD τ) scM0_1 fullShare _); iexact HS1
        iapply (owns_intro (c : Thread nD τ) scM0_2 fullShare _); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · exfalso; omega
  · -- column block 0, a later row block
    have hc1 : cond0_1 (grid0.coords t) := (hcond0_1 t).mpr h1
    have hc2 : ¬cond0_2 (grid0.coords t) := fun h => h2 ((hcond0_2 t).mp h)
    have hc3 : ¬cond0_3 (grid0.coords t) := fun h => h3 ((hcond0_3 t).mp h)
    rw [Dat.leavesExact_idle (dats m 0 c) 6 t (idleAt0_6 t hc3) (noFlush0_6 t hc3)]
    iintro ⟨HPhi, Ho, ⟨%d0, H0⟩, ⟨%d1, H1⟩, ⟨%d2, H2⟩, ⟨%d3, H3⟩, ⟨%d4, H4⟩, ⟨%d5, H5⟩, ⟨%d6, H6⟩⟩
    icases (Phi_in m c t) $$ HPhi with ⟨⟨%xs0, %xs1, %xs2, %hprev, HS0, HS1, HS2⟩, Hg⟩
    have hC : Carried m c t.val t.isLt
        (scM0_0.view.read (Elt F) (scM0_0.view.writes (Elt F) ((Memref.isWhole_whole _ : scM0_0.IsWhole).unread xs0) (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).1))
        (scM0_1.view.read (Elt F) (scM0_1.view.writes (Elt F) ((Memref.isWhole_whole _ : scM0_1.IsWhole).unread xs1) (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.1))
        (scM0_2.view.read (Elt F) (scM0_2.view.writes (Elt F) ((Memref.isWhole_whole _ : scM0_2.IsWhole).unread xs2) (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.1)) := by
      refine carried_next m c t xs0 xs1 xs2 hprev _ _ _ ?_ ?_ ?_ ?_ ?_
      · rw [pieces_D_0]; exact rows_same scM0_0 (Memref.isWhole_whole _) (grid0.coords t) xs0 _ _ (t.val % 16) _ (coords_col t)
      · intro j' hj' hne; rw [pieces_D_0]; exact rows_other_nil scM0_0 (Memref.isWhole_whole _) (grid0.coords t) _ _ (t.val % 16) j' hj' hne (coords_col t)
      · rw [pieces_D_1]; exact rows_same scM0_1 (Memref.isWhole_whole _) (grid0.coords t) xs1 _ _ (t.val % 16) _ (coords_col t)
      · intro j' hj' hne; rw [pieces_D_1]; exact rows_other_nil scM0_1 (Memref.isWhole_whole _) (grid0.coords t) _ _ (t.val % 16) j' hj' hne (coords_col t)
      · rw [pieces_D_2]; exact (read_whole_store2 _ _ _ _).trans (acc_col0 m c t h1 h2 xs0 xs1 xs2 hprev)
    iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2 ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · iexists _, _, _
        isplitr [HS0 HS1 HS2]; · ipureintro; exact hC
        isplitl [HS0]; · iapply (owns_intro (c : Thread nD τ) scM0_0 fullShare _); iexact HS0
        isplitl [HS1]; · iapply (owns_intro (c : Thread nD τ) scM0_1 fullShare _); iexact HS1
        iapply (owns_intro (c : Thread nD τ) scM0_2 fullShare _); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · -- column block 15, row block 0
    have hc1 : ¬cond0_1 (grid0.coords t) := fun h => h1 ((hcond0_1 t).mp h)
    have hc2 : cond0_2 (grid0.coords t) := (hcond0_2 t).mpr h2
    have hc3 : cond0_3 (grid0.coords t) := (hcond0_3 t).mpr h3
    rw [show (dats m 0 c).leavesExact 6 t = owns (c : Thread nD τ) (ms0_6 t) fullShare ((dats m 0 c).after 6 t) from by
      unfold Dat.leavesExact; rw [liveAt0_6 t hc3], after0_6]
    iintro ⟨HPhi, Ho, ⟨%d0, H0⟩, ⟨%d1, H1⟩, ⟨%d2, H2⟩, ⟨%d3, H3⟩, ⟨%d4, H4⟩, ⟨%d5, H5⟩, ⟨%d6, H6⟩⟩
    icases (Phi_in m c t) $$ HPhi with ⟨⟨%xs0, %xs1, %xs2, %hprev, HS0, HS1, HS2⟩, Hg⟩
    have hC : Carried m c t.val t.isLt
        (scM0_0.view.read (Elt F) (scM0_0.view.writes (Elt F) ((Memref.isWhole_whole _ : scM0_0.IsWhole).unread xs0) (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.1))
        (scM0_1.view.read (Elt F) (scM0_1.view.writes (Elt F) ((Memref.isWhole_whole _ : scM0_1.IsWhole).unread xs1) (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.1))
        (scM0_2.view.read (Elt F) (scM0_2.view.writes (Elt F) ((Memref.isWhole_whole _ : scM0_2.IsWhole).unread xs2) (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2.1)) := by
      refine carried_next m c t xs0 xs1 xs2 hprev _ _ _ ?_ ?_ ?_ ?_ ?_
      · rw [pieces_C_0]; exact rows_same scM0_0 (Memref.isWhole_whole _) (grid0.coords t) xs0 _ _ (t.val % 16) _ (coords_col t)
      · intro j' hj' hne; rw [pieces_C_0]; exact rows_other_zero scM0_0 (Memref.isWhole_whole _) (grid0.coords t) hc2 _ _ _ (t.val % 16) j' hj' hne (coords_col t)
      · rw [pieces_C_1]; exact rows_same scM0_1 (Memref.isWhole_whole _) (grid0.coords t) xs1 _ _ (t.val % 16) _ (coords_col t)
      · intro j' hj' hne; rw [pieces_C_1]; exact rows_other_zero scM0_1 (Memref.isWhole_whole _) (grid0.coords t) hc2 _ _ _ (t.val % 16) j' hj' hne (coords_col t)
      · rw [pieces_C_2]; exact (read_whole_store2 _ _ _ _).trans (acc_row0 m c t h1 h2 xs0 xs1 xs2 hprev)
    have hO : ∀ f6, (ms0_6 t).view.read (Elt F) ((ms0_6 t).view.writes (Elt F) f6 (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).1) = outAfter m c t := by
      intro f6; rw [pieces_C_6]; exact (read_whole_store3 _ _ _ _).trans (congrArg k0_pay4 (acc_row0 m c t h1 h2 xs0 xs1 xs2 hprev))
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%f6, H6⟩, HS0, HS1, HS2⟩
    isplitl [HS0 HS1 HS2 Hg]
    · isplitl [HS0 HS1 HS2]
      · iexists _, _, _
        isplitr [HS0 HS1 HS2]; · ipureintro; exact hC
        isplitl [HS0]; · iapply (owns_intro (c : Thread nD τ) scM0_0 fullShare _); iexact HS0
        isplitl [HS1]; · iapply (owns_intro (c : Thread nD τ) scM0_1 fullShare _); iexact HS1
        iapply (owns_intro (c : Thread nD τ) scM0_2 fullShare _); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [← hO f6]; iapply (owns_intro (c : Thread nD τ) (ms0_6 t) fullShare _); iexact H6
  · -- a middle column block, row block 0
    have hc1 : ¬cond0_1 (grid0.coords t) := fun h => h1 ((hcond0_1 t).mp h)
    have hc2 : cond0_2 (grid0.coords t) := (hcond0_2 t).mpr h2
    have hc3 : ¬cond0_3 (grid0.coords t) := fun h => h3 ((hcond0_3 t).mp h)
    rw [Dat.leavesExact_idle (dats m 0 c) 6 t (idleAt0_6 t hc3) (noFlush0_6 t hc3)]
    iintro ⟨HPhi, Ho, ⟨%d0, H0⟩, ⟨%d1, H1⟩, ⟨%d2, H2⟩, ⟨%d3, H3⟩, ⟨%d4, H4⟩, ⟨%d5, H5⟩, ⟨%d6, H6⟩⟩
    icases (Phi_in m c t) $$ HPhi with ⟨⟨%xs0, %xs1, %xs2, %hprev, HS0, HS1, HS2⟩, Hg⟩
    have hC : Carried m c t.val t.isLt
        (scM0_0.view.read (Elt F) (scM0_0.view.writes (Elt F) ((Memref.isWhole_whole _ : scM0_0.IsWhole).unread xs0) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).1))
        (scM0_1.view.read (Elt F) (scM0_1.view.writes (Elt F) ((Memref.isWhole_whole _ : scM0_1.IsWhole).unread xs1) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.1))
        (scM0_2.view.read (Elt F) (scM0_2.view.writes (Elt F) ((Memref.isWhole_whole _ : scM0_2.IsWhole).unread xs2) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.1)) := by
      refine carried_next m c t xs0 xs1 xs2 hprev _ _ _ ?_ ?_ ?_ ?_ ?_
      · rw [pieces_B_0]; exact rows_same scM0_0 (Memref.isWhole_whole _) (grid0.coords t) xs0 _ _ (t.val % 16) _ (coords_col t)
      · intro j' hj' hne; rw [pieces_B_0]; exact rows_other_zero scM0_0 (Memref.isWhole_whole _) (grid0.coords t) hc2 _ _ _ (t.val % 16) j' hj' hne (coords_col t)
      · rw [pieces_B_1]; exact rows_same scM0_1 (Memref.isWhole_whole _) (grid0.coords t) xs1 _ _ (t.val % 16) _ (coords_col t)
      · intro j' hj' hne; rw [pieces_B_1]; exact rows_other_zero scM0_1 (Memref.isWhole_whole _) (grid0.coords t) hc2 _ _ _ (t.val % 16) j' hj' hne (coords_col t)
      · rw [pieces_B_2]; exact (read_whole_store2 _ _ _ _).trans (acc_row0 m c t h1 h2 xs0 xs1 xs2 hprev)
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2 ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · iexists _, _, _
        isplitr [HS0 HS1 HS2]; · ipureintro; exact hC
        isplitl [HS0]; · iapply (owns_intro (c : Thread nD τ) scM0_0 fullShare _); iexact HS0
        isplitl [HS1]; · iapply (owns_intro (c : Thread nD τ) scM0_1 fullShare _); iexact HS1
        iapply (owns_intro (c : Thread nD τ) scM0_2 fullShare _); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · -- column block 15, a later row block
    have hc1 : ¬cond0_1 (grid0.coords t) := fun h => h1 ((hcond0_1 t).mp h)
    have hc2 : ¬cond0_2 (grid0.coords t) := fun h => h2 ((hcond0_2 t).mp h)
    have hc3 : cond0_3 (grid0.coords t) := (hcond0_3 t).mpr h3
    rw [show (dats m 0 c).leavesExact 6 t = owns (c : Thread nD τ) (ms0_6 t) fullShare ((dats m 0 c).after 6 t) from by
      unfold Dat.leavesExact; rw [liveAt0_6 t hc3], after0_6]
    iintro ⟨HPhi, Ho, ⟨%d0, H0⟩, ⟨%d1, H1⟩, ⟨%d2, H2⟩, ⟨%d3, H3⟩, ⟨%d4, H4⟩, ⟨%d5, H5⟩, ⟨%d6, H6⟩⟩
    icases (Phi_in m c t) $$ HPhi with ⟨⟨%xs0, %xs1, %xs2, %hprev, HS0, HS1, HS2⟩, Hg⟩
    have hC : Carried m c t.val t.isLt
        (scM0_0.view.read (Elt F) (scM0_0.view.writes (Elt F) ((Memref.isWhole_whole _ : scM0_0.IsWhole).unread xs0) (kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.1))
        (scM0_1.view.read (Elt F) (scM0_1.view.writes (Elt F) ((Memref.isWhole_whole _ : scM0_1.IsWhole).unread xs1) (kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.1))
        (scM0_2.view.read (Elt F) (scM0_2.view.writes (Elt F) ((Memref.isWhole_whole _ : scM0_2.IsWhole).unread xs2) (kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2.1)) := by
      refine carried_next m c t xs0 xs1 xs2 hprev _ _ _ ?_ ?_ ?_ ?_ ?_
      · rw [pieces_F_0]; exact rows_same scM0_0 (Memref.isWhole_whole _) (grid0.coords t) xs0 _ _ (t.val % 16) _ (coords_col t)
      · intro j' hj' hne; rw [pieces_F_0]; exact rows_other_nil scM0_0 (Memref.isWhole_whole _) (grid0.coords t) _ _ (t.val % 16) j' hj' hne (coords_col t)
      · rw [pieces_F_1]; exact rows_same scM0_1 (Memref.isWhole_whole _) (grid0.coords t) xs1 _ _ (t.val % 16) _ (coords_col t)
      · intro j' hj' hne; rw [pieces_F_1]; exact rows_other_nil scM0_1 (Memref.isWhole_whole _) (grid0.coords t) _ _ (t.val % 16) j' hj' hne (coords_col t)
      · rw [pieces_F_2]; exact (read_whole_store2 _ _ _ _).trans (acc_mid m c t h1 h2 xs0 xs1 xs2 hprev)
    have hO : ∀ f6, (ms0_6 t).view.read (Elt F) ((ms0_6 t).view.writes (Elt F) f6 (kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).1) = outAfter m c t := by
      intro f6; rw [pieces_F_6]; exact (read_whole_store3 _ _ _ _).trans (congrArg k0_pay4 (acc_mid m c t h1 h2 xs0 xs1 xs2 hprev))
    iapply ((kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%f6, H6⟩, HS0, HS1, HS2⟩
    isplitl [HS0 HS1 HS2 Hg]
    · isplitl [HS0 HS1 HS2]
      · iexists _, _, _
        isplitr [HS0 HS1 HS2]; · ipureintro; exact hC
        isplitl [HS0]; · iapply (owns_intro (c : Thread nD τ) scM0_0 fullShare _); iexact HS0
        isplitl [HS1]; · iapply (owns_intro (c : Thread nD τ) scM0_1 fullShare _); iexact HS1
        iapply (owns_intro (c : Thread nD τ) scM0_2 fullShare _); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [← hO f6]; iapply (owns_intro (c : Thread nD τ) (ms0_6 t) fullShare _); iexact H6
  · -- a middle column block, a later row block
    have hc1 : ¬cond0_1 (grid0.coords t) := fun h => h1 ((hcond0_1 t).mp h)
    have hc2 : ¬cond0_2 (grid0.coords t) := fun h => h2 ((hcond0_2 t).mp h)
    have hc3 : ¬cond0_3 (grid0.coords t) := fun h => h3 ((hcond0_3 t).mp h)
    rw [Dat.leavesExact_idle (dats m 0 c) 6 t (idleAt0_6 t hc3) (noFlush0_6 t hc3)]
    iintro ⟨HPhi, Ho, ⟨%d0, H0⟩, ⟨%d1, H1⟩, ⟨%d2, H2⟩, ⟨%d3, H3⟩, ⟨%d4, H4⟩, ⟨%d5, H5⟩, ⟨%d6, H6⟩⟩
    icases (Phi_in m c t) $$ HPhi with ⟨⟨%xs0, %xs1, %xs2, %hprev, HS0, HS1, HS2⟩, Hg⟩
    have hC : Carried m c t.val t.isLt
        (scM0_0.view.read (Elt F) (scM0_0.view.writes (Elt F) ((Memref.isWhole_whole _ : scM0_0.IsWhole).unread xs0) (kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).1))
        (scM0_1.view.read (Elt F) (scM0_1.view.writes (Elt F) ((Memref.isWhole_whole _ : scM0_1.IsWhole).unread xs1) (kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.1))
        (scM0_2.view.read (Elt F) (scM0_2.view.writes (Elt F) ((Memref.isWhole_whole _ : scM0_2.IsWhole).unread xs2) (kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.1)) := by
      refine carried_next m c t xs0 xs1 xs2 hprev _ _ _ ?_ ?_ ?_ ?_ ?_
      · rw [pieces_E_0]; exact rows_same scM0_0 (Memref.isWhole_whole _) (grid0.coords t) xs0 _ _ (t.val % 16) _ (coords_col t)
      · intro j' hj' hne; rw [pieces_E_0]; exact rows_other_nil scM0_0 (Memref.isWhole_whole _) (grid0.coords t) _ _ (t.val % 16) j' hj' hne (coords_col t)
      · rw [pieces_E_1]; exact rows_same scM0_1 (Memref.isWhole_whole _) (grid0.coords t) xs1 _ _ (t.val % 16) _ (coords_col t)
      · intro j' hj' hne; rw [pieces_E_1]; exact rows_other_nil scM0_1 (Memref.isWhole_whole _) (grid0.coords t) _ _ (t.val % 16) j' hj' hne (coords_col t)
      · rw [pieces_E_2]; exact (read_whole_store2 _ _ _ _).trans (acc_mid m c t h1 h2 xs0 xs1 xs2 hprev)
    iapply ((kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2 ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · iexists _, _, _
        isplitr [HS0 HS1 HS2]; · ipureintro; exact hC
        isplitl [HS0]; · iapply (owns_intro (c : Thread nD τ) scM0_0 fullShare _); iexact HS0
        isplitl [HS1]; · iapply (owns_intro (c : Thread nD τ) scM0_1 fullShare _); iexact HS1
        iapply (owns_intro (c : Thread nD τ) scM0_2 fullShare _); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end without a fault and leaves its five argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Gen

end
-- ==== Proof.KI.After.lean ====
/-
  The scratches after a point, read back: the carried facts of the point from the carried facts of the point before.

  A row scratch after the point holds its incoming contents with the point's last eight rows stored over column block n % 16 — after,
  in the first row block, zeros stored over the same column block. Either way its column block n % 16 is the point's last eight rows and
  every other column block is what came in. The accumulator is stored whole.
-/
import proofs.«121193_j53343493816972_2_alg».proof.Proof.KI.Data

set_option maxRecDepth 16384

noncomputable section

namespace Cert.KernelIdeal.Gen

open Idealize.ShloMosaic Idealize.ShloMosaic.TcCoe Idealize.ShloMosaic.ValueIdx
open Idealize.SL Idealize.SL.Sem

variable {F : FTy → Type} [FloatOps F]

section Rows

variable (M : Memref sig .tc .vmem S8x8192 .f32) (hM : M.IsWhole)

/-- The point's own column block after its store. -/
theorem rows_same (i : grid0.Coords) (xs : Vec F S8x8192 .f32) (w : FVec F S8x512 .f32) (L : List (View.Piece (Elt F) S8x8192 .f32))
    (j : ℕ) (hj : j < 16) (hij : (i 2).val = j) :
    colBlock (M.view.read (Elt F) (M.view.writes (Elt F) (hM.unread xs)
      ((⟨Rect.unit (s := S8x8192) (k0_off7 i) S8x512.size (k0_off7_inb i), w⟩ : View.Piece (Elt F) S8x8192 .f32) :: L))) j hj = w :=
  colBlock_store_same M.view (hM.unread xs) (k0_off7_inb i) w L j hj (by rw [k0_off7_eq i, hij])

/-- Another column block after the point's store alone: what came in. -/
theorem rows_other_nil (i : grid0.Coords) (xs : Vec F S8x8192 .f32) (w : FVec F S8x512 .f32)
    (j j' : ℕ) (hj' : j' < 16) (hne : j' ≠ j) (hij : (i 2).val = j) :
    colBlock (M.view.read (Elt F) (M.view.writes (Elt F) (hM.unread xs)
      [(⟨Rect.unit (s := S8x8192) (k0_off7 i) S8x512.size (k0_off7_inb i), w⟩ : View.Piece (Elt F) S8x8192 .f32)])) j' hj' = colBlock xs j' hj' := by
  rw [colBlock_store_other M.view (hM.unread xs) (k0_off7_inb i) w [] j j' hj' hne (by rw [k0_off7_eq i, hij]), View.writes_nil, hM.read_unread]

/-- Another column block after the zero store and the point's store: what came in. -/
theorem rows_other_zero (i : grid0.Coords) (h2 : k0_cond2 i = 1#1) (xs : Vec F S8x8192 .f32) (w z : FVec F S8x512 .f32)
    (j j' : ℕ) (hj' : j' < 16) (hne : j' ≠ j) (hij : (i 2).val = j) :
    colBlock (M.view.read (Elt F) (M.view.writes (Elt F) (hM.unread xs)
      [(⟨Rect.unit (s := S8x8192) (k0_off7 i) S8x512.size (k0_off7_inb i), w⟩ : View.Piece (Elt F) S8x8192 .f32),
       (⟨Rect.unit (s := S8x8192) (k0_off1 i) S8x512.size (k0_off1_inb i h2), z⟩ : View.Piece (Elt F) S8x8192 .f32)])) j' hj' = colBlock xs j' hj' := by
  rw [colBlock_store_other M.view (hM.unread xs) (k0_off7_inb i) w _ j j' hj' hne (by rw [k0_off7_eq i, hij]),
    colBlock_store_other M.view (hM.unread xs) (k0_off1_inb i h2) z [] j j' hj' hne (by rw [k0_off1_eq i, hij]), View.writes_nil, hM.read_unread]

end Rows

variable (m : (ℓ : Loc nD τ sig) → Buf (Elt F) ℓ)

/-- The accumulator the point stores, past the first row block and column block 0, is the running sum. -/
theorem acc_mid (c : Dev nD) (t : Fin cfg0.N) (h1 : ¬ t.val % 16 = 0) (h2 : ¬ t.val / 16 % 4 = 0) (xs0 xs1 : Vec F S8x8192 .f32) (xs2 : Vec F S512x2048 .f32)
    (hprev : t.val ≠ 0 → Carried m c (t.val - 1) (lt_of_le_of_lt (Nat.sub_le _ _) t.isLt) xs0 xs1 xs2) :
    accOf (grid0.coords t) (iblk m c 0 t) (iblk m c 1 t) (iblk m c 2 t) (iblk m c 3 t) (iblk m c 4 t) (iblk m c 5 t)
      (rowsIn (grid0.coords t) xs0) (rowsIn (grid0.coords t) xs1) xs2 = accAt m c t.val t.isLt := by
  have hz : t.val ≠ 0 := by omega
  obtain ⟨hg, hu, ha⟩ := hprev hz
  rw [accAt_step, haloInG_later m c t h2, haloInU_later m c t h2, accIn_later m c t h1,
    rowsIn_of_prev (keepG m c) t xs0 h2 hg, rowsIn_of_prev (keepU m c) t xs1 h2 hu, ha]

/-- In column block 0 past the first row block: the accumulator restarts from zero. -/
theorem acc_col0 (c : Dev nD) (t : Fin cfg0.N) (h1 : t.val % 16 = 0) (h2 : ¬ t.val / 16 % 4 = 0) (xs0 xs1 : Vec F S8x8192 .f32) (xs2 : Vec F S512x2048 .f32)
    (hprev : t.val ≠ 0 → Carried m c (t.val - 1) (lt_of_le_of_lt (Nat.sub_le _ _) t.isLt) xs0 xs1 xs2) :
    accOf (grid0.coords t) (iblk m c 0 t) (iblk m c 1 t) (iblk m c 2 t) (iblk m c 3 t) (iblk m c 4 t) (iblk m c 5 t)
      (rowsIn (grid0.coords t) xs0) (rowsIn (grid0.coords t) xs1) k0_pay5 = accAt m c t.val t.isLt := by
  have hz : t.val ≠ 0 := by omega
  obtain ⟨hg, hu, ha⟩ := hprev hz
  rw [accAt_step, haloInG_later m c t h2, haloInU_later m c t h2, accIn_first m c t h1,
    rowsIn_of_prev (keepG m c) t xs0 h2 hg, rowsIn_of_prev (keepU m c) t xs1 h2 hu]

/-- In the first row block past column block 0: zeros in front, the accumulator continued. -/
theorem acc_row0 (c : Dev nD) (t : Fin cfg0.N) (h1 : ¬ t.val % 16 = 0) (h2 : t.val / 16 % 4 = 0) (xs0 xs1 : Vec F S8x8192 .f32) (xs2 : Vec F S512x2048 .f32)
    (hprev : t.val ≠ 0 → Carried m c (t.val - 1) (lt_of_le_of_lt (Nat.sub_le _ _) t.isLt) xs0 xs1 xs2) :
    accOf (grid0.coords t) (iblk m c 0 t) (iblk m c 1 t) (iblk m c 2 t) (iblk m c 3 t) (iblk m c 4 t) (iblk m c 5 t)
      (lastThree k0_pay6) (lastThree k0_pay7) xs2 = accAt m c t.val t.isLt := by
  have hz : t.val ≠ 0 := by omega
  obtain ⟨hg, hu, ha⟩ := hprev hz
  rw [accAt_step, haloInG_first m c t h2, haloInU_first m c t h2, accIn_later m c t h1, ha]

/-- In the first row block and column block 0: zeros in front, the accumulator from zero. -/
theorem acc_row0_col0 (c : Dev nD) (t : Fin cfg0.N) (h1 : t.val % 16 = 0) (h2 : t.val / 16 % 4 = 0) :
    accOf (grid0.coords t) (iblk m c 0 t) (iblk m c 1 t) (iblk m c 2 t) (iblk m c 3 t) (iblk m c 4 t) (iblk m c 5 t)
      (lastThree k0_pay6) (lastThree k0_pay7) k0_pay5 = accAt m c t.val t.isLt := by
  rw [accAt_step, haloInG_first m c t h2, haloInU_first m c t h2, accIn_first m c t h1]

end Cert.KernelIdeal.Gen

end
-- ==== Proof.KI.RunA.lean ====
/- The kernel body's run in case A: first branch taken, second taken, third not taken. -/
import proofs.«121193_j53343493816972_2_alg».proof.Proof.KI.Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), in case A, with the proof that on
    whole memrefs — the inputs at their contents, the output block at contents handed back untouched, the three scratches at ARBITRARY
    incoming contents `xs0 xs1 xs2` — the body runs to the continuation holding the inputs as they were and each scratch at
    its incoming contents with the run's pieces written over them. -/
noncomputable def kernelRun0_A (c : Dev nD) (i : grid0.Coords) (arg3 : Memref sig .tc .vmem S1x512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S4x8192 .f32) (harg7 : arg7.IsWhole) (arg8 : Memref sig .tc .vmem S4x8192 .f32) (harg8 : arg8.IsWhole) (arg9 : Memref sig .tc .vmem S1x512x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S512x2048 .f32) (harg12 : arg12.IsWhole)
    (hc1 : cond0_1 i) (hc2 : cond0_2 i) (hc3 : ¬cond0_3 i)
    (x0 : Vec F S1x512x2048 .bf16) (x1 x2 : Vec F S512x2048 .bf16) (x3 : Vec F S2048x512 .bf16) (x4 x5 : Vec F S4x8192 .f32)
    (xs0 xs1 : Vec F S8x8192 .f32) (xs2 : Vec F S512x2048 .f32) :
    Σ' (LS0 : List (View.Piece (Elt F) S8x8192 .f32)) (LS1 : List (View.Piece (Elt F) S8x8192 .f32)), { LS2 : List (View.Piece (Elt F) S512x2048 .f32) //
      ∀ (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg10.eq_unread hfs0; obtain rfl := harg11.eq_unread hfs1; obtain rfl := harg12.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexact HS0
    isplitl [HS1]; · iexact HS1
    iexact HS2

end Cert.KernelIdeal.Gen

end
-- ==== Proof.KI.PiecesLib.lean ====
/- What the body's loads read, as the one-step functions: a tap row, the three rows in front of the block, the rows read back from the
   zero block just stored; and the names of the four rectangles the body stores through. -/
import proofs.«121193_j53343493816972_2_alg».proof.Proof.KI.Step
import proofs.«121193_j53343493816972_2_alg».proof.Proof.Gen.KernelIdeal
import Idealize.ShloMosaic.Lib.WholeRead
import Idealize.ShloMosaic.Lib.Pipeline.Value
import Idealize.ShloMosaic.Lib.Exec

noncomputable section

namespace Cert.KernelIdeal.Gen

open Idealize.ShloMosaic Idealize.ShloMosaic.TcCoe Idealize.ShloMosaic.ValueIdx
open Idealize.SL Idealize.SL.Sem

variable {F : FTy → Type} [FloatOps F]

/-- The column block the point stores into each row scratch (the store of the last eight rows). -/
abbrev R7 (i : grid0.Coords) : Rect S8x8192 := Rect.unit (s := S8x8192) (k0_off7 i) S8x512.size (k0_off7_inb i)
/-- The same column block as the store of zeros in the first row block spells it. -/
abbrev R1 (i : grid0.Coords) (h2 : k0_cond2 i = 1#1) : Rect S8x8192 := Rect.unit (s := S8x8192) (k0_off1 i) S8x512.size (k0_off1_inb i h2)
/-- The whole accumulator. -/
abbrev RW2 : Rect S512x2048 := Rect.unit (s := S512x2048) ![0, 0] S512x2048.size inb_S512x2048_S512x2048_0_0
/-- The whole output block. -/
abbrev RW6 : Rect S1x512x2048 := Rect.unit (s := S1x512x2048) ![0, 0, 0] S1x512x2048.size inb_S1x512x2048_S1x512x2048_0_0_0

theorem hz2 : (![0, 0] : Fin 2 → ℕ) = fun _ => 0 := funext fun a => by fin_cases a <;> rfl
theorem hz3 : (![0, 0, 0] : Fin 3 → ℕ) = fun _ => 0 := funext fun a => by fin_cases a <;> rfl

/-- The three rows loaded in front of the block are rows 5..7 of the point's column block. -/
theorem ld_rows (i : grid0.Coords) (xs : Vec F S8x8192 .f32) :
    View.ld xs (Rect.unit (s := S8x8192) (k0_off2 i) S3x512.size (k0_off2_inb i)) = rowsIn i xs := by
  funext y
  unfold rowsIn
  refine congrArg xs (funext fun a => Fin.ext ?_)
  have e0 : k0_off2 i 0 = 5 := congrFun (k0_off2_eq i) 0
  have e1 : k0_off2 i 1 = 512 * (i 2).val := congrFun (k0_off2_eq i) 1
  match a with
  | ⟨0, _⟩ => show k0_off2 i 0 + 1 * (y 0).val = 5 + (y 0).val; omega
  | ⟨1, _⟩ => show k0_off2 i 1 + 1 * (y 1).val = (i 2).val * 512 + (y 1).val; omega

/-- The load of tap row 0 at the point's column block. -/
theorem ld_tap3 (i : grid0.Coords) (x : Vec F S4x8192 .f32) :
    View.ld x (Rect.unit (s := S4x8192) (k0_off3 i) S1x512.size (k0_off3_inb i)) = tapOf i x 0 := by
  funext y
  unfold tapOf
  refine congrArg x (funext fun a => Fin.ext ?_)
  have e0 : k0_off3 i 0 = 0 := congrFun (k0_off3_eq i) 0
  have e1 : k0_off3 i 1 = 512 * (i 2).val := congrFun (k0_off3_eq i) 1
  have h0 : (y 0).val < 1 := (y 0).isLt
  match a with
  | ⟨0, _⟩ => show k0_off3 i 0 + 1 * (y 0).val = 0; omega
  | ⟨1, _⟩ => show k0_off3 i 1 + 1 * (y 1).val = (i 2).val * 512 + (y 1).val; omega

/-- The load of tap row 1 at the point's column block. -/
theorem ld_tap4 (i : grid0.Coords) (x : Vec F S4x8192 .f32) :
    View.ld x (Rect.unit (s := S4x8192) (k0_off4 i) S1x512.size (k0_off4_inb i)) = tapOf i x 1 := by
  funext y
  unfold tapOf
  refine congrArg x (funext fun a => Fin.ext ?_)
  have e0 : k0_off4 i 0 = 1 := congrFun (k0_off4_eq i) 0
  have e1 : k0_off4 i 1 = 512 * (i 2).val := congrFun (k0_off4_eq i) 1
  have h0 : (y 0).val < 1 := (y 0).isLt
  match a with
  | ⟨0, _⟩ => show k0_off4 i 0 + 1 * (y 0).val = 1; omega
  | ⟨1, _⟩ => show k0_off4 i 1 + 1 * (y 1).val = (i 2).val * 512 + (y 1).val; omega

/-- The load of tap row 2 at the point's column block. -/
theorem ld_tap5 (i : grid0.Coords) (x : Vec F S4x8192 .f32) :
    View.ld x (Rect.unit (s := S4x8192) (k0_off5 i) S1x512.size (k0_off5_inb i)) = tapOf i x 2 := by
  funext y
  unfold tapOf
  refine congrArg x (funext fun a => Fin.ext ?_)
  have e0 : k0_off5 i 0 = 2 := congrFun (k0_off5_eq i) 0
  have e1 : k0_off5 i 1 = 512 * (i 2).val := congrFun (k0_off5_eq i) 1
  have h0 : (y 0).val < 1 := (y 0).isLt
  match a with
  | ⟨0, _⟩ => show k0_off5 i 0 + 1 * (y 0).val = 2; omega
  | ⟨1, _⟩ => show k0_off5 i 1 + 1 * (y 1).val = (i 2).val * 512 + (y 1).val; omega

/-- The load of tap row 3 at the point's column block. -/
theorem ld_tap6 (i : grid0.Coords) (x : Vec F S4x8192 .f32) :
    View.ld x (Rect.unit (s := S4x8192) (k0_off6 i) S1x512.size (k0_off6_inb i)) = tapOf i x 3 := by
  funext y
  unfold tapOf
  refine congrArg x (funext fun a => Fin.ext ?_)
  have e0 : k0_off6 i 0 = 3 := congrFun (k0_off6_eq i) 0
  have e1 : k0_off6 i 1 = 512 * (i 2).val := congrFun (k0_off6_eq i) 1
  have h0 : (y 0).val < 1 := (y 0).isLt
  match a with
  | ⟨0, _⟩ => show k0_off6 i 0 + 1 * (y 0).val = 3; omega
  | ⟨1, _⟩ => show k0_off6 i 1 + 1 * (y 1).val = (i 2).val * 512 + (y 1).val; omega

/-- After the store of a block `w` into the point's column block, rows 5..7 of that column block read the last three rows of `w`,
    whatever the buffer held. -/
theorem read_rows_after_store {κ : Kind} {sp : Space} (v : View sig κ sp S8x8192 .f32) (f : v.ty.Contents (Elt F)) (i : grid0.Coords)
    (h2 : k0_cond2 i = 1#1) (w : FVec F S8x512 .f32) (x : S3x512.Idx) :
    v.read (Elt F) (v.writes (Elt F) f [(⟨Rect.unit (s := S8x8192) (k0_off1 i) S8x512.size (k0_off1_inb i h2), w⟩ : View.Piece (Elt F) S8x8192 .f32)])
      ((Rect.unit (s := S8x8192) (k0_off2 i) S3x512.size (k0_off2_inb i)).toLoadRect.idx x) = lastThree w x := by
  have e0 : k0_off2 i 0 = 5 := congrFun (k0_off2_eq i) 0
  have e1 : k0_off2 i 1 = 512 * (i 2).val := congrFun (k0_off2_eq i) 1
  refine View.read_writes_cons_unit_of_mem v f (k0_off1_inb i h2) w [] _
    (ix2 (⟨5 + (x 0).val, by have := idx2_lt0 x; omega⟩ : Fin 8) (⟨(x 1).val, idx2_lt1 x⟩ : Fin 512)) (k0_off1_eq i) ?_
  intro a
  match a with
  | ⟨0, _⟩ => show k0_off2 i 0 + 1 * (x 0).val = 0 + (5 + (x 0).val); omega
  | ⟨1, _⟩ => show k0_off2 i 1 + 1 * (x 1).val = 512 * (i 2).val + (x 1).val; omega

/-- The three rows loaded after the store of a block `w` into the same column block are the last three rows of `w`. -/
theorem readCov_rows {κ : Kind} {sp : Space} (v : View sig κ sp S8x8192 .f32) (i : grid0.Coords) (h2 : k0_cond2 i = 1#1) (w : FVec F S8x512 .f32) :
    v.readCov [(⟨Rect.unit (s := S8x8192) (k0_off1 i) S8x512.size (k0_off1_inb i h2), w⟩ : View.Piece (Elt F) S8x8192 .f32)]
      (Rect.unit (s := S8x8192) (k0_off2 i) S3x512.size (k0_off2_inb i)).toLoadRect = lastThree w :=
  funext fun x => read_rows_after_store v v.junk i h2 w x

end Cert.KernelIdeal.Gen

end
-- ==== Proof.KI.PiecesA.lean ====
/- The runs' piece lists as explicit lists over the one-step functions: per control case, what the body's stores leave in the two row
   scratches, the accumulator and (where it is stored) the output block, each payload a function of the loaded blocks, the three rows
   found in front of the block (rows 5..7 of the incoming column block, or of the zero block just stored) and the incoming accumulator. -/
import proofs.«121193_j53343493816972_2_alg».proof.Proof.KI.RunA
import proofs.«121193_j53343493816972_2_alg».proof.Proof.KI.PiecesLib

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.Sem

variable {F : FTy → Type} [FloatOps F]

variable (c : Dev nD) (i : grid0.Coords)
  (arg3 : Memref sig .tc .vmem S1x512x2048 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S2048x512 .bf16) (harg6 : arg6.IsWhole)
  (arg7 : Memref sig .tc .vmem S4x8192 .f32) (harg7 : arg7.IsWhole)
  (arg8 : Memref sig .tc .vmem S4x8192 .f32) (harg8 : arg8.IsWhole)
  (arg9 : Memref sig .tc .vmem S1x512x2048 .f32) (harg9 : arg9.IsWhole)
  (arg10 : Memref sig .tc .vmem S8x8192 .f32) (harg10 : arg10.IsWhole)
  (arg11 : Memref sig .tc .vmem S8x8192 .f32) (harg11 : arg11.IsWhole)
  (arg12 : Memref sig .tc .vmem S512x2048 .f32) (harg12 : arg12.IsWhole)
  (x0 : Vec F S1x512x2048 .bf16) (x1 x2 : Vec F S512x2048 .bf16) (x3 : Vec F S2048x512 .bf16) (x4 x5 : Vec F S4x8192 .f32)
  (xs0 xs1 : Vec F S8x8192 .f32) (xs2 : Vec F S512x2048 .f32)

/-! ## Case A -/

theorem pieces_A_0 (hc1 : cond0_1 i) (hc2 : cond0_2 i) (hc3 : ¬cond0_3 i) :
    (kernelRun0_A c i arg3 harg3 arg4 harg4 arg5 harg5 arg6 harg6 arg7 harg7 arg8 harg8 arg9 harg9 arg10 harg10 arg11 harg11 arg12 harg12 hc1 hc2 hc3 x0 x1 x2 x3 x4 x5 xs0 xs1 xs2).1 = ([⟨R7 i, k0_pay1 (k0_pay18 (k0_pay9 x0 x1))⟩, ⟨R1 i hc2, k0_pay6⟩] : List (View.Piece (Elt F) S8x8192 .f32)) := by
  unfold kernelRun0_A
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_A_1 (hc1 : cond0_1 i) (hc2 : cond0_2 i) (hc3 : ¬cond0_3 i) :
    (kernelRun0_A c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.1 = ([⟨R7 i, k0_pay2 (k0_pay10 x0 x2)⟩, ⟨R1 i hc2, k0_pay7⟩] : List (View.Piece (Elt F) S8x8192 .f32)) := by
  unfold kernelRun0_A
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_A_2 (hc1 : cond0_1 i) (hc2 : cond0_2 i) (hc3 : ¬cond0_3 i) :
    (kernelRun0_A c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.1 = ([⟨RW2, accOf i x0 x1 x2 x3 x4 x5 (lastThree k0_pay6) (lastThree k0_pay7) k0_pay5⟩, ⟨RW2, k0_pay5⟩] : List (View.Piece (Elt F) S512x2048 .f32)) := by
  unfold kernelRun0_A
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

end Cert.KernelIdeal.Gen

end
-- ==== Proof.KI.RunB.lean ====
/- The kernel body's run in case B: first branch not taken, second taken, third not taken. -/
import proofs.«121193_j53343493816972_2_alg».proof.Proof.KI.Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), in case B, with the proof that on
    whole memrefs — the inputs at their contents, the output block at contents handed back untouched, the three scratches at ARBITRARY
    incoming contents `xs0 xs1 xs2` — the body runs to the continuation holding the inputs as they were and each scratch at
    its incoming contents with the run's pieces written over them. -/
noncomputable def kernelRun0_B (c : Dev nD) (i : grid0.Coords) (arg3 : Memref sig .tc .vmem S1x512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S4x8192 .f32) (harg7 : arg7.IsWhole) (arg8 : Memref sig .tc .vmem S4x8192 .f32) (harg8 : arg8.IsWhole) (arg9 : Memref sig .tc .vmem S1x512x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S512x2048 .f32) (harg12 : arg12.IsWhole)
    (hc1 : ¬cond0_1 i) (hc2 : cond0_2 i) (hc3 : ¬cond0_3 i)
    (x0 : Vec F S1x512x2048 .bf16) (x1 x2 : Vec F S512x2048 .bf16) (x3 : Vec F S2048x512 .bf16) (x4 x5 : Vec F S4x8192 .f32)
    (xs0 xs1 : Vec F S8x8192 .f32) (xs2 : Vec F S512x2048 .f32) :
    Σ' (LS0 : List (View.Piece (Elt F) S8x8192 .f32)) (LS1 : List (View.Piece (Elt F) S8x8192 .f32)), { LS2 : List (View.Piece (Elt F) S512x2048 .f32) //
      ∀ (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg10.eq_unread hfs0; obtain rfl := harg11.eq_unread hfs1; obtain rfl := harg12.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexact HS0
    isplitl [HS1]; · iexact HS1
    iexact HS2

end Cert.KernelIdeal.Gen

end
-- ==== Proof.KI.PiecesB.lean ====
/- The runs' piece lists as explicit lists over the one-step functions: per control case, what the body's stores leave in the two row
   scratches, the accumulator and (where it is stored) the output block, each payload a function of the loaded blocks, the three rows
   found in front of the block (rows 5..7 of the incoming column block, or of the zero block just stored) and the incoming accumulator. -/
import proofs.«121193_j53343493816972_2_alg».proof.Proof.KI.RunB
import proofs.«121193_j53343493816972_2_alg».proof.Proof.KI.PiecesLib

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.Sem

variable {F : FTy → Type} [FloatOps F]

variable (c : Dev nD) (i : grid0.Coords)
  (arg3 : Memref sig .tc .vmem S1x512x2048 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S2048x512 .bf16) (harg6 : arg6.IsWhole)
  (arg7 : Memref sig .tc .vmem S4x8192 .f32) (harg7 : arg7.IsWhole)
  (arg8 : Memref sig .tc .vmem S4x8192 .f32) (harg8 : arg8.IsWhole)
  (arg9 : Memref sig .tc .vmem S1x512x2048 .f32) (harg9 : arg9.IsWhole)
  (arg10 : Memref sig .tc .vmem S8x8192 .f32) (harg10 : arg10.IsWhole)
  (arg11 : Memref sig .tc .vmem S8x8192 .f32) (harg11 : arg11.IsWhole)
  (arg12 : Memref sig .tc .vmem S512x2048 .f32) (harg12 : arg12.IsWhole)
  (x0 : Vec F S1x512x2048 .bf16) (x1 x2 : Vec F S512x2048 .bf16) (x3 : Vec F S2048x512 .bf16) (x4 x5 : Vec F S4x8192 .f32)
  (xs0 xs1 : Vec F S8x8192 .f32) (xs2 : Vec F S512x2048 .f32)

/-! ## Case B -/

theorem pieces_B_0 (hc1 : ¬cond0_1 i) (hc2 : cond0_2 i) (hc3 : ¬cond0_3 i) :
    (kernelRun0_B c i arg3 harg3 arg4 harg4 arg5 harg5 arg6 harg6 arg7 harg7 arg8 harg8 arg9 harg9 arg10 harg10 arg11 harg11 arg12 harg12 hc1 hc2 hc3 x0 x1 x2 x3 x4 x5 xs0 xs1 xs2).1 = ([⟨R7 i, k0_pay1 (k0_pay18 (k0_pay9 x0 x1))⟩, ⟨R1 i hc2, k0_pay6⟩] : List (View.Piece (Elt F) S8x8192 .f32)) := by
  unfold kernelRun0_B
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_B_1 (hc1 : ¬cond0_1 i) (hc2 : cond0_2 i) (hc3 : ¬cond0_3 i) :
    (kernelRun0_B c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.1 = ([⟨R7 i, k0_pay2 (k0_pay10 x0 x2)⟩, ⟨R1 i hc2, k0_pay7⟩] : List (View.Piece (Elt F) S8x8192 .f32)) := by
  unfold kernelRun0_B
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_B_2 (hc1 : ¬cond0_1 i) (hc2 : cond0_2 i) (hc3 : ¬cond0_3 i) :
    (kernelRun0_B c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.1 = ([⟨RW2, accOf i x0 x1 x2 x3 x4 x5 (lastThree k0_pay6) (lastThree k0_pay7) xs2⟩] : List (View.Piece (Elt F) S512x2048 .f32)) := by
  unfold kernelRun0_B
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

end Cert.KernelIdeal.Gen

end
-- ==== Proof.KI.RunC.lean ====
/- The kernel body's run in case C: first branch not taken, second taken, third taken. -/
import proofs.«121193_j53343493816972_2_alg».proof.Proof.KI.Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers and the output block, as pieces (last first), in case C, with the proof that on
    whole memrefs — the inputs at their contents, the output block at anything, the three scratches at ARBITRARY
    incoming contents `xs0 xs1 xs2` — the body runs to the continuation holding the inputs as they were and each scratch at
    its incoming contents with the run's pieces written over them. -/
noncomputable def kernelRun0_C (c : Dev nD) (i : grid0.Coords) (arg3 : Memref sig .tc .vmem S1x512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S4x8192 .f32) (harg7 : arg7.IsWhole) (arg8 : Memref sig .tc .vmem S4x8192 .f32) (harg8 : arg8.IsWhole) (arg9 : Memref sig .tc .vmem S1x512x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S512x2048 .f32) (harg12 : arg12.IsWhole)
    (hc1 : ¬cond0_1 i) (hc2 : cond0_2 i) (hc3 : cond0_3 i)
    (x0 : Vec F S1x512x2048 .bf16) (x1 x2 : Vec F S512x2048 .bf16) (x3 : Vec F S2048x512 .bf16) (x4 x5 : Vec F S4x8192 .f32)
    (xs0 xs1 : Vec F S8x8192 .f32) (xs2 : Vec F S512x2048 .f32) :
    Σ' (L6 : List (View.Piece (Elt F) S1x512x2048 .f32)) (LS0 : List (View.Piece (Elt F) S8x8192 .f32)) (LS1 : List (View.Piece (Elt F) S8x8192 .f32)), { LS2 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0; obtain rfl := harg11.eq_unread hfs1; obtain rfl := harg12.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexact HS0
    isplitl [HS1]; · iexact HS1
    iexact HS2

end Cert.KernelIdeal.Gen

end
-- ==== Proof.KI.PiecesC.lean ====
/- The runs' piece lists as explicit lists over the one-step functions: per control case, what the body's stores leave in the two row
   scratches, the accumulator and (where it is stored) the output block, each payload a function of the loaded blocks, the three rows
   found in front of the block (rows 5..7 of the incoming column block, or of the zero block just stored) and the incoming accumulator. -/
import proofs.«121193_j53343493816972_2_alg».proof.Proof.KI.RunC
import proofs.«121193_j53343493816972_2_alg».proof.Proof.KI.PiecesLib

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.Sem

variable {F : FTy → Type} [FloatOps F]

variable (c : Dev nD) (i : grid0.Coords)
  (arg3 : Memref sig .tc .vmem S1x512x2048 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S2048x512 .bf16) (harg6 : arg6.IsWhole)
  (arg7 : Memref sig .tc .vmem S4x8192 .f32) (harg7 : arg7.IsWhole)
  (arg8 : Memref sig .tc .vmem S4x8192 .f32) (harg8 : arg8.IsWhole)
  (arg9 : Memref sig .tc .vmem S1x512x2048 .f32) (harg9 : arg9.IsWhole)
  (arg10 : Memref sig .tc .vmem S8x8192 .f32) (harg10 : arg10.IsWhole)
  (arg11 : Memref sig .tc .vmem S8x8192 .f32) (harg11 : arg11.IsWhole)
  (arg12 : Memref sig .tc .vmem S512x2048 .f32) (harg12 : arg12.IsWhole)
  (x0 : Vec F S1x512x2048 .bf16) (x1 x2 : Vec F S512x2048 .bf16) (x3 : Vec F S2048x512 .bf16) (x4 x5 : Vec F S4x8192 .f32)
  (xs0 xs1 : Vec F S8x8192 .f32) (xs2 : Vec F S512x2048 .f32)

/-! ## Case C -/

theorem pieces_C_0 (hc1 : ¬cond0_1 i) (hc2 : cond0_2 i) (hc3 : cond0_3 i) :
    (kernelRun0_C c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.1 = ([⟨R7 i, k0_pay1 (k0_pay18 (k0_pay9 x0 x1))⟩, ⟨R1 i hc2, k0_pay6⟩] : List (View.Piece (Elt F) S8x8192 .f32)) := by
  unfold kernelRun0_C
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_C_1 (hc1 : ¬cond0_1 i) (hc2 : cond0_2 i) (hc3 : cond0_3 i) :
    (kernelRun0_C c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.1 = ([⟨R7 i, k0_pay2 (k0_pay10 x0 x2)⟩, ⟨R1 i hc2, k0_pay7⟩] : List (View.Piece (Elt F) S8x8192 .f32)) := by
  unfold kernelRun0_C
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_C_2 (hc1 : ¬cond0_1 i) (hc2 : cond0_2 i) (hc3 : cond0_3 i) :
    (kernelRun0_C c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.2.1 = ([⟨RW2, accOf i x0 x1 x2 x3 x4 x5 (lastThree k0_pay6) (lastThree k0_pay7) xs2⟩] : List (View.Piece (Elt F) S512x2048 .f32)) := by
  unfold kernelRun0_C
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

theorem pieces_C_6 (hc1 : ¬cond0_1 i) (hc2 : cond0_2 i) (hc3 : cond0_3 i) :
    (kernelRun0_C c i arg3 harg3 arg4 harg4 arg5 harg5 arg6 harg6 arg7 harg7 arg8 harg8 arg9 harg9 arg10 harg10 arg11 harg11 arg12 harg12 hc1 hc2 hc3 x0 x1 x2 x3 x4 x5 xs0 xs1 xs2).1 = ([⟨RW6, k0_pay4 (accOf i x0 x1 x2 x3 x4 x5 (lastThree k0_pay6) (lastThree k0_pay7) xs2)⟩] : List (View.Piece (Elt F) S1x512x2048 .f32)) := by
  unfold kernelRun0_C
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [readCov_rows _ i hc2] | rw [View.readCov_unit_zero (S := S512x2048) _ hz2])
  try rfl

end Cert.KernelIdeal.Gen

end
-- ==== Proof.KI.RunD.lean ====
/- The kernel body's run in case D: first branch taken, second not taken, third not taken. -/
import proofs.«121193_j53343493816972_2_alg».proof.Proof.KI.Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), in case D, with the proof that on
    whole memrefs — the inputs at their contents, the output block at contents handed back untouched, the three scratches at ARBITRARY
    incoming contents `xs0 xs1 xs2` — the body runs to the continuation holding the inputs as they were and each scratch at
    its incoming contents with the run's pieces written over them. -/
noncomputable def kernelRun0_D (c : Dev nD) (i : grid0.Coords) (arg3 : Memref sig .tc .vmem S1x512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S4x8192 .f32) (harg7 : arg7.IsWhole) (arg8 : Memref sig .tc .vmem S4x8192 .f32) (harg8 : arg8.IsWhole) (arg9 : Memref sig .tc .vmem S1x512x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S512x2048 .f32) (harg12 : arg12.IsWhole)
    (hc1 : cond0_1 i) (hc2 : ¬cond0_2 i) (hc3 : ¬cond0_3 i)
    (x0 : Vec F S1x512x2048 .bf16) (x1 x2 : Vec F S512x2048 .bf16) (x3 : Vec F S2048x512 .bf16) (x4 x5 : Vec F S4x8192 .f32)
    (xs0 xs1 : Vec F S8x8192 .f32) (xs2 : Vec F S512x2048 .f32) :
    Σ' (LS0 : List (View.Piece (Elt F) S8x8192 .f32)) (LS1 : List (View.Piece (Elt F) S8x8192 .f32)), { LS2 : List (View.Piece (Elt F) S512x2048 .f32) //
      ∀ (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg10.eq_unread hfs0; obtain rfl := harg11.eq_unread hfs1; obtain rfl := harg12.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexact HS0
    isplitl [HS1]; · iexact HS1
    iexact HS2

end Cert.KernelIdeal.Gen

end
-- ==== Proof.KI.PiecesD.lean ====
/- The runs' piece lists as explicit lists over the one-step functions: per control case, what the body's stores leave in the two row
   scratches, the accumulator and (where it is stored) the output block, each payload a function of the loaded blocks, the three rows
   found in front of the block (rows 5..7 of the incoming column block, or of the zero block just stored) and the incoming accumulator. -/
import proofs.«121193_j53343493816972_2_alg».proof.Proof.KI.RunD
import proofs.«121193_j53343493816972_2_alg».proof.Proof.KI.PiecesLib

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.Sem

variable {F : FTy → Type} [FloatOps F]

variable (c : Dev nD) (i : grid0.Coords)
  (arg3 : Memref sig .tc .vmem S1x512x2048 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S2048x512 .bf16) (harg6 : arg6.IsWhole)
  (arg7 : Memref sig .tc .vmem S4x8192 .f32) (harg7 : arg7.IsWhole)
  (arg8 : Memref sig .tc .vmem S4x8192 .f32) (harg8 : arg8.IsWhole)
  (arg9 : Memref sig .tc .vmem S1x512x2048 .f32) (harg9 : arg9.IsWhole)
  (arg10 : Memref sig .tc .vmem S8x8192 .f32) (harg10 : arg10.IsWhole)
  (arg11 : Memref sig .tc .vmem S8x8192 .f32) (harg11 : arg11.IsWhole)
  (arg12 : Memref sig .tc .vmem S512x2048 .f32) (harg12 : arg12.IsWhole)
  (x0 : Vec F S1x512x2048 .bf16) (x1 x2 : Vec F S512x2048 .bf16) (x3 : Vec F S2048x512 .bf16) (x4 x5 : Vec F S4x8192 .f32)
  (xs0 xs1 : Vec F S8x8192 .f32) (xs2 : Vec F S512x2048 .f32)

/-! ## Case D -/

theorem pieces_D_0 (hc1 : cond0_1 i) (hc2 : ¬cond0_2 i) (hc3 : ¬cond0_3 i) :
    (kernelRun0_D c i arg3 harg3 arg4 harg4 arg5 harg5 arg6 harg6 arg7 harg7 arg8 harg8 arg9 harg9 arg10 harg10 arg11 harg11 arg12 harg12 hc1 hc2 hc3 x0 x1 x2 x3 x4 x5 xs0 xs1 xs2).1 = ([⟨R7 i, k0_pay1 (k0_pay18 (k0_pay9 x0 x1))⟩] : List (View.Piece (Elt F) S8x8192 .f32)) := by
  unfold kernelRun0_D
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_D_1 (hc1 : cond0_1 i) (hc2 : ¬cond0_2 i) (hc3 : ¬cond0_3 i) :
    (kernelRun0_D c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.1 = ([⟨R7 i, k0_pay2 (k0_pay10 x0 x2)⟩] : List (View.Piece (Elt F) S8x8192 .f32)) := by
  unfold kernelRun0_D
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_D_2 (hc1 : cond0_1 i) (hc2 : ¬cond0_2 i) (hc3 : ¬cond0_3 i) :
    (kernelRun0_D c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.1 = ([⟨RW2, accOf i x0 x1 x2 x3 x4 x5 (rowsIn i xs0) (rowsIn i xs1) k0_pay5⟩, ⟨RW2, k0_pay5⟩] : List (View.Piece (Elt F) S512x2048 .f32)) := by
  unfold kernelRun0_D
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

end Cert.KernelIdeal.Gen

end
-- ==== Proof.KI.RunE.lean ====
/- The kernel body's run in case E: first branch not taken, second not taken, third not taken. -/
import proofs.«121193_j53343493816972_2_alg».proof.Proof.KI.Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers, as pieces (last first), in case E, with the proof that on
    whole memrefs — the inputs at their contents, the output block at contents handed back untouched, the three scratches at ARBITRARY
    incoming contents `xs0 xs1 xs2` — the body runs to the continuation holding the inputs as they were and each scratch at
    its incoming contents with the run's pieces written over them. -/
noncomputable def kernelRun0_E (c : Dev nD) (i : grid0.Coords) (arg3 : Memref sig .tc .vmem S1x512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S4x8192 .f32) (harg7 : arg7.IsWhole) (arg8 : Memref sig .tc .vmem S4x8192 .f32) (harg8 : arg8.IsWhole) (arg9 : Memref sig .tc .vmem S1x512x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S512x2048 .f32) (harg12 : arg12.IsWhole)
    (hc1 : ¬cond0_1 i) (hc2 : ¬cond0_2 i) (hc3 : ¬cond0_3 i)
    (x0 : Vec F S1x512x2048 .bf16) (x1 x2 : Vec F S512x2048 .bf16) (x3 : Vec F S2048x512 .bf16) (x4 x5 : Vec F S4x8192 .f32)
    (xs0 xs1 : Vec F S8x8192 .f32) (xs2 : Vec F S512x2048 .f32) :
    Σ' (LS0 : List (View.Piece (Elt F) S8x8192 .f32)) (LS1 : List (View.Piece (Elt F) S8x8192 .f32)), { LS2 : List (View.Piece (Elt F) S512x2048 .f32) //
      ∀ (xi6 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg10.eq_unread hfs0; obtain rfl := harg11.eq_unread hfs1; obtain rfl := harg12.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexact HS0
    isplitl [HS1]; · iexact HS1
    iexact HS2

end Cert.KernelIdeal.Gen

end
-- ==== Proof.KI.PiecesE.lean ====
/- The runs' piece lists as explicit lists over the one-step functions: per control case, what the body's stores leave in the two row
   scratches, the accumulator and (where it is stored) the output block, each payload a function of the loaded blocks, the three rows
   found in front of the block (rows 5..7 of the incoming column block, or of the zero block just stored) and the incoming accumulator. -/
import proofs.«121193_j53343493816972_2_alg».proof.Proof.KI.RunE
import proofs.«121193_j53343493816972_2_alg».proof.Proof.KI.PiecesLib

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.Sem

variable {F : FTy → Type} [FloatOps F]

variable (c : Dev nD) (i : grid0.Coords)
  (arg3 : Memref sig .tc .vmem S1x512x2048 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S2048x512 .bf16) (harg6 : arg6.IsWhole)
  (arg7 : Memref sig .tc .vmem S4x8192 .f32) (harg7 : arg7.IsWhole)
  (arg8 : Memref sig .tc .vmem S4x8192 .f32) (harg8 : arg8.IsWhole)
  (arg9 : Memref sig .tc .vmem S1x512x2048 .f32) (harg9 : arg9.IsWhole)
  (arg10 : Memref sig .tc .vmem S8x8192 .f32) (harg10 : arg10.IsWhole)
  (arg11 : Memref sig .tc .vmem S8x8192 .f32) (harg11 : arg11.IsWhole)
  (arg12 : Memref sig .tc .vmem S512x2048 .f32) (harg12 : arg12.IsWhole)
  (x0 : Vec F S1x512x2048 .bf16) (x1 x2 : Vec F S512x2048 .bf16) (x3 : Vec F S2048x512 .bf16) (x4 x5 : Vec F S4x8192 .f32)
  (xs0 xs1 : Vec F S8x8192 .f32) (xs2 : Vec F S512x2048 .f32)

/-! ## Case E -/

theorem pieces_E_0 (hc1 : ¬cond0_1 i) (hc2 : ¬cond0_2 i) (hc3 : ¬cond0_3 i) :
    (kernelRun0_E c i arg3 harg3 arg4 harg4 arg5 harg5 arg6 harg6 arg7 harg7 arg8 harg8 arg9 harg9 arg10 harg10 arg11 harg11 arg12 harg12 hc1 hc2 hc3 x0 x1 x2 x3 x4 x5 xs0 xs1 xs2).1 = ([⟨R7 i, k0_pay1 (k0_pay18 (k0_pay9 x0 x1))⟩] : List (View.Piece (Elt F) S8x8192 .f32)) := by
  unfold kernelRun0_E
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_E_1 (hc1 : ¬cond0_1 i) (hc2 : ¬cond0_2 i) (hc3 : ¬cond0_3 i) :
    (kernelRun0_E c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.1 = ([⟨R7 i, k0_pay2 (k0_pay10 x0 x2)⟩] : List (View.Piece (Elt F) S8x8192 .f32)) := by
  unfold kernelRun0_E
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_E_2 (hc1 : ¬cond0_1 i) (hc2 : ¬cond0_2 i) (hc3 : ¬cond0_3 i) :
    (kernelRun0_E c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.1 = ([⟨RW2, accOf i x0 x1 x2 x3 x4 x5 (rowsIn i xs0) (rowsIn i xs1) xs2⟩] : List (View.Piece (Elt F) S512x2048 .f32)) := by
  unfold kernelRun0_E
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

end Cert.KernelIdeal.Gen

end
-- ==== Proof.KI.RunF.lean ====
/- The kernel body's run in case F: first branch not taken, second not taken, third taken. -/
import proofs.«121193_j53343493816972_2_alg».proof.Proof.KI.Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch buffers and the output block, as pieces (last first), in case F, with the proof that on
    whole memrefs — the inputs at their contents, the output block at anything, the three scratches at ARBITRARY
    incoming contents `xs0 xs1 xs2` — the body runs to the continuation holding the inputs as they were and each scratch at
    its incoming contents with the run's pieces written over them. -/
noncomputable def kernelRun0_F (c : Dev nD) (i : grid0.Coords) (arg3 : Memref sig .tc .vmem S1x512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S2048x512 .bf16) (harg6 : arg6.IsWhole) (arg7 : Memref sig .tc .vmem S4x8192 .f32) (harg7 : arg7.IsWhole) (arg8 : Memref sig .tc .vmem S4x8192 .f32) (harg8 : arg8.IsWhole) (arg9 : Memref sig .tc .vmem S1x512x2048 .f32) (harg9 : arg9.IsWhole) (arg10 : Memref sig .tc .vmem S8x8192 .f32) (harg10 : arg10.IsWhole) (arg11 : Memref sig .tc .vmem S8x8192 .f32) (harg11 : arg11.IsWhole) (arg12 : Memref sig .tc .vmem S512x2048 .f32) (harg12 : arg12.IsWhole)
    (hc1 : ¬cond0_1 i) (hc2 : ¬cond0_2 i) (hc3 : cond0_3 i)
    (x0 : Vec F S1x512x2048 .bf16) (x1 x2 : Vec F S512x2048 .bf16) (x3 : Vec F S2048x512 .bf16) (x4 x5 : Vec F S4x8192 .f32)
    (xs0 xs1 : Vec F S8x8192 .f32) (xs2 : Vec F S512x2048 .f32) :
    Σ' (L6 : List (View.Piece (Elt F) S1x512x2048 .f32)) (LS0 : List (View.Piece (Elt F) S8x8192 .f32)) (LS1 : List (View.Piece (Elt F) S8x8192 .f32)), { LS2 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0; obtain rfl := harg11.eq_unread hfs1; obtain rfl := harg12.eq_unread hfs2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexact HS0
    isplitl [HS1]; · iexact HS1
    iexact HS2

end Cert.KernelIdeal.Gen

end
-- ==== Proof.KI.PiecesF.lean ====
/- The runs' piece lists as explicit lists over the one-step functions: per control case, what the body's stores leave in the two row
   scratches, the accumulator and (where it is stored) the output block, each payload a function of the loaded blocks, the three rows
   found in front of the block (rows 5..7 of the incoming column block, or of the zero block just stored) and the incoming accumulator. -/
import proofs.«121193_j53343493816972_2_alg».proof.Proof.KI.RunF
import proofs.«121193_j53343493816972_2_alg».proof.Proof.KI.PiecesLib

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.Sem

variable {F : FTy → Type} [FloatOps F]

variable (c : Dev nD) (i : grid0.Coords)
  (arg3 : Memref sig .tc .vmem S1x512x2048 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S2048x512 .bf16) (harg6 : arg6.IsWhole)
  (arg7 : Memref sig .tc .vmem S4x8192 .f32) (harg7 : arg7.IsWhole)
  (arg8 : Memref sig .tc .vmem S4x8192 .f32) (harg8 : arg8.IsWhole)
  (arg9 : Memref sig .tc .vmem S1x512x2048 .f32) (harg9 : arg9.IsWhole)
  (arg10 : Memref sig .tc .vmem S8x8192 .f32) (harg10 : arg10.IsWhole)
  (arg11 : Memref sig .tc .vmem S8x8192 .f32) (harg11 : arg11.IsWhole)
  (arg12 : Memref sig .tc .vmem S512x2048 .f32) (harg12 : arg12.IsWhole)
  (x0 : Vec F S1x512x2048 .bf16) (x1 x2 : Vec F S512x2048 .bf16) (x3 : Vec F S2048x512 .bf16) (x4 x5 : Vec F S4x8192 .f32)
  (xs0 xs1 : Vec F S8x8192 .f32) (xs2 : Vec F S512x2048 .f32)

/-! ## Case F -/

theorem pieces_F_0 (hc1 : ¬cond0_1 i) (hc2 : ¬cond0_2 i) (hc3 : cond0_3 i) :
    (kernelRun0_F c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.1 = ([⟨R7 i, k0_pay1 (k0_pay18 (k0_pay9 x0 x1))⟩] : List (View.Piece (Elt F) S8x8192 .f32)) := by
  unfold kernelRun0_F
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_F_1 (hc1 : ¬cond0_1 i) (hc2 : ¬cond0_2 i) (hc3 : cond0_3 i) :
    (kernelRun0_F c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.1 = ([⟨R7 i, k0_pay2 (k0_pay10 x0 x2)⟩] : List (View.Piece (Elt F) S8x8192 .f32)) := by
  unfold kernelRun0_F
  dsimp only
  sl_unfold_run_names
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_F_2 (hc1 : ¬cond0_1 i) (hc2 : ¬cond0_2 i) (hc3 : cond0_3 i) :
    (kernelRun0_F c i arg3 harg3 arg4 harg4 arg5 harg5 arg6 harg6 arg7 harg7 arg8 harg8 arg9 harg9 arg10 harg10 arg11 harg11 arg12 harg12 hc1 hc2 hc3 x0 x1 x2 x3 x4 x5 xs0 xs1 xs2).2.2.2.1 = ([⟨RW2, accOf i x0 x1 x2 x3 x4 x5 (rowsIn i xs0) (rowsIn i xs1) xs2⟩] : List (View.Piece (Elt F) S512x2048 .f32)) := by
  unfold kernelRun0_F
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

theorem pieces_F_6 (hc1 : ¬cond0_1 i) (hc2 : ¬cond0_2 i) (hc3 : cond0_3 i) :
    (kernelRun0_F c i arg3 harg3 arg4 harg4 arg5 harg5 arg6 harg6 arg7 harg7 arg8 harg8 arg9 harg9 arg10 harg10 arg11 harg11 arg12 harg12 hc1 hc2 hc3 x0 x1 x2 x3 x4 x5 xs0 xs1 xs2).1 = ([⟨RW6, k0_pay4 (accOf i x0 x1 x2 x3 x4 x5 (rowsIn i xs0) (rowsIn i xs1) xs2)⟩] : List (View.Piece (Elt F) S1x512x2048 .f32)) := by
  unfold kernelRun0_F
  dsimp only
  sl_unfold_run_names
  unfold accOf gConvOf uConvOf
  simp only [View.readAt_eq_ld, harg3.read_unread, harg4.read_unread, harg5.read_unread, harg6.read_unread, harg7.read_unread,
    harg8.read_unread, harg10.read_unread, harg11.read_unread, harg12.read_unread,
    View.ld_unit_zero (S := S1x512x2048) hz3, View.ld_unit_zero (S := S512x2048) hz2, View.ld_unit_zero (S := S2048x512) hz2]
  repeat (first | rw [ld_rows] | rw [ld_tap3] | rw [ld_tap4] | rw [ld_tap5] | rw [ld_tap6] | rw [View.readCov_unit_zero (S := S512x2048) _ hz2])
  try rfl

end Cert.KernelIdeal.Gen

end
-- ==== Proof.KI.Body.lean ====
/-
  The body obligation and the frame run.

  At every grid point the body is run in the control case its column block and row block select (column block 0: the accumulator
  is reset; row block 0: the column block of the row scratches is zeroed first; column block 15: the accumulator is stored to the
  output block). The invariant (Data.lean) hands the body the scratches with the carried facts of the point before; the case's run
  (RunA … RunF) leaves them with explicit pieces written (PiecesA … PiecesF), of which the carried facts of this point hold (After.lean).
-/
import proofs.«121193_j53343493816972_2_alg».proof.Proof.KI.After
import proofs.«121193_j53343493816972_2_alg».proof.Proof.KI.PiecesA
import proofs.«121193_j53343493816972_2_alg».proof.Proof.KI.PiecesB
import proofs.«121193_j53343493816972_2_alg».proof.Proof.KI.PiecesC
import proofs.«121193_j53343493816972_2_alg».proof.Proof.KI.PiecesD
import proofs.«121193_j53343493816972_2_alg».proof.Proof.KI.PiecesE
import proofs.«121193_j53343493816972_2_alg».proof.Proof.KI.PiecesF

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t: the invariant, what the core owes, and every window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point. The point's column block and row block say which of the six control cases it is in; the invariant hands the body
    the three scratches at contents of which the carried facts of the point before hold (nothing, at the first point); that case's run
    applies; the scratches it leaves satisfy the carried facts of this point (After.lean); the output window is handed back untouched where
    the body does not store into it, and holds the accumulator where it does. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h1 : t.val % 16 = 0 <;> by_cases h2 : t.val / 16 % 4 = 0 <;> by_cases h3 : t.val % 16 = 15
  · exfalso; omega
  · -- column block 0, row block 0
    have hc1 : cond0_1 (grid0.coords t) := (hcond0_1 t).mpr h1
    have hc2 : cond0_2 (grid0.coords t) := (hcond0_2 t).mpr h2
    have hc3 : ¬cond0_3 (grid0.coords t) := fun h => h3 ((hcond0_3 t).mp h)
    rw [Dat.leavesExact_idle (dats m 0 c) 6 t (idleAt0_6 t hc3) (noFlush0_6 t hc3)]
    iintro ⟨HPhi, Ho, ⟨%d0, H0⟩, ⟨%d1, H1⟩, ⟨%d2, H2⟩, ⟨%d3, H3⟩, ⟨%d4, H4⟩, ⟨%d5, H5⟩, ⟨%d6, H6⟩⟩
    icases (Phi_in m c t) $$ HPhi with ⟨⟨%xs0, %xs1, %xs2, %hprev, HS0, HS1, HS2⟩, Hg⟩
    have hC : Carried m c t.val t.isLt
        (scM0_0.view.read (Elt F) (scM0_0.view.writes (Elt F) ((Memref.isWhole_whole _ : scM0_0.IsWhole).unread xs0) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).1))
        (scM0_1.view.read (Elt F) (scM0_1.view.writes (Elt F) ((Memref.isWhole_whole _ : scM0_1.IsWhole).unread xs1) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.1))
        (scM0_2.view.read (Elt F) (scM0_2.view.writes (Elt F) ((Memref.isWhole_whole _ : scM0_2.IsWhole).unread xs2) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.1)) := by
      refine carried_next m c t xs0 xs1 xs2 hprev _ _ _ ?_ ?_ ?_ ?_ ?_
      · rw [pieces_A_0]; exact rows_same scM0_0 (Memref.isWhole_whole _) (grid0.coords t) xs0 _ _ (t.val % 16) _ (coords_col t)
      · intro j' hj' hne; rw [pieces_A_0]; exact rows_other_zero scM0_0 (Memref.isWhole_whole _) (grid0.coords t) hc2 _ _ _ (t.val % 16) j' hj' hne (coords_col t)
      · rw [pieces_A_1]; exact rows_same scM0_1 (Memref.isWhole_whole _) (grid0.coords t) xs1 _ _ (t.val % 16) _ (coords_col t)
      · intro j' hj' hne; rw [pieces_A_1]; exact rows_other_zero scM0_1 (Memref.isWhole_whole _) (grid0.coords t) hc2 _ _ _ (t.val % 16) j' hj' hne (coords_col t)
      · rw [pieces_A_2]; exact (read_whole_store2 _ _ _ _).trans (acc_row0_col0 m c t h1 h2)
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2 ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · iexists _, _, _
        isplitr [HS0 HS1 HS2]; · ipureintro; exact hC
        isplitl [HS0]; · iapply (owns_intro (c : Thread nD τ) scM0_0 fullShare _); iexact HS0
        isplitl [HS1]; · iapply (owns_intro (c : Thread nD τ) scM0_1 fullShare _); iexact HS1
        iapply (owns_intro (c : Thread nD τ) scM0_2 fullShare _); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · exfalso; omega
  · -- column block 0, a later row block
    have hc1 : cond0_1 (grid0.coords t) := (hcond0_1 t).mpr h1
    have hc2 : ¬cond0_2 (grid0.coords t) := fun h => h2 ((hcond0_2 t).mp h)
    have hc3 : ¬cond0_3 (grid0.coords t) := fun h => h3 ((hcond0_3 t).mp h)
    rw [Dat.leavesExact_idle (dats m 0 c) 6 t (idleAt0_6 t hc3) (noFlush0_6 t hc3)]
    iintro ⟨HPhi, Ho, ⟨%d0, H0⟩, ⟨%d1, H1⟩, ⟨%d2, H2⟩, ⟨%d3, H3⟩, ⟨%d4, H4⟩, ⟨%d5, H5⟩, ⟨%d6, H6⟩⟩
    icases (Phi_in m c t) $$ HPhi with ⟨⟨%xs0, %xs1, %xs2, %hprev, HS0, HS1, HS2⟩, Hg⟩
    have hC : Carried m c t.val t.isLt
        (scM0_0.view.read (Elt F) (scM0_0.view.writes (Elt F) ((Memref.isWhole_whole _ : scM0_0.IsWhole).unread xs0) (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).1))
        (scM0_1.view.read (Elt F) (scM0_1.view.writes (Elt F) ((Memref.isWhole_whole _ : scM0_1.IsWhole).unread xs1) (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.1))
        (scM0_2.view.read (Elt F) (scM0_2.view.writes (Elt F) ((Memref.isWhole_whole _ : scM0_2.IsWhole).unread xs2) (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.1)) := by
      refine carried_next m c t xs0 xs1 xs2 hprev _ _ _ ?_ ?_ ?_ ?_ ?_
      · rw [pieces_D_0]; exact rows_same scM0_0 (Memref.isWhole_whole _) (grid0.coords t) xs0 _ _ (t.val % 16) _ (coords_col t)
      · intro j' hj' hne; rw [pieces_D_0]; exact rows_other_nil scM0_0 (Memref.isWhole_whole _) (grid0.coords t) _ _ (t.val % 16) j' hj' hne (coords_col t)
      · rw [pieces_D_1]; exact rows_same scM0_1 (Memref.isWhole_whole _) (grid0.coords t) xs1 _ _ (t.val % 16) _ (coords_col t)
      · intro j' hj' hne; rw [pieces_D_1]; exact rows_other_nil scM0_1 (Memref.isWhole_whole _) (grid0.coords t) _ _ (t.val % 16) j' hj' hne (coords_col t)
      · rw [pieces_D_2]; exact (read_whole_store2 _ _ _ _).trans (acc_col0 m c t h1 h2 xs0 xs1 xs2 hprev)
    iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2 ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · iexists _, _, _
        isplitr [HS0 HS1 HS2]; · ipureintro; exact hC
        isplitl [HS0]; · iapply (owns_intro (c : Thread nD τ) scM0_0 fullShare _); iexact HS0
        isplitl [HS1]; · iapply (owns_intro (c : Thread nD τ) scM0_1 fullShare _); iexact HS1
        iapply (owns_intro (c : Thread nD τ) scM0_2 fullShare _); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · -- column block 15, row block 0
    have hc1 : ¬cond0_1 (grid0.coords t) := fun h => h1 ((hcond0_1 t).mp h)
    have hc2 : cond0_2 (grid0.coords t) := (hcond0_2 t).mpr h2
    have hc3 : cond0_3 (grid0.coords t) := (hcond0_3 t).mpr h3
    rw [show (dats m 0 c).leavesExact 6 t = owns (c : Thread nD τ) (ms0_6 t) fullShare ((dats m 0 c).after 6 t) from by
      unfold Dat.leavesExact; rw [liveAt0_6 t hc3], after0_6]
    iintro ⟨HPhi, Ho, ⟨%d0, H0⟩, ⟨%d1, H1⟩, ⟨%d2, H2⟩, ⟨%d3, H3⟩, ⟨%d4, H4⟩, ⟨%d5, H5⟩, ⟨%d6, H6⟩⟩
    icases (Phi_in m c t) $$ HPhi with ⟨⟨%xs0, %xs1, %xs2, %hprev, HS0, HS1, HS2⟩, Hg⟩
    have hC : Carried m c t.val t.isLt
        (scM0_0.view.read (Elt F) (scM0_0.view.writes (Elt F) ((Memref.isWhole_whole _ : scM0_0.IsWhole).unread xs0) (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.1))
        (scM0_1.view.read (Elt F) (scM0_1.view.writes (Elt F) ((Memref.isWhole_whole _ : scM0_1.IsWhole).unread xs1) (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.1))
        (scM0_2.view.read (Elt F) (scM0_2.view.writes (Elt F) ((Memref.isWhole_whole _ : scM0_2.IsWhole).unread xs2) (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2.1)) := by
      refine carried_next m c t xs0 xs1 xs2 hprev _ _ _ ?_ ?_ ?_ ?_ ?_
      · rw [pieces_C_0]; exact rows_same scM0_0 (Memref.isWhole_whole _) (grid0.coords t) xs0 _ _ (t.val % 16) _ (coords_col t)
      · intro j' hj' hne; rw [pieces_C_0]; exact rows_other_zero scM0_0 (Memref.isWhole_whole _) (grid0.coords t) hc2 _ _ _ (t.val % 16) j' hj' hne (coords_col t)
      · rw [pieces_C_1]; exact rows_same scM0_1 (Memref.isWhole_whole _) (grid0.coords t) xs1 _ _ (t.val % 16) _ (coords_col t)
      · intro j' hj' hne; rw [pieces_C_1]; exact rows_other_zero scM0_1 (Memref.isWhole_whole _) (grid0.coords t) hc2 _ _ _ (t.val % 16) j' hj' hne (coords_col t)
      · rw [pieces_C_2]; exact (read_whole_store2 _ _ _ _).trans (acc_row0 m c t h1 h2 xs0 xs1 xs2 hprev)
    have hO : ∀ f6, (ms0_6 t).view.read (Elt F) ((ms0_6 t).view.writes (Elt F) f6 (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).1) = outAfter m c t := by
      intro f6; rw [pieces_C_6]; exact (read_whole_store3 _ _ _ _).trans (congrArg k0_pay4 (acc_row0 m c t h1 h2 xs0 xs1 xs2 hprev))
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%f6, H6⟩, HS0, HS1, HS2⟩
    isplitl [HS0 HS1 HS2 Hg]
    · isplitl [HS0 HS1 HS2]
      · iexists _, _, _
        isplitr [HS0 HS1 HS2]; · ipureintro; exact hC
        isplitl [HS0]; · iapply (owns_intro (c : Thread nD τ) scM0_0 fullShare _); iexact HS0
        isplitl [HS1]; · iapply (owns_intro (c : Thread nD τ) scM0_1 fullShare _); iexact HS1
        iapply (owns_intro (c : Thread nD τ) scM0_2 fullShare _); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [← hO f6]; iapply (owns_intro (c : Thread nD τ) (ms0_6 t) fullShare _); iexact H6
  · -- a middle column block, row block 0
    have hc1 : ¬cond0_1 (grid0.coords t) := fun h => h1 ((hcond0_1 t).mp h)
    have hc2 : cond0_2 (grid0.coords t) := (hcond0_2 t).mpr h2
    have hc3 : ¬cond0_3 (grid0.coords t) := fun h => h3 ((hcond0_3 t).mp h)
    rw [Dat.leavesExact_idle (dats m 0 c) 6 t (idleAt0_6 t hc3) (noFlush0_6 t hc3)]
    iintro ⟨HPhi, Ho, ⟨%d0, H0⟩, ⟨%d1, H1⟩, ⟨%d2, H2⟩, ⟨%d3, H3⟩, ⟨%d4, H4⟩, ⟨%d5, H5⟩, ⟨%d6, H6⟩⟩
    icases (Phi_in m c t) $$ HPhi with ⟨⟨%xs0, %xs1, %xs2, %hprev, HS0, HS1, HS2⟩, Hg⟩
    have hC : Carried m c t.val t.isLt
        (scM0_0.view.read (Elt F) (scM0_0.view.writes (Elt F) ((Memref.isWhole_whole _ : scM0_0.IsWhole).unread xs0) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).1))
        (scM0_1.view.read (Elt F) (scM0_1.view.writes (Elt F) ((Memref.isWhole_whole _ : scM0_1.IsWhole).unread xs1) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.1))
        (scM0_2.view.read (Elt F) (scM0_2.view.writes (Elt F) ((Memref.isWhole_whole _ : scM0_2.IsWhole).unread xs2) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.1)) := by
      refine carried_next m c t xs0 xs1 xs2 hprev _ _ _ ?_ ?_ ?_ ?_ ?_
      · rw [pieces_B_0]; exact rows_same scM0_0 (Memref.isWhole_whole _) (grid0.coords t) xs0 _ _ (t.val % 16) _ (coords_col t)
      · intro j' hj' hne; rw [pieces_B_0]; exact rows_other_zero scM0_0 (Memref.isWhole_whole _) (grid0.coords t) hc2 _ _ _ (t.val % 16) j' hj' hne (coords_col t)
      · rw [pieces_B_1]; exact rows_same scM0_1 (Memref.isWhole_whole _) (grid0.coords t) xs1 _ _ (t.val % 16) _ (coords_col t)
      · intro j' hj' hne; rw [pieces_B_1]; exact rows_other_zero scM0_1 (Memref.isWhole_whole _) (grid0.coords t) hc2 _ _ _ (t.val % 16) j' hj' hne (coords_col t)
      · rw [pieces_B_2]; exact (read_whole_store2 _ _ _ _).trans (acc_row0 m c t h1 h2 xs0 xs1 xs2 hprev)
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2 ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · iexists _, _, _
        isplitr [HS0 HS1 HS2]; · ipureintro; exact hC
        isplitl [HS0]; · iapply (owns_intro (c : Thread nD τ) scM0_0 fullShare _); iexact HS0
        isplitl [HS1]; · iapply (owns_intro (c : Thread nD τ) scM0_1 fullShare _); iexact HS1
        iapply (owns_intro (c : Thread nD τ) scM0_2 fullShare _); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · -- column block 15, a later row block
    have hc1 : ¬cond0_1 (grid0.coords t) := fun h => h1 ((hcond0_1 t).mp h)
    have hc2 : ¬cond0_2 (grid0.coords t) := fun h => h2 ((hcond0_2 t).mp h)
    have hc3 : cond0_3 (grid0.coords t) := (hcond0_3 t).mpr h3
    rw [show (dats m 0 c).leavesExact 6 t = owns (c : Thread nD τ) (ms0_6 t) fullShare ((dats m 0 c).after 6 t) from by
      unfold Dat.leavesExact; rw [liveAt0_6 t hc3], after0_6]
    iintro ⟨HPhi, Ho, ⟨%d0, H0⟩, ⟨%d1, H1⟩, ⟨%d2, H2⟩, ⟨%d3, H3⟩, ⟨%d4, H4⟩, ⟨%d5, H5⟩, ⟨%d6, H6⟩⟩
    icases (Phi_in m c t) $$ HPhi with ⟨⟨%xs0, %xs1, %xs2, %hprev, HS0, HS1, HS2⟩, Hg⟩
    have hC : Carried m c t.val t.isLt
        (scM0_0.view.read (Elt F) (scM0_0.view.writes (Elt F) ((Memref.isWhole_whole _ : scM0_0.IsWhole).unread xs0) (kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.1))
        (scM0_1.view.read (Elt F) (scM0_1.view.writes (Elt F) ((Memref.isWhole_whole _ : scM0_1.IsWhole).unread xs1) (kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.1))
        (scM0_2.view.read (Elt F) (scM0_2.view.writes (Elt F) ((Memref.isWhole_whole _ : scM0_2.IsWhole).unread xs2) (kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2.1)) := by
      refine carried_next m c t xs0 xs1 xs2 hprev _ _ _ ?_ ?_ ?_ ?_ ?_
      · rw [pieces_F_0]; exact rows_same scM0_0 (Memref.isWhole_whole _) (grid0.coords t) xs0 _ _ (t.val % 16) _ (coords_col t)
      · intro j' hj' hne; rw [pieces_F_0]; exact rows_other_nil scM0_0 (Memref.isWhole_whole _) (grid0.coords t) _ _ (t.val % 16) j' hj' hne (coords_col t)
      · rw [pieces_F_1]; exact rows_same scM0_1 (Memref.isWhole_whole _) (grid0.coords t) xs1 _ _ (t.val % 16) _ (coords_col t)
      · intro j' hj' hne; rw [pieces_F_1]; exact rows_other_nil scM0_1 (Memref.isWhole_whole _) (grid0.coords t) _ _ (t.val % 16) j' hj' hne (coords_col t)
      · rw [pieces_F_2]; exact (read_whole_store2 _ _ _ _).trans (acc_mid m c t h1 h2 xs0 xs1 xs2 hprev)
    have hO : ∀ f6, (ms0_6 t).view.read (Elt F) ((ms0_6 t).view.writes (Elt F) f6 (kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).1) = outAfter m c t := by
      intro f6; rw [pieces_F_6]; exact (read_whole_store3 _ _ _ _).trans (congrArg k0_pay4 (acc_mid m c t h1 h2 xs0 xs1 xs2 hprev))
    iapply ((kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%f6, H6⟩, HS0, HS1, HS2⟩
    isplitl [HS0 HS1 HS2 Hg]
    · isplitl [HS0 HS1 HS2]
      · iexists _, _, _
        isplitr [HS0 HS1 HS2]; · ipureintro; exact hC
        isplitl [HS0]; · iapply (owns_intro (c : Thread nD τ) scM0_0 fullShare _); iexact HS0
        isplitl [HS1]; · iapply (owns_intro (c : Thread nD τ) scM0_1 fullShare _); iexact HS1
        iapply (owns_intro (c : Thread nD τ) scM0_2 fullShare _); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [← hO f6]; iapply (owns_intro (c : Thread nD τ) (ms0_6 t) fullShare _); iexact H6
  · -- a middle column block, a later row block
    have hc1 : ¬cond0_1 (grid0.coords t) := fun h => h1 ((hcond0_1 t).mp h)
    have hc2 : ¬cond0_2 (grid0.coords t) := fun h => h2 ((hcond0_2 t).mp h)
    have hc3 : ¬cond0_3 (grid0.coords t) := fun h => h3 ((hcond0_3 t).mp h)
    rw [Dat.leavesExact_idle (dats m 0 c) 6 t (idleAt0_6 t hc3) (noFlush0_6 t hc3)]
    iintro ⟨HPhi, Ho, ⟨%d0, H0⟩, ⟨%d1, H1⟩, ⟨%d2, H2⟩, ⟨%d3, H3⟩, ⟨%d4, H4⟩, ⟨%d5, H5⟩, ⟨%d6, H6⟩⟩
    icases (Phi_in m c t) $$ HPhi with ⟨⟨%xs0, %xs1, %xs2, %hprev, HS0, HS1, HS2⟩, Hg⟩
    have hC : Carried m c t.val t.isLt
        (scM0_0.view.read (Elt F) (scM0_0.view.writes (Elt F) ((Memref.isWhole_whole _ : scM0_0.IsWhole).unread xs0) (kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).1))
        (scM0_1.view.read (Elt F) (scM0_1.view.writes (Elt F) ((Memref.isWhole_whole _ : scM0_1.IsWhole).unread xs1) (kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.1))
        (scM0_2.view.read (Elt F) (scM0_2.view.writes (Elt F) ((Memref.isWhole_whole _ : scM0_2.IsWhole).unread xs2) (kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.1)) := by
      refine carried_next m c t xs0 xs1 xs2 hprev _ _ _ ?_ ?_ ?_ ?_ ?_
      · rw [pieces_E_0]; exact rows_same scM0_0 (Memref.isWhole_whole _) (grid0.coords t) xs0 _ _ (t.val % 16) _ (coords_col t)
      · intro j' hj' hne; rw [pieces_E_0]; exact rows_other_nil scM0_0 (Memref.isWhole_whole _) (grid0.coords t) _ _ (t.val % 16) j' hj' hne (coords_col t)
      · rw [pieces_E_1]; exact rows_same scM0_1 (Memref.isWhole_whole _) (grid0.coords t) xs1 _ _ (t.val % 16) _ (coords_col t)
      · intro j' hj' hne; rw [pieces_E_1]; exact rows_other_nil scM0_1 (Memref.isWhole_whole _) (grid0.coords t) _ _ (t.val % 16) j' hj' hne (coords_col t)
      · rw [pieces_E_2]; exact (read_whole_store2 _ _ _ _).trans (acc_mid m c t h1 h2 xs0 xs1 xs2 hprev)
    iapply ((kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc1 hc2 hc3 (iblk m c 0 t) (iblk m c 1 t) (iblk m c 2 t) (iblk m c 3 t) (iblk m c 4 t) (iblk m c 5 t) xs0 xs1 xs2).2.2.2 ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · iexists _, _, _
        isplitr [HS0 HS1 HS2]; · ipureintro; exact hC
        isplitl [HS0]; · iapply (owns_intro (c : Thread nD τ) scM0_0 fullShare _); iexact HS0
        isplitl [HS1]; · iapply (owns_intro (c : Thread nD τ) scM0_1 fullShare _); iexact HS1
        iapply (owns_intro (c : Thread nD τ) scM0_2 fullShare _); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end without a fault and leaves its five argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Gen

end
-- ==== Proof.KValueProj.lean ====
/-
  The projections of a point are the specification's projections: entry (r, j) of the point's gate (up) projection is the
  projection of time step t · 512 + r of batch b against hidden channel f · 512 + j.
-/
import proofs.«121193_j53343493816972_2_alg».proof.Proof.KValueDefs

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

variable (P : PayFacts) (B : BlkFacts m c)
include P B

/-- The gate projection of a point, entry by entry. -/
theorem gNew_apply (n : Fin cfg0.N) (r j : Fin 512) :
    gNew m c n (ix2 r j) = GluSpec.proj (A0 m c) (A1 m c) (bOf n) (rowOf n r) (colOf n j) := by
  unfold gNew GluSpec.proj
  rw [P.proj9]
  refine Finset.sum_congr rfl fun d _ => ?_
  rw [B.blk0, B.blk1]

/-- The up projection of a point, entry by entry. -/
theorem uNew_apply (n : Fin cfg0.N) (r j : Fin 512) :
    uNew m c n (ix2 r j) = GluSpec.proj (A0 m c) (A2 m c) (bOf n) (rowOf n r) (colOf n j) := by
  unfold uNew GluSpec.proj
  rw [P.proj10]
  refine Finset.sum_congr rfl fun d _ => ?_
  rw [B.blk0, B.blk2]

end Cert.KernelIdeal.KernelValue

end
-- ==== Proof.KValueConv.lean ====
/-
  The convolved projections of a point are the specification's convolutions.

  The block the taps slide over is the point's 512 projected rows with three rows in front. Row q of it is, for q ≥ 3, row q - 3 of
  the point itself; for q < 3 it is row 509 + q of the same column block one row block earlier (time step (t - 1) · 512 + 509 + q
  = t · 512 + q - 3), or zero in the first row block (where t · 512 + q < 3: before the sequence starts). So row r + k of it is the
  projection k - 3 steps away from time step t · 512 + r, zero before the start: the specification's `back`. The kernel adds the four
  products to the residual one after the other, the specification adds their sum to it: one sum by associativity.
-/
import proofs.«121193_j53343493816972_2_alg».proof.Proof.KValueProj

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

variable (P : PayFacts) (B : BlkFacts m c)
include P B

/-- Tap k of the gate rows of the tap table, at channel j of the point. -/
theorem tapG_apply (k : Fin 4) (n : Fin cfg0.N) (j : Fin 512) :
    tapG m c k n (ix2 (0 : Fin 1) j) = GluSpec.tap (A4 m c) 0 (colOf n j) k := by
  show iblk (F := Ideal) m c 4 n (ix2 k (colOf n j)) = _
  rw [B.blk4]
  exact congrArg (fun q => A4 m c (ix2 q k)) (Fin.ext (by show (colOf n j).val = 0 * 8192 + (colOf n j).val; omega))

/-- Tap k of the up rows of the tap table, at channel j of the point. -/
theorem tapU_apply (k : Fin 4) (n : Fin cfg0.N) (j : Fin 512) :
    tapU m c k n (ix2 (0 : Fin 1) j) = GluSpec.tap (A4 m c) 1 (colOf n j) k := by
  show iblk (F := Ideal) m c 5 n (ix2 k (colOf n j)) = _
  rw [B.blk5]
  exact congrArg (fun q => A4 m c (ix2 q k)) (Fin.ext (by show 8192 + (colOf n j).val = 1 * 8192 + (colOf n j).val; omega))

/-- The three gate rows in front of a point's block: zero in the first row block, else rows 509 … 511 one row block earlier. -/
theorem haloInG_apply (n : Fin cfg0.N) (q : Fin 3) (j : Fin 512) :
    haloInG m c n (ix2 q j)
      = if n.val / 16 % 4 = 0 then 0 else gNew m c (prevRow n) (ix2 (⟨509 + q.val, by omega⟩ : Fin 512) j) := by
  unfold haloInG
  show (if n.val / 16 % 4 = 0 then k0_pay6 else keepG m c (prevRow n)) (ix2 (⟨5 + q.val, by omega⟩ : Fin 8) j) = _
  by_cases ht : n.val / 16 % 4 = 0
  · rw [if_pos ht, if_pos ht, P.zero6]
  · rw [if_neg ht, if_neg ht]
    unfold keepG
    rw [P.keep1]
    exact congrArg (fun i => gNew m c (prevRow n) (ix2 i j)) (Fin.ext (by show 504 + (5 + q.val) = 509 + q.val; omega))

/-- The three up rows in front of a point's block. -/
theorem haloInU_apply (n : Fin cfg0.N) (q : Fin 3) (j : Fin 512) :
    haloInU m c n (ix2 q j)
      = if n.val / 16 % 4 = 0 then 0 else uNew m c (prevRow n) (ix2 (⟨509 + q.val, by omega⟩ : Fin 512) j) := by
  unfold haloInU
  show (if n.val / 16 % 4 = 0 then k0_pay7 else keepU m c (prevRow n)) (ix2 (⟨5 + q.val, by omega⟩ : Fin 8) j) = _
  by_cases ht : n.val / 16 % 4 = 0
  · rw [if_pos ht, if_pos ht, P.zero7]
  · rw [if_neg ht, if_neg ht]
    unfold keepU
    rw [P.keep2]
    exact congrArg (fun i => uNew m c (prevRow n) (ix2 i j)) (Fin.ext (by show 504 + (5 + q.val) = 509 + q.val; omega))

/-- A projection one row block earlier, in the last three rows, is the projection three steps before the row it precedes. -/
theorem proj_prevRow (w : FVec Ideal GluSpec.SW .f32) (n : Fin cfg0.N) (ht : ¬ n.val / 16 % 4 = 0) (r j : Fin 512) (k : ℕ)
    (hq : r.val + k < 3) (h3 : 3 ≤ (rowOf n r).val + k) :
    GluSpec.proj (A0 m c) w (bOf (prevRow n)) (rowOf (prevRow n) (⟨509 + (r.val + k), by omega⟩ : Fin 512)) (colOf (prevRow n) j)
      = GluSpec.proj (A0 m c) w (bOf n) (⟨(rowOf n r).val + k - 3, by have := (rowOf n r).isLt; omega⟩ : Fin 2048) (colOf n j) := by
  have hN : cfg0.N = 128 := N_128
  have hn := n.isLt
  have e1 : bOf (prevRow n) = bOf n := Fin.ext (by show (n.val - 16) / 64 = n.val / 64; omega)
  have e2 : colOf (prevRow n) j = colOf n j := Fin.ext (by show (n.val - 16) % 16 * 512 + j.val = n.val % 16 * 512 + j.val; omega)
  have e3 : rowOf (prevRow n) (⟨509 + (r.val + k), by omega⟩ : Fin 512)
      = (⟨(rowOf n r).val + k - 3, by have := (rowOf n r).isLt; omega⟩ : Fin 2048) :=
    Fin.ext (by show (n.val - 16) / 16 % 4 * 512 + (509 + (r.val + k)) = n.val / 16 % 4 * 512 + r.val + k - 3; omega)
  rw [e1, e2, e3]

/-- Row r + k of the gate block with its three rows in front is the gate projection k - 3 steps from row r, zero before the start. -/
theorem extG_apply (n : Fin cfg0.N) (r j : Fin 512) (k : Fin 4) :
    k0_pay11 (F := Ideal) (iblk m c 0 n) (iblk m c 1 n) (haloInG m c n) (ix2 (⟨r.val + k.val, by omega⟩ : Fin 515) j)
      = GluSpec.back (A0 m c) (A1 m c) (bOf n) (rowOf n r) (colOf n j) k := by
  rw [P.ext11]
  unfold GluSpec.back
  by_cases hq : r.val + k.val < 3
  · rw [dif_pos hq, haloInG_apply m c P B]
    by_cases ht : n.val / 16 % 4 = 0
    · rw [if_pos ht, dif_neg (by show ¬ 3 ≤ n.val / 16 % 4 * 512 + r.val + k.val; omega)]
    · have h3 : 3 ≤ (rowOf n r).val + k.val := by show 3 ≤ n.val / 16 % 4 * 512 + r.val + k.val; omega
      rw [if_neg ht, dif_pos h3, gNew_apply m c P B]
      exact proj_prevRow m c P B (A1 m c) n ht r j k.val hq h3
  · have h3 : 3 ≤ (rowOf n r).val + k.val := by show 3 ≤ n.val / 16 % 4 * 512 + r.val + k.val; omega
    rw [dif_neg hq, dif_pos h3]
    have g := gNew_apply m c P B n (⟨r.val + k.val - 3, by omega⟩ : Fin 512) j
    unfold gNew at g
    rw [g]
    exact congrArg (fun i => GluSpec.proj (A0 m c) (A1 m c) (bOf n) i (colOf n j))
      (Fin.ext (by show n.val / 16 % 4 * 512 + (r.val + k.val - 3) = n.val / 16 % 4 * 512 + r.val + k.val - 3; omega))

/-- Row r + k of the up block with its three rows in front. -/
theorem extU_apply (n : Fin cfg0.N) (r j : Fin 512) (k : Fin 4) :
    k0_pay12 (F := Ideal) (iblk m c 0 n) (iblk m c 2 n) (haloInU m c n) (ix2 (⟨r.val + k.val, by omega⟩ : Fin 515) j)
      = GluSpec.back (A0 m c) (A2 m c) (bOf n) (rowOf n r) (colOf n j) k := by
  rw [P.ext12]
  unfold GluSpec.back
  by_cases hq : r.val + k.val < 3
  · rw [dif_pos hq, haloInU_apply m c P B]
    by_cases ht : n.val / 16 % 4 = 0
    · rw [if_pos ht, dif_neg (by show ¬ 3 ≤ n.val / 16 % 4 * 512 + r.val + k.val; omega)]
    · have h3 : 3 ≤ (rowOf n r).val + k.val := by show 3 ≤ n.val / 16 % 4 * 512 + r.val + k.val; omega
      rw [if_neg ht, dif_pos h3, uNew_apply m c P B]
      exact proj_prevRow m c P B (A2 m c) n ht r j k.val hq h3
  · have h3 : 3 ≤ (rowOf n r).val + k.val := by show 3 ≤ n.val / 16 % 4 * 512 + r.val + k.val; omega
    rw [dif_neg hq, dif_pos h3]
    have g := uNew_apply m c P B n (⟨r.val + k.val - 3, by omega⟩ : Fin 512) j
    unfold uNew at g
    rw [g]
    exact congrArg (fun i => GluSpec.proj (A0 m c) (A2 m c) (bOf n) i (colOf n j))
      (Fin.ext (by show n.val / 16 % 4 * 512 + (r.val + k.val - 3) = n.val / 16 % 4 * 512 + r.val + k.val - 3; omega))

/-- The convolved gate projection of a point, entry by entry. -/
theorem gConv_apply (n : Fin cfg0.N) (r j : Fin 512) :
    gConv m c n (ix2 r j) = GluSpec.conv (A0 m c) (A1 m c) (A4 m c) 0 (bOf n) (rowOf n r) (colOf n j) := by
  have g := gNew_apply m c P B n r j
  unfold gNew at g
  have e0 : k0_pay11 (F := Ideal) (iblk m c 0 n) (iblk m c 1 n) (haloInG m c n) (ix2 (⟨r.val + 0, by omega⟩ : Fin 515) j)
      = GluSpec.back (A0 m c) (A1 m c) (bOf n) (rowOf n r) (colOf n j) 0 := extG_apply m c P B n r j 0
  have e1 : k0_pay11 (F := Ideal) (iblk m c 0 n) (iblk m c 1 n) (haloInG m c n) (ix2 (⟨r.val + 1, by omega⟩ : Fin 515) j)
      = GluSpec.back (A0 m c) (A1 m c) (bOf n) (rowOf n r) (colOf n j) 1 := extG_apply m c P B n r j 1
  have e2 : k0_pay11 (F := Ideal) (iblk m c 0 n) (iblk m c 1 n) (haloInG m c n) (ix2 (⟨r.val + 2, by omega⟩ : Fin 515) j)
      = GluSpec.back (A0 m c) (A1 m c) (bOf n) (rowOf n r) (colOf n j) 2 := extG_apply m c P B n r j 2
  have e3 : k0_pay11 (F := Ideal) (iblk m c 0 n) (iblk m c 1 n) (haloInG m c n) (ix2 (⟨r.val + 3, by omega⟩ : Fin 515) j)
      = GluSpec.back (A0 m c) (A1 m c) (bOf n) (rowOf n r) (colOf n j) 3 := extG_apply m c P B n r j 3
  unfold gConv GluSpec.conv
  rw [P.convG, g, e0, e1, e2, e3, tapG_apply m c P B, tapG_apply m c P B, tapG_apply m c P B, tapG_apply m c P B]
  simp only [add_assoc]

/-- The convolved up projection of a point, entry by entry. -/
theorem uConv_apply (n : Fin cfg0.N) (r j : Fin 512) :
    uConv m c n (ix2 r j) = GluSpec.conv (A0 m c) (A2 m c) (A4 m c) 1 (bOf n) (rowOf n r) (colOf n j) := by
  have g := uNew_apply m c P B n r j
  unfold uNew at g
  have e0 : k0_pay12 (F := Ideal) (iblk m c 0 n) (iblk m c 2 n) (haloInU m c n) (ix2 (⟨r.val + 0, by omega⟩ : Fin 515) j)
      = GluSpec.back (A0 m c) (A2 m c) (bOf n) (rowOf n r) (colOf n j) 0 := extU_apply m c P B n r j 0
  have e1 : k0_pay12 (F := Ideal) (iblk m c 0 n) (iblk m c 2 n) (haloInU m c n) (ix2 (⟨r.val + 1, by omega⟩ : Fin 515) j)
      = GluSpec.back (A0 m c) (A2 m c) (bOf n) (rowOf n r) (colOf n j) 1 := extU_apply m c P B n r j 1
  have e2 : k0_pay12 (F := Ideal) (iblk m c 0 n) (iblk m c 2 n) (haloInU m c n) (ix2 (⟨r.val + 2, by omega⟩ : Fin 515) j)
      = GluSpec.back (A0 m c) (A2 m c) (bOf n) (rowOf n r) (colOf n j) 2 := extU_apply m c P B n r j 2
  have e3 : k0_pay12 (F := Ideal) (iblk m c 0 n) (iblk m c 2 n) (haloInU m c n) (ix2 (⟨r.val + 3, by omega⟩ : Fin 515) j)
      = GluSpec.back (A0 m c) (A2 m c) (bOf n) (rowOf n r) (colOf n j) 3 := extU_apply m c P B n r j 3
  unfold uConv GluSpec.conv
  rw [P.convU, g, e0, e1, e2, e3, tapU_apply m c P B, tapU_apply m c P B, tapU_apply m c P B, tapU_apply m c P B]
  simp only [add_assoc]

end Cert.KernelIdeal.KernelValue

end
-- ==== Proof.KValueAcc.lean ====
/-
  The accumulator after a point, and the block written out in column block 15, are the specification's sums.

  Within one batch and row block the sixteen column blocks f = 0 … 15 are consecutive points. The accumulator starts from zero at
  f = 0 and each point adds its 512 channels' products hidden · wd, so after column block f it holds the sum over the hidden channels
  below (f + 1) · 512, tile by tile; after f = 15 that is the sum over all 8192 hidden channels: the specification's output entry.
-/
import proofs.«121193_j53343493816972_2_alg».proof.Proof.KValueConv

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- Hidden channel q's contribution to output entry (b, t, d): the gated activation times the down weight (nothing beyond the 8192 channels). -/
def term (b : Fin 2) (t : Fin 2048) (d : Fin 2048) : ℕ → EReal := fun q =>
  if hq : q < 8192 then
    GluSpec.hidden (A0 m c) (A1 m c) (A2 m c) (A4 m c) b t (⟨q, hq⟩ : Fin 8192) * A3 m c (ix2 d (⟨q, hq⟩ : Fin 8192))
  else 0

variable (P : PayFacts) (B : BlkFacts m c)
include P B

/-- What a point adds to accumulator entry (r, d): the contributions of its 512 hidden channels. -/
theorem point_sum (n : Fin cfg0.N) (r : Fin 512) (d : Fin 2048) :
    ∑ j : Fin 512, (uConv m c n (ix2 r j) * (gConv m c n (ix2 r j) * Ideal.logistic (gConv m c n (ix2 r j))))
        * iblk (F := Ideal) m c 3 n (ix2 d j)
      = ∑ j : Fin 512, term m c (bOf n) (rowOf n r) d (n.val % 16 * 512 + j.val) := by
  refine Finset.sum_congr rfl fun j _ => ?_
  have hq : n.val % 16 * 512 + j.val < 8192 := (colOf n j).isLt
  rw [uConv_apply m c P B, gConv_apply m c P B, B.blk3]
  unfold term
  rw [dif_pos hq]
  rfl

/-- One point's step of the accumulator. -/
theorem accAt_step (n : Fin cfg0.N) (r : Fin 512) (d : Fin 2048) :
    accAt m c n.val n.isLt (ix2 r d)
      = accIn m c n (ix2 r d) + ∑ j : Fin 512, term m c (bOf n) (rowOf n r) d (n.val % 16 * 512 + j.val) := by
  rw [accAt_eq, P.accStep, point_sum m c P B]

/-- The accumulator after point k, by induction along the points: column block 0 starts from zero, a later one from the point before,
    which lies in the same batch and row block. -/
theorem accAt_aux (k : ℕ) : ∀ (hk : k < cfg0.N) (r : Fin 512) (d : Fin 2048),
    accAt m c k hk (ix2 r d)
      = ∑ F' ∈ Finset.range (k % 16 + 1), ∑ j : Fin 512, term m c (bOf ⟨k, hk⟩) (rowOf ⟨k, hk⟩ r) d (F' * 512 + j.val) := by
  induction k with
  | zero =>
    intro hk r d
    refine (accAt_step m c P B ⟨0, hk⟩ r d).trans ?_
    have h0 : accIn m c ⟨0, hk⟩ = k0_pay5 := if_pos rfl
    rw [h0, P.zero5, zero_add]
    exact (Finset.sum_range_one
      (fun F' => ∑ j : Fin 512, term m c (bOf ⟨0, hk⟩) (rowOf ⟨0, hk⟩ r) d (F' * 512 + j.val))).symm
  | succ k ih =>
    intro hk r d
    refine (accAt_step m c P B ⟨k + 1, hk⟩ r d).trans ?_
    by_cases hf : (k + 1) % 16 = 0
    · have h0 : accIn m c ⟨k + 1, hk⟩ = k0_pay5 := if_pos hf
      rw [h0, P.zero5, zero_add]
      show ∑ j : Fin 512, term m c (bOf ⟨k + 1, hk⟩) (rowOf ⟨k + 1, hk⟩ r) d ((k + 1) % 16 * 512 + j.val) = _
      rw [hf]
      exact (Finset.sum_range_one
        (fun F' => ∑ j : Fin 512, term m c (bOf ⟨k + 1, hk⟩) (rowOf ⟨k + 1, hk⟩ r) d (F' * 512 + j.val))).symm
    · have h1 : accIn m c ⟨k + 1, hk⟩ = accAt m c k (Nat.lt_of_succ_lt hk) := if_neg hf
      have hN : cfg0.N = 128 := N_128
      have ek : k % 16 + 1 = (k + 1) % 16 := by omega
      have eb : bOf ⟨k, Nat.lt_of_succ_lt hk⟩ = bOf ⟨k + 1, hk⟩ := Fin.ext (by show k / 64 = (k + 1) / 64; omega)
      have er : rowOf ⟨k, Nat.lt_of_succ_lt hk⟩ r = rowOf ⟨k + 1, hk⟩ r :=
        Fin.ext (by show k / 16 % 4 * 512 + r.val = (k + 1) / 16 % 4 * 512 + r.val; omega)
      rw [h1, ih (Nat.lt_of_succ_lt hk) r d, eb, er, ek]
      exact (Finset.sum_range_succ
        (fun F' => ∑ j : Fin 512, term m c (bOf ⟨k + 1, hk⟩) (rowOf ⟨k + 1, hk⟩ r) d (F' * 512 + j.val)) ((k + 1) % 16)).symm

/-- The accumulator after a point: the sum over the hidden channels of column blocks 0 … f, tile by tile. -/
theorem accAt_apply (n : Fin cfg0.N) (r : Fin 512) (d : Fin 2048) :
    accAt m c n.val n.isLt (ix2 r d)
      = ∑ F' ∈ Finset.range (n.val % 16 + 1), ∑ j : Fin 512, term m c (bOf n) (rowOf n r) d (F' * 512 + j.val) :=
  accAt_aux m c P B n.val n.isLt r d

/-- The block written out in column block 15 is the specification's output entry: the sixteen tiles together are all 8192 channels. -/
theorem out_value (n : Fin cfg0.N) (hn : n.val % 16 = 15) (r : Fin 512) (d : Fin 2048) :
    outAfter m c n (ix3 (0 : Fin 1) r d)
      = GluSpec.outAt (A0 m c) (A1 m c) (A2 m c) (A3 m c) (A4 m c) (bOf n) (rowOf n r) d := by
  have hs := accAt_apply m c P B n r d
  rw [hn] at hs
  unfold outAfter
  rw [P.out4, hs]
  exact ((Cert.Lib.TileSum.sum_tiles_of_eq 8192 16 512 rfl (term m c (bOf n) (rowOf n r) d)).symm).trans
    (Finset.sum_congr rfl fun q _ => dif_pos q.isLt)

end Cert.KernelIdeal.KernelValue

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.PayProj.lean ====
/-
  The two projections of a grid point, and each projection with its three halo rows in front, read at an index,
  at the extended reals. The x block is [1, 512, 2048] and a weight block is [512, 2048]: the block's leading unit
  axis is dropped, the weight block is transposed, and the product into a zero accumulator at (r, j) is the sum over
  the 2048 features d of x[0, r, d] · w[j, d]. The extended block is the 3 halo rows followed by the 512 new rows:
  row q is halo row q when q < 3 and new row q − 3 otherwise.
-/
import proofs.«121193_j53343493816972_2_alg».proof.Proof.Gen.KernelIdeal.Skeleton
import proofs.«121193_j53343493816972_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

variable [Cert.KernelIdeal.Facts]

open Cert.Bridge.LibMatmul

/-- The dimension numbers of the two projections are those of a plain 512×2048 by 2048×512 product. -/
theorem dotProj_eq : dot_S512x2048_S2048x512_S512x512_1_0_0_1_n_n = DotDims.plain 512 2048 512 := rfl

/-- The gate projection at (r, j): the row r of the x block against the row j of the gate weight block. -/
theorem proj9 (x : FVec Ideal S1x512x2048 .bf16) (w : FVec Ideal S512x2048 .bf16) (r j : Fin 512) :
    k0_pay9 (F := Ideal) x w (ix2 r j) = ∑ d : Fin 2048, x (ix3 (0 : Fin 1) r d) * w (ix2 j d) := by
  unfold k0_pay9 k0_pay8
  rw [shapeCast_self]
  refine (matmul_zero_apply (M := 512) (K := 2048) (N := 512) none _ _ r j).trans ?_
  refine Finset.sum_congr rfl fun d _ => ?_
  rw [shapeCast_1ab_ab_apply, transpose_ix2_apply]

/-- The up projection at (r, j): the row r of the x block against the row j of the up weight block. -/
theorem proj10 (x : FVec Ideal S1x512x2048 .bf16) (w : FVec Ideal S512x2048 .bf16) (r j : Fin 512) :
    k0_pay10 (F := Ideal) x w (ix2 r j) = ∑ d : Fin 2048, x (ix3 (0 : Fin 1) r d) * w (ix2 j d) := by
  unfold k0_pay10 k0_pay8
  rw [shapeCast_self]
  refine (matmul_zero_apply (M := 512) (K := 2048) (N := 512) none _ _ r j).trans ?_
  refine Finset.sum_congr rfl fun d _ => ?_
  rw [shapeCast_1ab_ab_apply, transpose_ix2_apply]

/-- The extended gate block at (q, j): halo row q for q < 3, the new projection's row q − 3 otherwise. -/
theorem ext11 (x : FVec Ideal S1x512x2048 .bf16) (w : FVec Ideal S512x2048 .bf16) (h : FVec Ideal S3x512 .f32)
    (q : Fin 515) (j : Fin 512) :
    k0_pay11 (F := Ideal) x w h (ix2 q j)
      = if hq : q.val < 3 then h (ix2 ⟨q.val, hq⟩ j) else k0_pay9 (F := Ideal) x w (ix2 ⟨q.val - 3, by omega⟩ j) := by
  unfold k0_pay11
  split
  · rename_i hq
    exact concatenate_pair_apply_left (t := S515x512) (s₁ := S3x512) (s₂ := S512x512) 0 h (k0_pay9 (F := Ideal) x w) _
      (ix2 q j) rfl (ix2 ⟨q.val, hq⟩ j) (fun b => by match b with | ⟨0, _⟩ => rfl | ⟨1, _⟩ => rfl)
  · rename_i hq
    exact concatenate_pair_apply_right (t := S515x512) (s₁ := S3x512) (s₂ := S512x512) 0 h (k0_pay9 (F := Ideal) x w) _
      (ix2 q j) rfl rfl (ix2 ⟨q.val - 3, by omega⟩ j)
      (fun b hb => by match b, hb with | ⟨0, _⟩, hb => exact absurd rfl hb | ⟨1, _⟩, _ => rfl)
      (by show (q.val - 3) + 3 = q.val; omega)

/-- The extended up block at (q, j): halo row q for q < 3, the new projection's row q − 3 otherwise. -/
theorem ext12 (x : FVec Ideal S1x512x2048 .bf16) (w : FVec Ideal S512x2048 .bf16) (h : FVec Ideal S3x512 .f32)
    (q : Fin 515) (j : Fin 512) :
    k0_pay12 (F := Ideal) x w h (ix2 q j)
      = if hq : q.val < 3 then h (ix2 ⟨q.val, hq⟩ j) else k0_pay10 (F := Ideal) x w (ix2 ⟨q.val - 3, by omega⟩ j) := by
  unfold k0_pay12
  split
  · rename_i hq
    exact concatenate_pair_apply_left (t := S515x512) (s₁ := S3x512) (s₂ := S512x512) 0 h (k0_pay10 (F := Ideal) x w) _
      (ix2 q j) rfl (ix2 ⟨q.val, hq⟩ j) (fun b => by match b with | ⟨0, _⟩ => rfl | ⟨1, _⟩ => rfl)
  · rename_i hq
    exact concatenate_pair_apply_right (t := S515x512) (s₁ := S3x512) (s₂ := S512x512) 0 h (k0_pay10 (F := Ideal) x w) _
      (ix2 q j) rfl rfl (ix2 ⟨q.val - 3, by omega⟩ j)
      (fun b hb => by match b, hb with | ⟨0, _⟩, hb => exact absurd rfl hb | ⟨1, _⟩, _ => rfl)
      (by show (q.val - 3) + 3 = q.val; omega)

end Cert.KernelIdeal.PayValue

end
-- ==== Proof.PayConv.lean ====
/-
  The causal four-tap convolution of a grid point, and the rows it keeps for the next point, read at an index, at
  the extended reals. The convolved block at (r, j) is the new projection there plus, tap by tap for k = 0, 1, 2, 3 and
  added from the left, the extended block's row r + k times the tap's weight for column j; each tap's weights are one
  row [1, 512] spread over the 512 rows. The kept rows are the last eight of the new projection: row r of the kept
  block is row 504 + r.
-/
import proofs.«121193_j53343493816972_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

variable [Cert.KernelIdeal.Facts]

/-- One tap of the convolution: the window of the extended block that starts at row o, times the tap's row of
    weights spread over the rows, read at (r, j), is the extended block at row r + o times the weight of column j. -/
theorem tap_apply (o : Nat) (e : FVec Ideal S515x512 .f32) (hs : S515x512.Slices ![o, 0] S512x512)
    (c : FVec Ideal S1x512 .f32) (h1 : S1x512.ShapeCasts S512) (h2 : S512.ShapeCasts S1x512)
    (hb : S1x512.Broadcasts S512x512) (r j : Fin 512) (k : Fin 515) (hk : k.val = r.val + o) :
    mulf (extractStridedSlice S512x512 ![o, 0] e hs)
        (broadcastTo S512x512 (shapeCast S1x512 (shapeCast S512 c h1) h2) hb) (ix2 r j)
      = e (ix2 k j) * c (ix2 (0 : Fin 1) j) := by
  rw [mulf_apply, slice2_axis0_apply o e hs r j k (by omega), broadcastTo_1b_ab_apply, shapeCast_a_1a_apply,
    shapeCast_1a_a_apply]

/-- The convolved gate block at (r, j). -/
theorem convG (x : FVec Ideal S1x512x2048 .bf16) (w : FVec Ideal S512x2048 .bf16) (h : FVec Ideal S3x512 .f32)
    (c0 c1 c2 c3 : FVec Ideal S1x512 .f32) (r j : Fin 512) :
    k0_pay16 (F := Ideal) (k0_pay11 x w h) (k0_pay13 x w h c0) c1 c2 c3 (ix2 r j)
      = (((k0_pay9 (F := Ideal) x w (ix2 r j)
            + k0_pay11 (F := Ideal) x w h (ix2 (⟨r.val + 0, by omega⟩ : Fin 515) j) * c0 (ix2 (0 : Fin 1) j))
            + k0_pay11 (F := Ideal) x w h (ix2 (⟨r.val + 1, by omega⟩ : Fin 515) j) * c1 (ix2 (0 : Fin 1) j))
            + k0_pay11 (F := Ideal) x w h (ix2 (⟨r.val + 2, by omega⟩ : Fin 515) j) * c2 (ix2 (0 : Fin 1) j))
            + k0_pay11 (F := Ideal) x w h (ix2 (⟨r.val + 3, by omega⟩ : Fin 515) j) * c3 (ix2 (0 : Fin 1) j) := by
  unfold k0_pay16 k0_pay13
  simp only [addf_apply]
  rw [tap_apply 0 _ _ c0 _ _ _ r j ⟨r.val + 0, by omega⟩ rfl, tap_apply 1 _ _ c1 _ _ _ r j ⟨r.val + 1, by omega⟩ rfl,
    tap_apply 2 _ _ c2 _ _ _ r j ⟨r.val + 2, by omega⟩ rfl, tap_apply 3 _ _ c3 _ _ _ r j ⟨r.val + 3, by omega⟩ rfl]

/-- The convolved up block at (r, j). -/
theorem convU (x : FVec Ideal S1x512x2048 .bf16) (w : FVec Ideal S512x2048 .bf16) (h : FVec Ideal S3x512 .f32)
    (c0 c1 c2 c3 : FVec Ideal S1x512 .f32) (r j : Fin 512) :
    k0_pay17 (F := Ideal) (k0_pay10 x w) (k0_pay12 x w h) (k0_pay14 x w h) (k0_pay15 c0) c1 c2 c3 (ix2 r j)
      = (((k0_pay10 (F := Ideal) x w (ix2 r j)
            + k0_pay12 (F := Ideal) x w h (ix2 (⟨r.val + 0, by omega⟩ : Fin 515) j) * c0 (ix2 (0 : Fin 1) j))
            + k0_pay12 (F := Ideal) x w h (ix2 (⟨r.val + 1, by omega⟩ : Fin 515) j) * c1 (ix2 (0 : Fin 1) j))
            + k0_pay12 (F := Ideal) x w h (ix2 (⟨r.val + 2, by omega⟩ : Fin 515) j) * c2 (ix2 (0 : Fin 1) j))
            + k0_pay12 (F := Ideal) x w h (ix2 (⟨r.val + 3, by omega⟩ : Fin 515) j) * c3 (ix2 (0 : Fin 1) j) := by
  unfold k0_pay17 k0_pay14 k0_pay15
  simp only [addf_apply]
  rw [tap_apply 0 _ _ c0 _ _ _ r j ⟨r.val + 0, by omega⟩ rfl, tap_apply 1 _ _ c1 _ _ _ r j ⟨r.val + 1, by omega⟩ rfl,
    tap_apply 2 _ _ c2 _ _ _ r j ⟨r.val + 2, by omega⟩ rfl, tap_apply 3 _ _ c3 _ _ _ r j ⟨r.val + 3, by omega⟩ rfl]

/-- The gate rows kept for the next point: row r of the kept block is row 504 + r of the new projection. -/
theorem keep1 (v : FVec Ideal S512x512 .f32) (r : Fin 8) (j : Fin 512) :
    k0_pay1 (F := Ideal) (k0_pay18 v) (ix2 r j) = v (ix2 (⟨504 + r.val, by omega⟩ : Fin 512) j) := by
  unfold k0_pay1 k0_pay18
  rw [shapeCast_self]
  exact slice2_axis0_apply 504 v _ r j _ rfl

/-- The up rows kept for the next point: row r of the kept block is row 504 + r of the new projection. -/
theorem keep2 (v : FVec Ideal S512x512 .f32) (r : Fin 8) (j : Fin 512) :
    k0_pay2 (F := Ideal) v (ix2 r j) = v (ix2 (⟨504 + r.val, by omega⟩ : Fin 512) j) := by
  unfold k0_pay2
  rw [shapeCast_self]
  exact slice2_axis0_apply 504 v _ r j _ rfl

end Cert.KernelIdeal.PayValue

end
-- ==== Proof.PayAcc.lean ====
/-
  The accumulator of a grid point, its reset, the halo's reset and the output block, read at an index, at the
  extended reals. One step adds to the accumulator at (r, d) the sum over the 512 hidden columns j of
  up[r, j] · (gate[r, j] · logistic gate[r, j]) times the down weight block's entry [d, j]: the narrowing to bf16 is
  the identity on extended reals, the down block [2048, 512] is transposed, and the product goes into a zero
  accumulator. The resets store the zero word's value, 0. The output block [1, 512, 2048] is the accumulator with a
  leading unit axis.
-/
import proofs.«121193_j53343493816972_2_alg».proof.Proof.Gen.KernelIdeal.Skeleton
import proofs.«121193_j53343493816972_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

variable [Cert.KernelIdeal.Facts]

open Cert.Bridge.LibMatmul

/-- The dimension numbers of the down projection are those of a plain 512×512 by 512×2048 product. -/
theorem dotDown_eq : dot_S512x512_S512x2048_S512x2048_1_0_0_1_n_n = DotDims.plain 512 512 2048 := rfl

/-- One step of the accumulator at (r, d). -/
theorem accStep (g u : FVec Ideal S512x512 .f32) (wd : FVec Ideal S2048x512 .bf16) (acc : FVec Ideal S512x2048 .f32)
    (r : Fin 512) (d : Fin 2048) :
    k0_pay3 (F := Ideal) g u wd acc (ix2 r d)
      = acc (ix2 r d) + ∑ j : Fin 512, (u (ix2 r j) * (g (ix2 r j) * Ideal.logistic (g (ix2 r j)))) * wd (ix2 d j) := by
  unfold k0_pay3
  rw [shapeCast_self, shapeCast_self, addf_apply]
  refine congrArg (acc (ix2 r d) + ·) ?_
  refine (matmul_zero_apply (M := 512) (K := 512) (N := 2048) none _ _ r d).trans ?_
  refine Finset.sum_congr rfl fun j _ => ?_
  rw [transpose_ix2_apply]
  rfl

/-- The output block at (0, r, d) is the accumulator at (r, d). -/
theorem out4 (v : FVec Ideal S512x2048 .f32) (r : Fin 512) (d : Fin 2048) :
    k0_pay4 (F := Ideal) v (ix3 (0 : Fin 1) r d) = v (ix2 r d) := by
  unfold k0_pay4
  exact shapeCast_ab_1ab_apply v _ 0 r d

/-- The accumulator's reset is 0 everywhere. -/
theorem zero5 (i : S512x2048.Idx) : k0_pay5 (F := Ideal) i = 0 := by
  unfold k0_pay5
  rw [shapeCast_self]
  exact Ideal.ofBits_zero_f32

/-- The gate halo's reset is 0 everywhere. -/
theorem zero6 (i : S8x512.Idx) : k0_pay6 (F := Ideal) i = 0 := by
  unfold k0_pay6
  rw [shapeCast_self]
  exact Ideal.ofBits_zero_f32

/-- The up halo's reset is 0 everywhere. -/
theorem zero7 (i : S8x512.Idx) : k0_pay7 (F := Ideal) i = 0 := by
  unfold k0_pay7
  rw [shapeCast_self]
  exact Ideal.ofBits_zero_f32

end Cert.KernelIdeal.PayValue

end
-- ==== Proof.KValueInst.lean ====
/-
  The kernel's stored block as the specification's output entry, with the payloads' and the blocks' entry-by-entry values filled in.
-/
import proofs.«121193_j53343493816972_2_alg».proof.Proof.KValueAcc
import proofs.«121193_j53343493816972_2_alg».proof.Proof.PayProj
import proofs.«121193_j53343493816972_2_alg».proof.Proof.PayConv
import proofs.«121193_j53343493816972_2_alg».proof.Proof.PayAcc
import proofs.«121193_j53343493816972_2_alg».proof.Proof.Blocks

noncomputable section

namespace Cert.KernelIdeal.KernelValue

open Cert.KernelIdeal Cert.KernelIdeal.Gen Idealize.ShloMosaic Idealize.ShloMosaic.TcCoe Idealize.SL.Sem
open Idealize.ShloMosaic.ValueIdx

/-- The payloads of the body, entry by entry. -/
theorem payFacts : PayFacts where
  proj9 := PayValue.proj9
  proj10 := PayValue.proj10
  keep1 := PayValue.keep1
  keep2 := PayValue.keep2
  ext11 := PayValue.ext11
  ext12 := PayValue.ext12
  convG := PayValue.convG
  convU := PayValue.convU
  accStep := PayValue.accStep
  out4 := PayValue.out4
  zero5 := PayValue.zero5
  zero6 := PayValue.zero6
  zero7 := PayValue.zero7

/-- The windows' blocks at a point, entry by entry, as parts of the argument arrays. -/
theorem blkFacts (m : (ℓ : Loc nD τ sig) → Buf (Elt Ideal) ℓ) (c : Dev nD) : BlkFacts m c where
  blk0 := fun n r d => BlockValue.blk0 m c n r d
  blk1 := fun n j d => BlockValue.blk1 m c n j d
  blk2 := fun n j d => BlockValue.blk2 m c n j d
  blk3 := fun n d j => BlockValue.blk3 m c n d j
  blk4 := fun n k q => BlockValue.blk4 m c n k q
  blk5 := fun n k q => BlockValue.blk5 m c n k q

/-- The block written out in column block 15 is the specification's output entry. -/
theorem out_value' (m : (ℓ : Loc nD τ sig) → Buf (Elt Ideal) ℓ) (c : Dev nD) (n : Fin cfg0.N) (hn : n.val % 16 = 15)
    (r : Fin 512) (d : Fin 2048) :
    Gen.outAfter m c n (ix3 (0 : Fin 1) r d)
      = GluSpec.outAt (A0 m c) (A1 m c) (A2 m c) (A3 m c) (A4 m c) (bOf n) (rowOf n r) d :=
  out_value m c payFacts (blkFacts m c) n hn r d

end Cert.KernelIdeal.KernelValue

end
-- ==== Proof.lean ====
/- The certificate's five claims, assembled.

   Three frames: the kernel, as printed and read on the extended reals, and the reference each run to the end without fault and
   leave the five argument arrays (the activations x, the gate, up and down weights, the convolution taps) as they found them.
   The idealization rewrote no operation, so the kernel on the extended reals is the printed kernel's own text read there.

   The value claim, on the extended reals, from memories that agree on the arguments: both programs end with the same result
   array, the gated feed-forward layer's output as ONE function of the arguments (Spec.lean),
     out[b,t,d] = Σ_f hidden b t f · w_down[d,f],   hidden = conv_up · (conv_gate · logistic conv_gate),
     conv b t f = proj b t f + Σ_{k<4} proj b (t+k-3) f · taps[f,k]   (zero before the sequence starts),   proj b t f = Σ_d x[b,t,d] · w[f,d].
   The reference computes that sum over all 8192 hidden channels at once. The kernel computes it tile by tile: for each batch and
   block of 512 time steps it walks the sixteen blocks of 512 hidden channels, adds each block's partial sum into an accumulator
   and carries the last three projected rows of the previous time block for the convolution's reach into the past. The law that
   joins the two sides is that a sum over the hidden channels is the sum over the sixteen column blocks of the sums inside each
   block: addition on the extended reals is associative and commutative, and nothing else about the numbers is used. -/
import proofs.«121193_j53343493816972_2_alg».proof.Defs
import proofs.«121193_j53343493816972_2_alg».proof.Proof.Gen.Kernel
import proofs.«121193_j53343493816972_2_alg».proof.Proof.Gen.Kernel.Skeleton
import proofs.«121193_j53343493816972_2_alg».proof.Proof.Gen.Kernel.Launch
import proofs.«121193_j53343493816972_2_alg».proof.Proof.Gen.Kernel.Points
import proofs.«121193_j53343493816972_2_alg».proof.Proof.Gen.Kernel.Frame
import proofs.«121193_j53343493816972_2_alg».proof.Proof.Gen.KernelIdeal
import proofs.«121193_j53343493816972_2_alg».proof.Proof.Gen.KernelIdeal.Skeleton
import proofs.«121193_j53343493816972_2_alg».proof.Proof.Gen.KernelIdeal.Launch
import proofs.«121193_j53343493816972_2_alg».proof.Proof.Gen.KernelIdeal.Points
import proofs.«121193_j53343493816972_2_alg».proof.Proof.Gen.KernelIdeal.Frame
import proofs.«121193_j53343493816972_2_alg».proof.Proof.Gen.ReferenceIdeal
import proofs.«121193_j53343493816972_2_alg».proof.Proof.Gen.ReferenceIdeal.Run
import proofs.«121193_j53343493816972_2_alg».proof.Proof.Gen.ReferenceIdeal.Read
import proofs.«121193_j53343493816972_2_alg».proof.Proof.Gen.Pre_finite_inputs
import proofs.«121193_j53343493816972_2_alg».proof.Proof.RefStages
import proofs.«121193_j53343493816972_2_alg».proof.Proof.KernelFinal
import proofs.«121193_j53343493816972_2_alg».proof.Proof.K.Body
import proofs.«121193_j53343493816972_2_alg».proof.Proof.KI.Body
import proofs.«121193_j53343493816972_2_alg».proof.Proof.KValueInst
import Idealize.ShloMosaic.Adequacy
import Idealize.ShloMosaic.Init

noncomputable section

namespace Cert.Proof

open Idealize.ShloMosaic Idealize.SL.Sem
open Cert.KernelIdeal.KernelValue (A0 A1 A2 A3 A4)

/-- The printed kernel runs to the end and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from arguments that agree, the kernel's result array and the reference's are both the layer's output
    `GluSpec.out` of the five arguments: the kernel's by its accumulation over the sixteen blocks of hidden channels, the reference's
    by its one sum over all of them — the same sum, regrouped by column block. -/
theorem algebraic : Cert.algebraic_KernelIdeal_ReferenceIdeal := by
  intro m ρ m' ρ' _ hagree
  refine ⟨fun c => Cert.GluSpec.out (A0 m c) (A1 m c) (A2 m c) (A3 m c) (A4 m c),
    Cert.KernelIdeal.KernelValue.kernel_run m ρ (Cert.KernelIdeal.Gen.run_main (F := Ideal) m ρ)
      (fun c n hn r d => Cert.KernelIdeal.KernelValue.out_value' m c n hn r d), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.ReferenceIdeal.RefValue.ref_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
